-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x128 : Shape := ⟨2, ![16384, 128]⟩
abbrev S16384x16384 : Shape := ⟨2, ![16384, 16384]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S16384x128 : S_.BroadcastsInDim S16384x128 (![] : Fin 0 → Fin S16384x128.rank)
  reducesTo_S16384x128_S_d0_1 : S16384x128.ReducesTo [0, 1] S_
  h_S_ : 0 < S_.numel
  bcast_S_S16384x16384 : S_.BroadcastsInDim S16384x16384 (![] : Fin 0 → Fin S16384x16384.rank)
  reducesTo_S16384x16384_S_d0_1 : S16384x16384.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S128x64 .f32) (main_arg5 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg4
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S16384x128 .f32) (main_arg1 : FVec F S16384x16384 .f32) (main_arg2 : FVec F S128x128 .f32) (main_arg3 : FVec F S128 .f32) (main_arg4 : FVec F S128x64 .f32) (main_arg5 : FVec F S64 .f32) : IVec S_ 1 :=
  let main_v0 : FVec F S16384x128 .f32 := Host.absf main_arg0
  let main_cst : FVec F S_ .f32 := constant S_ .f32 0x7F800000#32
  let main_v1 : FVec F S16384x128 .f32 := broadcastInDim S16384x128 ![] bcast_S_S16384x128 main_cst
  let main_v2 : IVec S16384x128 1 := cmpf .olt main_v0 main_v1
  let main_c : IVec S_ 1 := constantI S_ 1 1#1
  let main_v3 : IVec S_ 1 := (fun x v => Host.reduce IntOp.andi x v reducesTo_S16384x128_S_d0_1 h_S_) main_v2 main_c
  let main_v4 : FVec F S16384x16384 .f32 := Host.absf main_arg1
  let main_cst_0 : FVec F S_ .f32 := constant S_ .f32 0x7F800000#32
  let main_v5 : FVec F S16384x16384 .f32 := broadcastInDim S16384x16384 ![] bcast_S_S16384x16384 main_cst_0
  let main_v6 : IVec S16384x16384 1 := cmpf .olt main_v4 main_v5
  let main_c_1 : IVec S_ 1 := constantI S_ 1 1#1
  let main_v7 : IVec S_ 1 := (fun x v => Host.reduce IntOp.andi x v reducesTo_S16384x16384_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_v13 main_v16
-- ==== Kernel.lean ====
abbrev S16384x128 : Shape := ⟨2, ![16384, 128]⟩
abbrev S16384x16384 : Shape := ⟨2, ![16384, 16384]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1024x128 : Shape := ⟨2, ![1024, 128]⟩
abbrev S2048x1024 : Shape := ⟨2, ![2048, 1024]⟩
abbrev S2048x128 : Shape := ⟨2, ![2048, 128]⟩
abbrev S1x128 : Shape := ⟨2, ![1, 128]⟩
abbrev S_ : Shape := ⟨0, ![]⟩
abbrev S16384x64 : Shape := ⟨2, ![16384, 64]⟩

abbrev nBuf : Space → Nat
  | .hbm => 15
  | .vmem => 18
  | .smem => 0
  | _ => 0

abbrev bufTy : (tb : Table) → Fin (tcTables nBuf tb) → BufTy
  | .hbm, ⟨0, _⟩ => ⟨S16384x128, .f32⟩
  | .hbm, ⟨1, _⟩ => ⟨S16384x16384, .f32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S16384x128, .bf16⟩
  | .hbm, ⟨7, _⟩ => ⟨S_, .i32⟩
  | .hbm, ⟨8, _⟩ => ⟨S_, .f32⟩
  | .hbm, ⟨9, _⟩ => ⟨S128x128, .f32⟩
  | .hbm, ⟨10, _⟩ => ⟨S_, .i32⟩
  | .hbm, ⟨11, _⟩ => ⟨S_, .f32⟩
  | .hbm, ⟨12, _⟩ => ⟨S128, .f32⟩
  | .hbm, ⟨13, _⟩ => ⟨S16384x128, .f32⟩
  | .hbm, ⟨14, _⟩ => ⟨S16384x64, .f32⟩
  | .local _ .vmem, ⟨0, _⟩ => ⟨S1024x128, .f32⟩
  | .local _ .vmem, ⟨1, _⟩ => ⟨S1024x128, .f32⟩
  | .local _ .vmem, ⟨2, _⟩ => ⟨S2048x1024, .f32⟩
  | .local _ .vmem, ⟨3, _⟩ => ⟨S2048x1024, .f32⟩
  | .local _ .vmem, ⟨4, _⟩ => ⟨S128x128, .f32⟩
  | .local _ .vmem, ⟨5, _⟩ => ⟨S128, .f32⟩
  | .local _ .vmem, ⟨6, _⟩ => ⟨S2048x128, .bf16⟩
  | .local _ .vmem, ⟨7, _⟩ => ⟨S2048x128, .bf16⟩
  | .local _ .vmem, ⟨8, _⟩ => ⟨S2048x128, .f32⟩
  | .local _ .vmem, ⟨9, _⟩ => ⟨S1024x128, .bf16⟩
  | .local _ .vmem, ⟨10, _⟩ => ⟨S1024x128, .bf16⟩
  | .local _ .vmem, ⟨11, _⟩ => ⟨S2048x1024, .f32⟩
  | .local _ .vmem, ⟨12, _⟩ => ⟨S2048x1024, .f32⟩
  | .local _ .vmem, ⟨13, _⟩ => ⟨S128x128, .f32⟩
  | .local _ .vmem, ⟨14, _⟩ => ⟨S128, .f32⟩
  | .local _ .vmem, ⟨15, _⟩ => ⟨S2048x128, .f32⟩
  | .local _ .vmem, ⟨16, _⟩ => ⟨S2048x128, .f32⟩
  | .local _ .vmem, ⟨17, _⟩ => ⟨S2048x128, .f32⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_v1 : Ref sig .tc := ⟨.hbm, 9, rfl⟩
abbrev main_c_0 : Ref sig .tc := ⟨.hbm, 10, rfl⟩
abbrev main_call1_v0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg4_1 : Ref sig .tc := ⟨.vmem, 16, rfl⟩
abbrev cc1_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨2, ![8, 16], ![false, false]⟩

def k0_cond2 (i : grid0.Coords) : BitVec 1 :=
  let arg1 : BitVec 32 := BitVec.ofNat 32 (i 1).val
  let c15_i32 : BitVec 32 := 15#32
  let v17 : BitVec 1 := Scalar.cmpi .eq arg1 c15_i32
  let v18 : BitVec 32 := Scalar.extui v17
  let c0_i32_11 : BitVec 32 := 0#32
  let v19 : BitVec 1 := Scalar.cmpi .ne v18 c0_i32_11
  v19

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev grid1 : Pipeline.Grid := ⟨2, ![8, 16], ![false, false]⟩

def k1_cond2 (i : grid1.Coords) : BitVec 1 :=
  let arg1 : BitVec 32 := BitVec.ofNat 32 (i 1).val
  let c15_i32 : BitVec 32 := 15#32
  let v18 : BitVec 1 := Scalar.cmpi .eq arg1 c15_i32
  let v19 : BitVec 32 := Scalar.extui v18
  let c0_i32_11 : BitVec 32 := 0#32
  let v20 : BitVec 1 := Scalar.cmpi .ne v19 c0_i32_11
  v20

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S2048x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S2048x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

class Facts₀ : Prop where
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S1024x128_S1024x128_0_0 : ∀ a, (![0, 0] : Fin 2 → Nat) a + S1024x128.size a ≤ S1024x128.size a
  h_S1024x128 : 0 < S1024x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S2048x1024_S2048x1024_0_0 : ∀ a, (![0, 0] : Fin 2 → Nat) a + S2048x1024.size a ≤ S2048x1024.size a
  h_S2048x1024 : 0 < S2048x1024.numel
  inb_S128_S128_0 : ∀ a, (![0] : Fin 1 → Nat) a + S128.size a ≤ S128.size a
  h_S128 : 0 < S128.numel
  shapeCasts_S128_S1x128 : S128.ShapeCasts S1x128
  broadcasts_S1x128_S2048x128 : S1x128.Broadcasts S2048x128
  packedbf16_S2048x128_S2048x128_0_0 : (Rect.unit (s := S2048x128) ![0, 0] S2048x128.size inb_S2048x128_S2048x128_0_0).PackedRows (EltTy.packing .bf16)
  pads_S128x64_S128x128_000_0640 : S128x64.Pads (![0, 0] : Fin 2 → Nat) ![0, 64] ![0, 0] S128x128
  h_S_ : 0 < S_.numel
  pads_S64_S128_0640 : S64.Pads (![0] : Fin 1 → Nat) ![64] ![0] S128
  shapeCasts_S1024x128_S1024x128 : S1024x128.ShapeCasts S1024x128
  shapeCasts_S128x128_S128x128 : S128x128.ShapeCasts S128x128
  shapeCasts_S128_S128 : S128.ShapeCasts S128
  slices_S16384x128_S16384x64_0_0 : S16384x128.Slices ![0, 0] S16384x64
  dot_S1024x128_S128x128_S1024x128_1_0_0_1_n_n_wf : DotDims.WF S1024x128 S128x128 S1024x128 [1] [0] [0] [1] [] []
  dot_S2048x1024_S1024x128_S2048x128_1_0_0_1_n_n_wf : DotDims.WF S2048x1024 S1024x128 S2048x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S16384x128.size a
  hwx0_0 : ∀ i : grid0.Coords, EltTy.bits .f32 = 32 ∨ (Rect.block (s := S16384x128) S1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1024.size a ≤ S16384x16384.size a
  hwx0_1 : ∀ i : grid0.Coords, EltTy.bits .f32 = 32 ∨ (Rect.block (s := S16384x16384) S2048x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x128.size a ≤ S16384x128.size a
  hwx0_4 : ∀ i : grid0.Coords, EltTy.bits .bf16 = 32 ∨ (Rect.block (s := S16384x128) S2048x128.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x128.size a ≤ S16384x128.size a
  hwx1_0 : ∀ i : grid1.Coords, EltTy.bits .bf16 = 32 ∨ (Rect.block (s := S16384x128) S1024x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x1024.size a ≤ S16384x16384.size a
  hwx1_1 : ∀ i : grid1.Coords, EltTy.bits .f32 = 32 ∨ (Rect.block (s := S16384x16384) S2048x1024.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2048x128.size a ≤ S16384x128.size a
  hwx1_4 : ∀ i : grid1.Coords, EltTy.bits .f32 = 32 ∨ (Rect.block (s := S16384x128) S2048x128.size (cc1_transform_4 i) (hinb1_4 i)).WholeWords (EltTy.packing .f32)

variable [Facts₀]

def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf
def dot_S2048x1024_S1024x128_S2048x128_1_0_0_1_n_n : DotDims S2048x1024 S1024x128 S2048x128 where
  lhsContracting := [1]
  rhsContracting := [0]
  lhsNonContracting := [0]
  rhsNonContracting := [1]
  lhsBatch := []
  rhsBatch := []
  wf := dot_S2048x1024_S1024x128_S2048x128_1_0_0_1_n_n_wf

abbrev win0_0 : Pipeline.Window sig grid0 :=
  Pipeline.Window.ofSpec (Memref.whole main_arg0) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S2048x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

abbrev win1_0 : Pipeline.Window sig grid1 :=
  Pipeline.Window.ofSpec (Memref.whole main_v0) S1024x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S2048x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v2) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v3) S2048x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

class Facts : Prop extends Facts₀ where

variable [Facts]
-- ==== ReferenceIdeal.lean ====
abbrev S16384x128 : Shape := ⟨2, ![16384, 128]⟩
abbrev S16384x16384 : Shape := ⟨2, ![16384, 16384]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x128 : Shape := ⟨2, ![1, 128]⟩
abbrev S_ : Shape := ⟨0, ![]⟩
abbrev S16384x64 : Shape := ⟨2, ![16384, 64]⟩
abbrev S1x64 : Shape := ⟨2, ![1, 64]⟩

abbrev nBuf : Space → Nat
  | .hbm => 19
  | .vmem => 0
  | .smem => 0
  | _ => 0

abbrev bufTy : (tb : Table) → Fin (tcTables nBuf tb) → BufTy
  | .hbm, ⟨0, _⟩ => ⟨S16384x128, .f32⟩
  | .hbm, ⟨1, _⟩ => ⟨S16384x16384, .f32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S16384x128, .f32⟩
  | .hbm, ⟨7, _⟩ => ⟨S16384x128, .f32⟩
  | .hbm, ⟨8, _⟩ => ⟨S1x128, .f32⟩
  | .hbm, ⟨9, _⟩ => ⟨S16384x128, .f32⟩
  | .hbm, ⟨10, _⟩ => ⟨S16384x128, .f32⟩
  | .hbm, ⟨11, _⟩ => ⟨S_, .f32⟩
  | .hbm, ⟨12, _⟩ => ⟨S16384x128, .f32⟩
  | .hbm, ⟨13, _⟩ => ⟨S16384x128, .f32⟩
  | .hbm, ⟨14, _⟩ => ⟨S16384x64, .f32⟩
  | .hbm, ⟨15, _⟩ => ⟨S16384x64, .f32⟩
  | .hbm, ⟨16, _⟩ => ⟨S1x64, .f32⟩
  | .hbm, ⟨17, _⟩ => ⟨S16384x64, .f32⟩
  | .hbm, ⟨18, _⟩ => ⟨S16384x64, .f32⟩
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_cst : Ref sig .tc := ⟨.hbm, 11, rfl⟩
abbrev main_call0_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S16384x128_0_1 : S1x128.BroadcastsInDim S16384x128 (![0, 1] : Fin 2 → Fin S16384x128.rank)
  bcast_S_S16384x128 : S_.BroadcastsInDim S16384x128 (![] : Fin 0 → Fin S16384x128.rank)
  bcast_S64_S1x64_1 : S64.BroadcastsInDim S1x64 (![1] : Fin 1 → Fin S1x64.rank)
  bcast_S1x64_S16384x64_0_1 : S1x64.BroadcastsInDim S16384x64 (![0, 1] : Fin 2 → Fin S16384x64.rank)
  dot_S16384x128_S128x128_S16384x128_1_0_0_1_n_n_wf : DotDims.WF S16384x128 S128x128 S16384x128 [1] [0] [0] [1] [] []
  dot_S16384x16384_S16384x128_S16384x128_1_0_0_1_n_n_wf : DotDims.WF S16384x16384 S16384x128 S16384x128 [1] [0] [0] [1] [] []
  dot_S16384x128_S128x64_S16384x64_1_0_0_1_n_n_wf : DotDims.WF S16384x128 S128x64 S16384x64 [1] [0] [0] [1] [] []
  dot_S16384x16384_S16384x64_S16384x64_1_0_0_1_n_n_wf : DotDims.WF S16384x16384 S16384x64 S16384x64 [1] [0] [0] [1] [] []

variable [Facts₀]

def dot_S16384x128_S128x128_S16384x128_1_0_0_1_n_n : DotDims S16384x128 S128x128 S16384x128 where
  lhsContracting := [1]
  rhsContracting := [0]
  lhsNonContracting := [0]
  rhsNonContracting := [1]
  lhsBatch := []
  rhsBatch := []
  wf := dot_S16384x128_S128x128_S16384x128_1_0_0_1_n_n_wf
def dot_S16384x16384_S16384x128_S16384x128_1_0_0_1_n_n : DotDims S16384x16384 S16384x128 S16384x128 where
  lhsContracting := [1]
  rhsContracting := [0]
  lhsNonContracting := [0]
  rhsNonContracting := [1]
  lhsBatch := []
  rhsBatch := []
  wf := dot_S16384x16384_S16384x128_S16384x128_1_0_0_1_n_n_wf
def dot_S16384x128_S128x64_S16384x64_1_0_0_1_n_n : DotDims S16384x128 S128x64 S16384x64 where
  lhsContracting := [1]
  rhsContracting := [0]
  lhsNonContracting := [0]
  rhsNonContracting := [1]
  lhsBatch := []
  rhsBatch := []
  wf := dot_S16384x128_S128x64_S16384x64_1_0_0_1_n_n_wf
def dot_S16384x16384_S16384x64_S16384x64_1_0_0_1_n_n : DotDims S16384x16384 S16384x64 S16384x64 where
  lhsContracting := [1]
  rhsContracting := [0]
  lhsNonContracting := [0]
  rhsNonContracting := [1]
  lhsBatch := []
  rhsBatch := []
  wf := dot_S16384x16384_S16384x64_S16384x64_1_0_0_1_n_n_wf

class Facts : Prop extends Facts₀ where

variable [Facts]
-- ==== Proof.KR0Defs.lean ====
/-
  The first layer's launch: what its windows' blocks are, what the accumulator it carries from one grid point to the
  next holds, and the description of the launch built from them.

  The grid is 8 row tiles by 16 contraction tiles, the contraction index moving fastest: point t works on row tile
  t / 16 and contraction tile t % 16. At every point the body adds (A tile) * ((X tile) * W) to a 2048 by 128
  accumulator kept in a scratch buffer — starting from zero where t % 16 = 0 — and where t % 16 = 15 it stores the
  accumulator plus the bias, clamped below at zero, into the output tile, which is then written back. So the accumulator
  after point t is a recursion on t within a row tile, and the output tile is a function of the accumulator at the
  row tile's last point.
-/
import proofs.«111412_j558345748855_2_alg».proof.Proof.Gen.Kernel.Launch
import proofs.«111412_j558345748855_2_alg».proof.Proof.Gen.Kernel.Skeleton
import proofs.«111412_j558345748855_2_alg».proof.Proof.Gen.Kernel.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the contents of the TensorCore's buffers when the launch starts: a parameter
variable (V : (c : Dev nD) → (b : Ref sig .tc) → Buf (Elt F) ((c : Thread nD τ).loc b))

/-- Window `w`'s block at grid point `t`, read off its array as the launch finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The scratch buffer that holds the accumulator, as a whole memref. -/
abbrev scM0 : Memref sig .tc .vmem S2048x128 .f32 := Memref.whole cc0_scratch0

/-- One step of the accumulation: the accumulator `s` plus (A tile) * ((X tile) * W). -/
abbrev step0 (c : Dev nD) (t : Fin cfg0.N) (s : Vec F S2048x128 .f32) : Vec F S2048x128 .f32 :=
  k0_pay2 (iblk0 V c 0 t) (iblk0 V c 2 t) (iblk0 V c 1 t) s

/-- THE ACCUMULATOR after the body at point `n`: one step from zero where `n` starts a row tile (`n % 16 = 0`), else one
    step from what the point before left. -/
def acc0 (c : Dev nD) : (n : ℕ) → n < cfg0.N → Vec F S2048x128 .f32
  | 0, hn => step0 V c ⟨0, hn⟩ k0_pay1
  | n + 1, hn => step0 V c ⟨n + 1, hn⟩ (if (n + 1) % 16 = 0 then k0_pay1 else acc0 c n (Nat.lt_of_succ_lt hn))

theorem acc0_first (c : Dev nD) (t : Fin cfg0.N) (h : t.val % 16 = 0) :
    acc0 V c t.val t.isLt = step0 V c t k0_pay1 := by
  obtain ⟨n, hn⟩ := t
  cases n with
  | zero => rfl
  | succ n => exact congrArg (step0 V c ⟨n + 1, hn⟩) (if_pos h)

theorem acc0_later (c : Dev nD) (t : Fin cfg0.N) (h : ¬t.val % 16 = 0) :
    acc0 V c t.val t.isLt = step0 V c t (acc0 V c (t.val - 1) (Nat.lt_of_le_of_lt (Nat.sub_le _ _) t.isLt)) := by
  obtain ⟨n, hn⟩ := t
  cases n with
  | zero => exact absurd (Nat.zero_mod _) h
  | succ n => exact congrArg (step0 V c ⟨n + 1, hn⟩) (if_neg h)

/-- What the body stores into the output tile at a point that ends a row tile: the accumulator there plus the bias, clamped below at zero. -/
abbrev outT0 (c : Dev nD) (t : Fin cfg0.N) : Vec F S2048x128 .bf16 :=
  k0_pay3 (acc0 V c t.val t.isLt) (iblk0 V c 3 t)

/-- The scoped buffers that belong to the other launch, each whole at some contents: this launch never touches them. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_scratch0), ((c : Thread nD τ).loc cc1_scratch0) ↦{fullShare} f))

/-- The invariant before position `n`: before the first point every scoped buffer no window stages at some contents and
    the generator register at some state; afterwards the same with the accumulator's buffer at what the point before
    left in it. -/
def Phi0 (c : Dev nD) : (n : ℕ) → n ≤ cfg0.N → sProp 𝕄
  | 0, _ => Pipeline.ΦA spec0 c
  | n + 1, hn => iprop(owns (c : Thread nD τ) scM0 fullShare (acc0 V c n hn) ∗ rest0 c ∗ (∃ r, prngReg c r))

theorem Phi0_zero (c : Dev nD) (n : ℕ) (h : n ≤ cfg0.N) (hz : n = 0) : Phi0 V c n h = Pipeline.ΦA spec0 c := by
  subst hz; rfl

theorem Phi0_succ (c : Dev nD) (n : ℕ) (hn : n < cfg0.N) :
    Phi0 V c (n + 1) hn = iprop(owns (c : Thread nD τ) scM0 fullShare (acc0 V c n hn) ∗ rest0 c ∗ (∃ r, prngReg c r)) := rfl

theorem Phi0_pos (c : Dev nD) (n : ℕ) (h : n ≤ cfg0.N) (hz : n ≠ 0) :
    Phi0 V c n h = iprop(owns (c : Thread nD τ) scM0 fullShare (acc0 V c (n - 1) (by omega)) ∗ rest0 c ∗ (∃ r, prngReg c r)) := by
  cases n with
  | zero => exact absurd rfl hz
  | succ n => rfl

/-- The launch's description on core `c`: the arrays as the launch finds them; after the body at point `t` each input's
    buffer at its block and the output's at `outT0`; the invariant `Phi0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => outT0 V c t
  Φ t := Phi0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem Phi0_castSucc (c : Dev nD) (t : Fin cfg0.N) :
    (dat0 V c).Φ t.castSucc = Phi0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = outT0 V c t := by dsimp only [dat0]

/-- Each input's current staging buffer holds its block at every point, whether or not the point fetched it (where it
    was not fetched the block index has not moved). -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl) (fun t => by rw [after0_3]; unfold Dat.blockOf iblk0; rw [A_eq0]; try rfl) t d).trans
    (by unfold Dat.fetched Dat.blockOf iblk0; rw [A_eq0]; try rfl)

end Cert.Kernel.Hand

end
-- ==== Proof.KR1Defs.lean ====
/-
  The second layer's launch: what its windows' blocks are, what the accumulator it carries from one grid point to the
  next holds, and the description of the launch built from them.

  The grid is 8 row tiles by 16 contraction tiles, the contraction index moving fastest: point t works on row tile
  t / 16 and contraction tile t % 16. At every point the body adds (A tile) * ((X tile) * W) to a 2048 by 128
  accumulator kept in a scratch buffer — starting from zero where t % 16 = 0 — and where t % 16 = 15 it stores the
  accumulator plus the bias into the output tile, which is then written back. So the accumulator
  after point t is a recursion on t within a row tile, and the output tile is a function of the accumulator at the
  row tile's last point.
-/
import proofs.«111412_j558345748855_2_alg».proof.Proof.Gen.Kernel.Launch
import proofs.«111412_j558345748855_2_alg».proof.Proof.Gen.Kernel.Skeleton
import proofs.«111412_j558345748855_2_alg».proof.Proof.Gen.Kernel.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the contents of the TensorCore's buffers when the launch starts: a parameter
variable (V : (c : Dev nD) → (b : Ref sig .tc) → Buf (Elt F) ((c : Thread nD τ).loc b))

/-- Window `w`'s block at grid point `t`, read off its array as the launch finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The scratch buffer that holds the accumulator, as a whole memref. -/
abbrev scM1 : Memref sig .tc .vmem S2048x128 .f32 := Memref.whole cc1_scratch0

/-- One step of the accumulation: the accumulator `s` plus (A tile) * ((X tile) * W). -/
abbrev step1 (c : Dev nD) (t : Fin cfg1.N) (s : Vec F S2048x128 .f32) : Vec F S2048x128 .f32 :=
  k1_pay2 (iblk1 V c 0 t) (iblk1 V c 2 t) (iblk1 V c 1 t) s

/-- THE ACCUMULATOR after the body at point `n`: one step from zero where `n` starts a row tile (`n % 16 = 0`), else one
    step from what the point before left. -/
def acc1 (c : Dev nD) : (n : ℕ) → n < cfg1.N → Vec F S2048x128 .f32
  | 0, hn => step1 V c ⟨0, hn⟩ k1_pay1
  | n + 1, hn => step1 V c ⟨n + 1, hn⟩ (if (n + 1) % 16 = 0 then k1_pay1 else acc1 c n (Nat.lt_of_succ_lt hn))

theorem acc1_first (c : Dev nD) (t : Fin cfg1.N) (h : t.val % 16 = 0) :
    acc1 V c t.val t.isLt = step1 V c t k1_pay1 := by
  obtain ⟨n, hn⟩ := t
  cases n with
  | zero => rfl
  | succ n => exact congrArg (step1 V c ⟨n + 1, hn⟩) (if_pos h)

theorem acc1_later (c : Dev nD) (t : Fin cfg1.N) (h : ¬t.val % 16 = 0) :
    acc1 V c t.val t.isLt = step1 V c t (acc1 V c (t.val - 1) (Nat.lt_of_le_of_lt (Nat.sub_le _ _) t.isLt)) := by
  obtain ⟨n, hn⟩ := t
  cases n with
  | zero => exact absurd (Nat.zero_mod _) h
  | succ n => exact congrArg (step1 V c ⟨n + 1, hn⟩) (if_neg h)

/-- What the body stores into the output tile at a point that ends a row tile: the accumulator there plus the bias. -/
abbrev outT1 (c : Dev nD) (t : Fin cfg1.N) : Vec F S2048x128 .f32 :=
  k1_pay3 (acc1 V c t.val t.isLt) (iblk1 V c 3 t)

/-- The scoped buffers that belong to the other launch, each whole at some contents: this launch never touches them. -/
def rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_scratch0), ((c : Thread nD τ).loc cc0_scratch0) ↦{fullShare} f))

/-- The invariant before position `n`: before the first point every scoped buffer no window stages at some contents and
    the generator register at some state; afterwards the same with the accumulator's buffer at what the point before
    left in it. -/
def Phi1 (c : Dev nD) : (n : ℕ) → n ≤ cfg1.N → sProp 𝕄
  | 0, _ => Pipeline.ΦA spec1 c
  | n + 1, hn => iprop(owns (c : Thread nD τ) scM1 fullShare (acc1 V c n hn) ∗ rest1 c ∗ (∃ r, prngReg c r))

theorem Phi1_zero (c : Dev nD) (n : ℕ) (h : n ≤ cfg1.N) (hz : n = 0) : Phi1 V c n h = Pipeline.ΦA spec1 c := by
  subst hz; rfl

theorem Phi1_succ (c : Dev nD) (n : ℕ) (hn : n < cfg1.N) :
    Phi1 V c (n + 1) hn = iprop(owns (c : Thread nD τ) scM1 fullShare (acc1 V c n hn) ∗ rest1 c ∗ (∃ r, prngReg c r)) := rfl

theorem Phi1_pos (c : Dev nD) (n : ℕ) (h : n ≤ cfg1.N) (hz : n ≠ 0) :
    Phi1 V c n h = iprop(owns (c : Thread nD τ) scM1 fullShare (acc1 V c (n - 1) (by omega)) ∗ rest1 c ∗ (∃ r, prngReg c r)) := by
  cases n with
  | zero => exact absurd rfl hz
  | succ n => rfl

/-- The launch's description on core `c`: the arrays as the launch finds them; after the body at point `t` each input's
    buffer at its block and the output's at `outT1`; the invariant `Phi1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => outT1 V c t
  Φ t := Phi1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem Phi1_castSucc (c : Dev nD) (t : Fin cfg1.N) :
    (dat1 V c).Φ t.castSucc = Phi1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = outT1 V c t := by dsimp only [dat1]

/-- Each input's current staging buffer holds its block at every point, whether or not the point fetched it (where it
    was not fetched the block index has not moved). -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)

end Cert.Kernel.Hand

end
-- ==== Proof.KVals.lean ====
/-
  The contents of the TensorCore's buffers at each boundary of the program, from the launch to the return.

  The program is: the first layer's launch; four short stretches of host operations (two zero constants, each
  converted and used to pad W2 and b2 to 128 columns); the second layer's launch; one host slice back to 64 columns.
  A host stretch changes the buffers it writes as its operations say. A launch changes only its output window's array,
  which ends holding what the write-backs of its grid points leave; every other buffer keeps what it held.
-/
import proofs.«111412_j558345748855_2_alg».proof.Proof.KR0Defs
import proofs.«111412_j558345748855_2_alg».proof.Proof.KR1Defs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- The same read at the TensorCore's references: what the first launch's description takes. -/
abbrev Va : (c : Dev nD) → (b : Ref sig .tc) → Buf (Elt F) ((c : Thread nD τ).loc b) := fun c b => W0 m ρ c b

/-- After the first launch: its arrays at what its write-backs leave, every other buffer as before. -/
def W1 (c : Dev nD) : Valuation τ sig (Elt F) :=
  Pipeline.withArrays spec0 c (W0 m ρ c) fun w => (dat0 (Va m ρ) c).arrAt w cfg0.N
theorem W1_arr (c : Dev nD) (w : Fin cfg0.W) :
    W1 m ρ c (Proc.devRef .tc (Pipeline.arrRef spec0 w)) = (dat0 (Va m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (Va m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = Va m ρ c b :=
  fun b hb => W1_of_ne m ρ c b fun w e => hb (Finset.mem_image.mpr ⟨w, Finset.mem_univ _, e⟩)

/-- After each of the four host stretches between the launches. -/
abbrev W2 : Dev nD → Valuation τ sig (Elt F) := fun c => StableHlo.after hostOps1 (W1 m ρ c)
abbrev W3 : Dev nD → Valuation τ sig (Elt F) := fun c => StableHlo.after hostOps1_1 (W2 m ρ c)
abbrev W4 : Dev nD → Valuation τ sig (Elt F) := fun c => StableHlo.after hostOps1_2 (W3 m ρ c)
abbrev W5 : Dev nD → Valuation τ sig (Elt F) := fun c => StableHlo.after hostOps1_3 (W4 m ρ c)
/-- The same read at the TensorCore's references: what the second launch's description takes. -/
abbrev Vb : (c : Dev nD) → (b : Ref sig .tc) → Buf (Elt F) ((c : Thread nD τ).loc b) := fun c b => W5 m ρ c b

/-- After the second launch. -/
def W6 (c : Dev nD) : Valuation τ sig (Elt F) :=
  Pipeline.withArrays spec1 c (W5 m ρ c) fun w => (dat1 (Vb m ρ) c).arrAt w cfg1.N
theorem W6_arr (c : Dev nD) (w : Fin cfg1.W) :
    W6 m ρ c (Proc.devRef .tc (Pipeline.arrRef spec1 w)) = (dat1 (Vb m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
abbrev V6 : (c : Dev nD) → (b : Ref sig .tc) → Buf (Elt F) ((c : Thread nD τ).loc b) := fun c b => W6 m ρ c b
theorem hF1 (c : Dev nD) (w : Fin cfg1.W) : (dat1 (Vb m ρ) c).arrAt w cfg1.N = V6 m ρ c (Pipeline.arrRef spec1 w) :=
  (W6_arr m ρ c w).symm
theorem hrest1 (c : Dev nD) : ∀ b, b ∉ Finset.univ.image (Pipeline.arrRef spec1) → V6 m ρ c b = Vb m ρ c b :=
  fun b hb => W6_of_ne m ρ c b fun w e => hb (Finset.mem_image.mpr ⟨w, Finset.mem_univ _, e⟩)

/-- After the final slice: what the program returns with. -/
abbrev W7 : Dev nD → Valuation τ sig (Elt F) := fun c => StableHlo.after hostOps2 (W6 m ρ c)

end Cert.Kernel.Hand

end
-- ==== Proof.WholeStore.lean ====
/-
  Whole-buffer accesses. A rectangle with every offset zero and the buffer's own extents is the whole buffer: a load
  through it reads the contents as they are, and a store through it, made last, leaves exactly its payload whatever
  was stored before.
-/
import Idealize.ShloMosaic.Lib.Pipeline.Value
import Idealize.ShloMosaic.Lib.Pipeline.FrameBody

noncomputable section

namespace Cert.WholeStore

open Idealize.ShloMosaic

theorem hz2 : (![0, 0] : Fin 2 → ℕ) = fun _ => 0 := by funext a; fin_cases a <;> rfl
theorem hz1 : (![0] : Fin 1 → ℕ) = fun _ => 0 := by funext a; fin_cases a; rfl

/-- A store through the whole-buffer rectangle, made last, leaves its payload, whatever was stored before. -/
theorem read_store_whole {F : FTy → Type} [FloatOps F] {sig : RefSig} {κ : Kind} {sp : Space} {S : Shape} {e : EltTy}
    (v : View sig κ sp S e) (f : v.ty.Contents (Elt F))
    {off : Fin S.rank → ℕ} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  subst h
  refine (View.read_writes_eq_canon v f _ (fun y => ⟨_, List.mem_cons_self, ?_⟩)).trans (View.canon_cons_unit_zero rfl _ _ _)
  show y ∈ (Rect.whole S).set
  rw [Rect.set_whole]; exact Finset.mem_univ y

end Cert.WholeStore

end
-- ==== Proof.KR0Body.lean ====
/-
  The first layer's kernel body, run at a grid point, and the obligation the launch asks of it.

  The body branches twice on the contraction index k of the point: at k = 0 it first zeroes the accumulator; at
  k = 15 it finally stores the accumulator plus the bias into the output tile. On a 16-step contraction the two never
  coincide, so a point is in one of three cases — first, middle, last — and in each the body is straight-line: it
  leaves every input buffer as it found it, the accumulator one step further, and the output tile either untouched
  (first, middle) or stored whole (last).
-/
import proofs.«111412_j558345748855_2_alg».proof.Proof.KR0Defs
import proofs.«111412_j558345748855_2_alg».proof.Proof.WholeStore

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.WholeStore

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The two conditions, in closed form over the grid -/

/-- "This point starts a row tile": the contraction index is 0. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 16 = 0 :=
  (by decide +kernel : ∀ t : Fin grid0.N, cond0_0 (grid0.coords t) ↔ t.val % 16 = 0)
/-- "This point ends a row tile": the contraction index is 15. -/
abbrev cond0_1 (i : grid0.Coords) : Prop := k0_cond2 i = 1#1
theorem hcond0_1 : ∀ t : Fin cfg0.N, cond0_1 (grid0.coords t) ↔ t.val % 16 = 15 :=
  (by decide +kernel : ∀ t : Fin grid0.N, cond0_1 (grid0.coords t) ↔ t.val % 16 = 15)

/-! ## Where each window is live -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- The output tile is stored only where a row tile ends: elsewhere the window is idle and not written back. -/
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
theorem liveAt0_4 : ∀ t : Fin cfg0.N, cond0_1 (grid0.coords t) → cfg0.idle 4 (grid0.coords t) = false := by decide +kernel

/-! ## The body in each of its three cases -/

set_option maxHeartbeats 1000000 in
/-- At a point that starts a row tile: the accumulator is zeroed, then stepped; the output tile is untouched. -/
theorem sound_kernel0_A (c : Dev nD) (E : Set ℕ) (i : grid0.Coords)
    (arg2 : Memref sig .tc .vmem S1024x128 .f32) (harg2 : arg2.IsWhole) (arg3 : Memref sig .tc .vmem S2048x1024 .f32) (harg3 : arg3.IsWhole)
    (arg4 : Memref sig .tc .vmem S128x128 .f32) (harg4 : arg4.IsWhole) (arg5 : Memref sig .tc .vmem S128 .f32) (harg5 : arg5.IsWhole)
    (arg6 : Memref sig .tc .vmem S2048x128 .bf16) (harg6 : arg6.IsWhole) (arg7 : Memref sig .tc .vmem S2048x128 .f32) (harg7 : arg7.IsWhole)
    (hc0 : cond0_0 i) (hc1 : ¬cond0_1 i)
    (x0 : Vec F S1024x128 .f32) (x1 : Vec F S2048x1024 .f32) (x2 : Vec F S128x128 .f32) (x3 : Vec F S128 .f32) (d : Vec F S2048x128 .bf16) (s : Vec F S2048x128 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare d ∗ owns (c : Thread nD τ) arg7 fullShare s
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare d
            ∗ owns (c : Thread nD τ) arg7 fullShare (k0_pay2 x0 x2 x1 k0_pay1)) -∗ K ⟨⟩))
      ⊢ wp frame (wpE (defs₀ (F := F)) Variants.none c none) E (cc0__gcn_layer_kernel i arg2 harg2 arg3 harg3 arg4 harg4 arg5 harg5 arg6 harg6 arg7 harg7) K := by
  simp only [cc0__gcn_layer_kernel_eq_skeleton]; unfold cc0__gcn_layer_kernel_skel
  unfold owns
  iintro ⟨⟨%f0, %hf0, H0⟩, ⟨%f1, %hf1, H1⟩, ⟨%f2, %hf2, H2⟩, ⟨%f3, %hf3, H3⟩, ⟨%f6, %hf6, H6⟩, ⟨%f7, %hf7, H7⟩, Hk⟩
  subst hf0; subst hf1; subst hf2; subst hf3; subst hf6; subst hf7
  sl_exec (disch := first | exact hc0 | exact hc1)
  sl_step
  iapply Hk
  isplitl [H0]; · iexists _; isplitr; · ipureintro; rfl
                  iexact H0
  isplitl [H1]; · iexists _; isplitr; · ipureintro; rfl
                  iexact H1
  isplitl [H2]; · iexists _; isplitr; · ipureintro; rfl
                  iexact H2
  isplitl [H3]; · iexists _; isplitr; · ipureintro; rfl
                  iexact H3
  isplitl [H6]; · iexists _; isplitr; · ipureintro; rfl
                  iexact H6
  iexists _; isplitr
  swap; · iexact H7
  ipureintro
  sl_unfold_run_names
  simp only [read_store_whole (S := S2048x128) _ _ hz2, View.readAt_eq_ld, View.ld_unit_zero (S := S1024x128) hz2, View.ld_unit_zero (S := S128x128) hz2, View.ld_unit_zero (S := S2048x1024) hz2, View.ld_unit_zero (S := S2048x128) hz2, View.ld_unit_zero (S := S128) hz1, View.readCov_unit_zero (S := S2048x128) _ hz2]

set_option maxHeartbeats 1000000 in
/-- At a middle point: the accumulator is stepped; the output tile is untouched. -/
theorem sound_kernel0_B (c : Dev nD) (E : Set ℕ) (i : grid0.Coords)
    (arg2 : Memref sig .tc .vmem S1024x128 .f32) (harg2 : arg2.IsWhole) (arg3 : Memref sig .tc .vmem S2048x1024 .f32) (harg3 : arg3.IsWhole)
    (arg4 : Memref sig .tc .vmem S128x128 .f32) (harg4 : arg4.IsWhole) (arg5 : Memref sig .tc .vmem S128 .f32) (harg5 : arg5.IsWhole)
    (arg6 : Memref sig .tc .vmem S2048x128 .bf16) (harg6 : arg6.IsWhole) (arg7 : Memref sig .tc .vmem S2048x128 .f32) (harg7 : arg7.IsWhole)
    (hc0 : ¬cond0_0 i) (hc1 : ¬cond0_1 i)
    (x0 : Vec F S1024x128 .f32) (x1 : Vec F S2048x1024 .f32) (x2 : Vec F S128x128 .f32) (x3 : Vec F S128 .f32) (d : Vec F S2048x128 .bf16) (s : Vec F S2048x128 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare d ∗ owns (c : Thread nD τ) arg7 fullShare s
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare d
            ∗ owns (c : Thread nD τ) arg7 fullShare (k0_pay2 x0 x2 x1 s)) -∗ K ⟨⟩))
      ⊢ wp frame (wpE (defs₀ (F := F)) Variants.none c none) E (cc0__gcn_layer_kernel i arg2 harg2 arg3 harg3 arg4 harg4 arg5 harg5 arg6 harg6 arg7 harg7) K := by
  simp only [cc0__gcn_layer_kernel_eq_skeleton]; unfold cc0__gcn_layer_kernel_skel
  unfold owns
  iintro ⟨⟨%f0, %hf0, H0⟩, ⟨%f1, %hf1, H1⟩, ⟨%f2, %hf2, H2⟩, ⟨%f3, %hf3, H3⟩, ⟨%f6, %hf6, H6⟩, ⟨%f7, %hf7, H7⟩, Hk⟩
  subst hf0; subst hf1; subst hf2; subst hf3; subst hf6; subst hf7
  sl_exec (disch := first | exact hc0 | exact hc1)
  sl_step
  iapply Hk
  isplitl [H0]; · iexists _; isplitr; · ipureintro; rfl
                  iexact H0
  isplitl [H1]; · iexists _; isplitr; · ipureintro; rfl
                  iexact H1
  isplitl [H2]; · iexists _; isplitr; · ipureintro; rfl
                  iexact H2
  isplitl [H3]; · iexists _; isplitr; · ipureintro; rfl
                  iexact H3
  isplitl [H6]; · iexists _; isplitr; · ipureintro; rfl
                  iexact H6
  iexists _; isplitr
  swap; · iexact H7
  ipureintro
  sl_unfold_run_names
  simp only [read_store_whole (S := S2048x128) _ _ hz2, View.readAt_eq_ld, View.ld_unit_zero (S := S1024x128) hz2, View.ld_unit_zero (S := S128x128) hz2, View.ld_unit_zero (S := S2048x1024) hz2, View.ld_unit_zero (S := S2048x128) hz2, View.ld_unit_zero (S := S128) hz1, View.readCov_unit_zero (S := S2048x128) _ hz2]

set_option maxHeartbeats 1000000 in
/-- At a point that ends a row tile: the accumulator is stepped, and the output tile is stored whole from it and the bias. -/
theorem sound_kernel0_C (c : Dev nD) (E : Set ℕ) (i : grid0.Coords)
    (arg2 : Memref sig .tc .vmem S1024x128 .f32) (harg2 : arg2.IsWhole) (arg3 : Memref sig .tc .vmem S2048x1024 .f32) (harg3 : arg3.IsWhole)
    (arg4 : Memref sig .tc .vmem S128x128 .f32) (harg4 : arg4.IsWhole) (arg5 : Memref sig .tc .vmem S128 .f32) (harg5 : arg5.IsWhole)
    (arg6 : Memref sig .tc .vmem S2048x128 .bf16) (harg6 : arg6.IsWhole) (arg7 : Memref sig .tc .vmem S2048x128 .f32) (harg7 : arg7.IsWhole)
    (hc0 : ¬cond0_0 i) (hc1 : cond0_1 i)
    (x0 : Vec F S1024x128 .f32) (x1 : Vec F S2048x1024 .f32) (x2 : Vec F S128x128 .f32) (x3 : Vec F S128 .f32) (d : Vec F S2048x128 .bf16) (s : Vec F S2048x128 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare d ∗ owns (c : Thread nD τ) arg7 fullShare s
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (k0_pay3 (k0_pay2 x0 x2 x1 s) x3)
            ∗ owns (c : Thread nD τ) arg7 fullShare (k0_pay2 x0 x2 x1 s)) -∗ K ⟨⟩))
      ⊢ wp frame (wpE (defs₀ (F := F)) Variants.none c none) E (cc0__gcn_layer_kernel i arg2 harg2 arg3 harg3 arg4 harg4 arg5 harg5 arg6 harg6 arg7 harg7) K := by
  simp only [cc0__gcn_layer_kernel_eq_skeleton]; unfold cc0__gcn_layer_kernel_skel
  unfold owns
  iintro ⟨⟨%f0, %hf0, H0⟩, ⟨%f1, %hf1, H1⟩, ⟨%f2, %hf2, H2⟩, ⟨%f3, %hf3, H3⟩, ⟨%f6, %hf6, H6⟩, ⟨%f7, %hf7, H7⟩, Hk⟩
  subst hf0; subst hf1; subst hf2; subst hf3; subst hf6; subst hf7
  sl_exec (disch := first | exact hc0 | exact hc1)
  sl_step
  iapply Hk
  isplitl [H0]; · iexists _; isplitr; · ipureintro; rfl
                  iexact H0
  isplitl [H1]; · iexists _; isplitr; · ipureintro; rfl
                  iexact H1
  isplitl [H2]; · iexists _; isplitr; · ipureintro; rfl
                  iexact H2
  isplitl [H3]; · iexists _; isplitr; · ipureintro; rfl
                  iexact H3
  isplitl [H6]
  · iexists _; isplitr
    swap; · iexact H6
    ipureintro
    sl_unfold_run_names
    simp only [read_store_whole (S := S2048x128) _ _ hz2, View.readAt_eq_ld, View.ld_unit_zero (S := S1024x128) hz2, View.ld_unit_zero (S := S128x128) hz2, View.ld_unit_zero (S := S2048x1024) hz2, View.ld_unit_zero (S := S2048x128) hz2, View.ld_unit_zero (S := S128) hz1, View.readCov_unit_zero (S := S2048x128) _ hz2]
  iexists _; isplitr
  swap; · iexact H7
  ipureintro
  sl_unfold_run_names
  simp only [read_store_whole (S := S2048x128) _ _ hz2, View.readAt_eq_ld, View.ld_unit_zero (S := S1024x128) hz2, View.ld_unit_zero (S := S128x128) hz2, View.ld_unit_zero (S := S2048x1024) hz2, View.ld_unit_zero (S := S2048x128) hz2, View.ld_unit_zero (S := S128) hz1, View.readCov_unit_zero (S := S2048x128) _ hz2]

/-! ## The invariant, opened and closed -/

/-- Before any point the invariant is the launch's own: the accumulator's buffer at some contents, the other launch's
    buffers, the generator register. -/
theorem PhiA0_split (c : Dev nD) :
    (Pipeline.ΦA spec0 c : sProp 𝕄) ⊢ iprop((∃ d, owns (c : Thread nD τ) scM0 fullShare d) ∗ rest0 c ∗ (∃ r, prngReg c r)) := by
  unfold Pipeline.ΦA rest0; rw [scopedRest0_eq]; simp only [scM0, owns_whole]
  iintro ⟨⟨HS, Hr⟩, Hg⟩
  isplitl [HS]; · iexact HS
  isplitl [Hr]; · iexact Hr
  iexact Hg

theorem PhiA0_join (c : Dev nD) :
    iprop((∃ d, owns (c : Thread nD τ) scM0 fullShare d) ∗ rest0 c ∗ (∃ r, prngReg c r)) ⊢ (Pipeline.ΦA spec0 c : sProp 𝕄) := by
  unfold Pipeline.ΦA rest0; rw [scopedRest0_eq]; simp only [scM0, owns_whole]
  iintro ⟨HS, Hr, Hg⟩
  isplitl [HS Hr]
  · isplitl [HS]; · iexact HS
    iexact Hr
  iexact Hg

/-- At any position the invariant holds the accumulator's buffer at SOME contents. -/
theorem Phi0_weak (c : Dev nD) (n : ℕ) (h : n ≤ cfg0.N) :
    Phi0 V c n h ⊢ iprop((∃ d, owns (c : Thread nD τ) scM0 fullShare d) ∗ rest0 c ∗ (∃ r, prngReg c r)) := by
  cases n with
  | zero => exact PhiA0_split c
  | succ n =>
    rw [Phi0_succ]
    iintro ⟨HS, Hr, Hg⟩
    isplitl [HS]; · iexists _; iexact HS
    isplitl [Hr]; · iexact Hr
    iexact Hg

/-! ## The obligation the launch asks of the body -/

/-- Each window's current staging buffer at point `t`, as the launch passes it to the body. -/
abbrev ms0_0 (t : Fin cfg0.N) : Memref sig .tc .vmem S1024x128 .f32 := win0_0.stage (cfg0.slots t 0)
abbrev ms0_1 (t : Fin cfg0.N) : Memref sig .tc .vmem S2048x1024 .f32 := win0_1.stage (cfg0.slots t 1)
abbrev ms0_2 (t : Fin cfg0.N) : Memref sig .tc .vmem S128x128 .f32 := win0_2.stage (cfg0.slots t 2)
abbrev ms0_3 (t : Fin cfg0.N) : Memref sig .tc .vmem S128 .f32 := win0_3.stage (cfg0.slots t 3)
abbrev ms0_4 (t : Fin cfg0.N) : Memref sig .tc .vmem S2048x128 .bf16 := win0_4.stage (cfg0.slots t 4)

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 4800000 in
/-- The body at any point. The inputs' buffers hold their blocks; the point's position in its row tile says which of
    the three cases it is in; the invariant hands the body the accumulator at what the point before left (at anything
    where a row tile starts) and takes it back one step further; where a row tile ends the output tile is stored,
    elsewhere its buffer goes back untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = Phi0 V c (t.val + 1) t.isLt from rfl, Phi0_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  rw [Phi0_castSucc V c t]
  have hN : t.val < 128 := lt_of_lt_of_eq t.isLt (show cfg0.N = 128 from N_0)
  by_cases h1 : t.val % 16 = 15
  · -- the point ends a row tile
    have h0 : ¬t.val % 16 = 0 := by omega
    have hz : t.val ≠ 0 := by omega
    rw [show (dat0 V c).leavesExact 4 t = owns (c : Thread nD τ) (ms0_4 t) fullShare ((dat0 V c).after 4 t) from by
      unfold Dat.leavesExact; rw [liveAt0_4 t ((hcond0_1 t).mpr h1)], after0_4]
    unfold outT0
    rw [acc0_later V c t h0, Phi0_pos V c _ _ hz]
    iintro ⟨⟨HS, Hr, Hg⟩, Ho, ⟨%d0, H0⟩, ⟨%d1, H1⟩, ⟨%d2, H2⟩, ⟨%d3, H3⟩, ⟨%d4, H4⟩⟩
    iapply (sound_kernel0_C c Set.univ (grid0.coords t) _ _ _ _ _ _ _ _ _ _ _ _ (fun h => h0 ((hcond0_0 t).mp h)) ((hcond0_1 t).mpr h1)
      (iblk0 V c 0 t) (iblk0 V c 1 t) (iblk0 V c 2 t) (iblk0 V c 3 t) _ _ _)
    isplitl [H0]; · iexact H0
    isplitl [H1]; · iexact H1
    isplitl [H2]; · iexact H2
    isplitl [H3]; · iexact H3
    isplitl [H4]; · iexact H4
    isplitl [HS]; · iexact HS
    iintro ⟨H0, H1, H2, H3, H4, HS⟩
    isplitl [HS Hr Hg]
    · isplitl [HS]; · iexact HS
      isplitl [Hr]; · iexact Hr
      iexact Hg
    isplitl [Ho]; · iexact Ho
    isplitl [H0]; · iexact H0
    isplitl [H1]; · iexact H1
    isplitl [H2]; · iexact H2
    isplitl [H3]; · iexact H3
    iexact H4
  · have hc1 : ¬cond0_1 (grid0.coords t) := fun h => h1 ((hcond0_1 t).mp h)
    rw [Dat.leavesExact_idle (dat0 V c) 4 t (idleAt0_4 t hc1) (noFlush0_4 t hc1)]
    by_cases h0 : t.val % 16 = 0
    · -- the point starts a row tile
      rw [acc0_first V c t h0]
      have hweak := Phi0_weak V c t.val (Nat.le_of_lt t.isLt)
      iintro ⟨HP, Ho, ⟨%d0, H0⟩, ⟨%d1, H1⟩, ⟨%d2, H2⟩, ⟨%d3, H3⟩, ⟨%d4, H4⟩⟩
      ihave HW := hweak $$ HP
      icases HW with ⟨⟨%s, HS⟩, Hr, Hg⟩
      iapply (sound_kernel0_A c Set.univ (grid0.coords t) _ _ _ _ _ _ _ _ _ _ _ _ ((hcond0_0 t).mpr h0) hc1
        (iblk0 V c 0 t) (iblk0 V c 1 t) (iblk0 V c 2 t) (iblk0 V c 3 t) _ s _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS Hr Hg]
      · isplitl [HS]; · iexact HS
        isplitl [Hr]; · iexact Hr
        iexact Hg
      isplitl [Ho]; · iexact Ho
      isplitl [H0]; · iexact H0
      isplitl [H1]; · iexact H1
      isplitl [H2]; · iexact H2
      isplitl [H3]; · iexact H3
      iexists _; iexact H4
    · -- a middle point
      have hz : t.val ≠ 0 := fun h => h0 (by rw [h])
      rw [acc0_later V c t h0, Phi0_pos V c _ _ hz]
      iintro ⟨⟨HS, Hr, Hg⟩, Ho, ⟨%d0, H0⟩, ⟨%d1, H1⟩, ⟨%d2, H2⟩, ⟨%d3, H3⟩, ⟨%d4, H4⟩⟩
      iapply (sound_kernel0_B c Set.univ (grid0.coords t) _ _ _ _ _ _ _ _ _ _ _ _ (fun h => h0 ((hcond0_0 t).mp h)) hc1
        (iblk0 V c 0 t) (iblk0 V c 1 t) (iblk0 V c 2 t) (iblk0 V c 3 t) _ _ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS Hr Hg]
      · isplitl [HS]; · iexact HS
        isplitl [Hr]; · iexact Hr
        iexact Hg
      isplitl [Ho]; · iexact Ho
      isplitl [H0]; · iexact H0
      isplitl [H1]; · iexact H1
      isplitl [H2]; · iexact H2
      isplitl [H3]; · iexact H3
      iexists _; iexact H4

/-- The launch's obligation at every grid point. -/
theorem body_obligation0 (c : Dev nD) : BodyObligation (dat0 (F := F) V c) (defs₀ (F := F)) Variants.none () Set.univ := fun t => by
  rw [bigSep_W0, bigSep_W0]
  exact sound_body0 V c t

/-- What the launch hands the body before the first point is the invariant there. -/
theorem hin0 (c : Dev nD) : (Pipeline.ΦA spec0 c : sProp 𝕄) ⊢ (dat0 V c).Φ 0 := by
  rw [show (dat0 V c).Φ 0 = Phi0 V c 0 (Nat.zero_le _) from rfl, Phi0_zero V c 0 _ rfl]
  try exact Idealize.SL.BI.Entails.refl _

/-- After the last point the invariant gives the launch back what it lent: the accumulator's contents are forgotten. -/
theorem hout0 (c : Dev nD) : (dat0 V c).Φ (Fin.last cfg0.N) ⊢ (Pipeline.ΦA spec0 c : sProp 𝕄) := by
  rw [show (dat0 V c).Φ (Fin.last cfg0.N) = Phi0 V c (Fin.last cfg0.N).val (Nat.le_of_lt_succ (Fin.last cfg0.N).isLt) from rfl]
  exact (Phi0_weak V c _ _).trans (PhiA0_join c)

end Cert.Kernel.Hand

end
-- ==== Proof.KR1Body.lean ====
/-
  The second layer's kernel body, run at a grid point, and the obligation the launch asks of it.

  The body branches twice on the contraction index k of the point: at k = 0 it first zeroes the accumulator; at
  k = 15 it finally stores the accumulator plus the bias into the output tile. On a 16-step contraction the two never
  coincide, so a point is in one of three cases — first, middle, last — and in each the body is straight-line: it
  leaves every input buffer as it found it, the accumulator one step further, and the output tile either untouched
  (first, middle) or stored whole (last).
-/
import proofs.«111412_j558345748855_2_alg».proof.Proof.KR1Defs
import proofs.«111412_j558345748855_2_alg».proof.Proof.WholeStore

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.WholeStore

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The two conditions, in closed form over the grid -/

/-- "This point starts a row tile": the contraction index is 0. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 16 = 0 :=
  (by decide +kernel : ∀ t : Fin grid1.N, cond1_0 (grid1.coords t) ↔ t.val % 16 = 0)
/-- "This point ends a row tile": the contraction index is 15. -/
abbrev cond1_1 (i : grid1.Coords) : Prop := k1_cond2 i = 1#1
theorem hcond1_1 : ∀ t : Fin cfg1.N, cond1_1 (grid1.coords t) ↔ t.val % 16 = 15 :=
  (by decide +kernel : ∀ t : Fin grid1.N, cond1_1 (grid1.coords t) ↔ t.val % 16 = 15)

/-! ## Where each window is live -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
/-- The output tile is stored only where a row tile ends: elsewhere the window is idle and not written back. -/
theorem idleAt1_4 : ∀ t : Fin cfg1.N, ¬cond1_1 (grid1.coords t) → cfg1.idle 4 (grid1.coords t) = true := by decide +kernel
theorem noFlush1_4 : ∀ t : Fin cfg1.N, ¬cond1_1 (grid1.coords t) → (cfg1.win 4).flush t = false := by decide +kernel
theorem liveAt1_4 : ∀ t : Fin cfg1.N, cond1_1 (grid1.coords t) → cfg1.idle 4 (grid1.coords t) = false := by decide +kernel

/-! ## The body in each of its three cases -/

set_option maxHeartbeats 1000000 in
/-- At a point that starts a row tile: the accumulator is zeroed, then stepped; the output tile is untouched. -/
theorem sound_kernel1_A (c : Dev nD) (E : Set ℕ) (i : grid1.Coords)
    (arg2 : Memref sig .tc .vmem S1024x128 .bf16) (harg2 : arg2.IsWhole) (arg3 : Memref sig .tc .vmem S2048x1024 .f32) (harg3 : arg3.IsWhole)
    (arg4 : Memref sig .tc .vmem S128x128 .f32) (harg4 : arg4.IsWhole) (arg5 : Memref sig .tc .vmem S128 .f32) (harg5 : arg5.IsWhole)
    (arg6 : Memref sig .tc .vmem S2048x128 .f32) (harg6 : arg6.IsWhole) (arg7 : Memref sig .tc .vmem S2048x128 .f32) (harg7 : arg7.IsWhole)
    (hc0 : cond1_0 i) (hc1 : ¬cond1_1 i)
    (x0 : Vec F S1024x128 .bf16) (x1 : Vec F S2048x1024 .f32) (x2 : Vec F S128x128 .f32) (x3 : Vec F S128 .f32) (d : Vec F S2048x128 .f32) (s : Vec F S2048x128 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare d ∗ owns (c : Thread nD τ) arg7 fullShare s
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare d
            ∗ owns (c : Thread nD τ) arg7 fullShare (k1_pay2 x0 x2 x1 k1_pay1)) -∗ K ⟨⟩))
      ⊢ wp frame (wpE (defs₀ (F := F)) Variants.none c none) E (cc1__gcn_layer_kernel i arg2 harg2 arg3 harg3 arg4 harg4 arg5 harg5 arg6 harg6 arg7 harg7) K := by
  simp only [cc1__gcn_layer_kernel_eq_skeleton]; unfold cc1__gcn_layer_kernel_skel
  unfold owns
  iintro ⟨⟨%f0, %hf0, H0⟩, ⟨%f1, %hf1, H1⟩, ⟨%f2, %hf2, H2⟩, ⟨%f3, %hf3, H3⟩, ⟨%f6, %hf6, H6⟩, ⟨%f7, %hf7, H7⟩, Hk⟩
  subst hf0; subst hf1; subst hf2; subst hf3; subst hf6; subst hf7
  sl_exec (disch := first | exact hc0 | exact hc1)
  sl_step
  iapply Hk
  isplitl [H0]; · iexists _; isplitr; · ipureintro; rfl
                  iexact H0
  isplitl [H1]; · iexists _; isplitr; · ipureintro; rfl
                  iexact H1
  isplitl [H2]; · iexists _; isplitr; · ipureintro; rfl
                  iexact H2
  isplitl [H3]; · iexists _; isplitr; · ipureintro; rfl
                  iexact H3
  isplitl [H6]; · iexists _; isplitr; · ipureintro; rfl
                  iexact H6
  iexists _; isplitr
  swap; · iexact H7
  ipureintro
  sl_unfold_run_names
  simp only [read_store_whole (S := S2048x128) _ _ hz2, View.readAt_eq_ld, View.ld_unit_zero (S := S1024x128) hz2, View.ld_unit_zero (S := S128x128) hz2, View.ld_unit_zero (S := S2048x1024) hz2, View.ld_unit_zero (S := S2048x128) hz2, View.ld_unit_zero (S := S128) hz1, View.readCov_unit_zero (S := S2048x128) _ hz2]

set_option maxHeartbeats 1000000 in
/-- At a middle point: the accumulator is stepped; the output tile is untouched. -/
theorem sound_kernel1_B (c : Dev nD) (E : Set ℕ) (i : grid1.Coords)
    (arg2 : Memref sig .tc .vmem S1024x128 .bf16) (harg2 : arg2.IsWhole) (arg3 : Memref sig .tc .vmem S2048x1024 .f32) (harg3 : arg3.IsWhole)
    (arg4 : Memref sig .tc .vmem S128x128 .f32) (harg4 : arg4.IsWhole) (arg5 : Memref sig .tc .vmem S128 .f32) (harg5 : arg5.IsWhole)
    (arg6 : Memref sig .tc .vmem S2048x128 .f32) (harg6 : arg6.IsWhole) (arg7 : Memref sig .tc .vmem S2048x128 .f32) (harg7 : arg7.IsWhole)
    (hc0 : ¬cond1_0 i) (hc1 : ¬cond1_1 i)
    (x0 : Vec F S1024x128 .bf16) (x1 : Vec F S2048x1024 .f32) (x2 : Vec F S128x128 .f32) (x3 : Vec F S128 .f32) (d : Vec F S2048x128 .f32) (s : Vec F S2048x128 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare d ∗ owns (c : Thread nD τ) arg7 fullShare s
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare d
            ∗ owns (c : Thread nD τ) arg7 fullShare (k1_pay2 x0 x2 x1 s)) -∗ K ⟨⟩))
      ⊢ wp frame (wpE (defs₀ (F := F)) Variants.none c none) E (cc1__gcn_layer_kernel i arg2 harg2 arg3 harg3 arg4 harg4 arg5 harg5 arg6 harg6 arg7 harg7) K := by
  simp only [cc1__gcn_layer_kernel_eq_skeleton]; unfold cc1__gcn_layer_kernel_skel
  unfold owns
  iintro ⟨⟨%f0, %hf0, H0⟩, ⟨%f1, %hf1, H1⟩, ⟨%f2, %hf2, H2⟩, ⟨%f3, %hf3, H3⟩, ⟨%f6, %hf6, H6⟩, ⟨%f7, %hf7, H7⟩, Hk⟩
  subst hf0; subst hf1; subst hf2; subst hf3; subst hf6; subst hf7
  sl_exec (disch := first | exact hc0 | exact hc1)
  sl_step
  iapply Hk
  isplitl [H0]; · iexists _; isplitr; · ipureintro; rfl
                  iexact H0
  isplitl [H1]; · iexists _; isplitr; · ipureintro; rfl
                  iexact H1
  isplitl [H2]; · iexists _; isplitr; · ipureintro; rfl
                  iexact H2
  isplitl [H3]; · iexists _; isplitr; · ipureintro; rfl
                  iexact H3
  isplitl [H6]; · iexists _; isplitr; · ipureintro; rfl
                  iexact H6
  iexists _; isplitr
  swap; · iexact H7
  ipureintro
  sl_unfold_run_names
  simp only [read_store_whole (S := S2048x128) _ _ hz2, View.readAt_eq_ld, View.ld_unit_zero (S := S1024x128) hz2, View.ld_unit_zero (S := S128x128) hz2, View.ld_unit_zero (S := S2048x1024) hz2, View.ld_unit_zero (S := S2048x128) hz2, View.ld_unit_zero (S := S128) hz1, View.readCov_unit_zero (S := S2048x128) _ hz2]

set_option maxHeartbeats 1000000 in
/-- At a point that ends a row tile: the accumulator is stepped, and the output tile is stored whole from it and the bias. -/
theorem sound_kernel1_C (c : Dev nD) (E : Set ℕ) (i : grid1.Coords)
    (arg2 : Memref sig .tc .vmem S1024x128 .bf16) (harg2 : arg2.IsWhole) (arg3 : Memref sig .tc .vmem S2048x1024 .f32) (harg3 : arg3.IsWhole)
    (arg4 : Memref sig .tc .vmem S128x128 .f32) (harg4 : arg4.IsWhole) (arg5 : Memref sig .tc .vmem S128 .f32) (harg5 : arg5.IsWhole)
    (arg6 : Memref sig .tc .vmem S2048x128 .f32) (harg6 : arg6.IsWhole) (arg7 : Memref sig .tc .vmem S2048x128 .f32) (harg7 : arg7.IsWhole)
    (hc0 : ¬cond1_0 i) (hc1 : cond1_1 i)
    (x0 : Vec F S1024x128 .bf16) (x1 : Vec F S2048x1024 .f32) (x2 : Vec F S128x128 .f32) (x3 : Vec F S128 .f32) (d : Vec F S2048x128 .f32) (s : Vec F S2048x128 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare d ∗ owns (c : Thread nD τ) arg7 fullShare s
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (k1_pay3 (k1_pay2 x0 x2 x1 s) x3)
            ∗ owns (c : Thread nD τ) arg7 fullShare (k1_pay2 x0 x2 x1 s)) -∗ K ⟨⟩))
      ⊢ wp frame (wpE (defs₀ (F := F)) Variants.none c none) E (cc1__gcn_layer_kernel i arg2 harg2 arg3 harg3 arg4 harg4 arg5 harg5 arg6 harg6 arg7 harg7) K := by
  simp only [cc1__gcn_layer_kernel_eq_skeleton]; unfold cc1__gcn_layer_kernel_skel
  unfold owns
  iintro ⟨⟨%f0, %hf0, H0⟩, ⟨%f1, %hf1, H1⟩, ⟨%f2, %hf2, H2⟩, ⟨%f3, %hf3, H3⟩, ⟨%f6, %hf6, H6⟩, ⟨%f7, %hf7, H7⟩, Hk⟩
  subst hf0; subst hf1; subst hf2; subst hf3; subst hf6; subst hf7
  sl_exec (disch := first | exact hc0 | exact hc1)
  sl_step
  iapply Hk
  isplitl [H0]; · iexists _; isplitr; · ipureintro; rfl
                  iexact H0
  isplitl [H1]; · iexists _; isplitr; · ipureintro; rfl
                  iexact H1
  isplitl [H2]; · iexists _; isplitr; · ipureintro; rfl
                  iexact H2
  isplitl [H3]; · iexists _; isplitr; · ipureintro; rfl
                  iexact H3
  isplitl [H6]
  · iexists _; isplitr
    swap; · iexact H6
    ipureintro
    sl_unfold_run_names
    simp only [read_store_whole (S := S2048x128) _ _ hz2, View.readAt_eq_ld, View.ld_unit_zero (S := S1024x128) hz2, View.ld_unit_zero (S := S128x128) hz2, View.ld_unit_zero (S := S2048x1024) hz2, View.ld_unit_zero (S := S2048x128) hz2, View.ld_unit_zero (S := S128) hz1, View.readCov_unit_zero (S := S2048x128) _ hz2]
  iexists _; isplitr
  swap; · iexact H7
  ipureintro
  sl_unfold_run_names
  simp only [read_store_whole (S := S2048x128) _ _ hz2, View.readAt_eq_ld, View.ld_unit_zero (S := S1024x128) hz2, View.ld_unit_zero (S := S128x128) hz2, View.ld_unit_zero (S := S2048x1024) hz2, View.ld_unit_zero (S := S2048x128) hz2, View.ld_unit_zero (S := S128) hz1, View.readCov_unit_zero (S := S2048x128) _ hz2]

/-! ## The invariant, opened and closed -/

/-- Before any point the invariant is the launch's own: the accumulator's buffer at some contents, the other launch's
    buffers, the generator register. -/
theorem PhiA1_split (c : Dev nD) :
    (Pipeline.ΦA spec1 c : sProp 𝕄) ⊢ iprop((∃ d, owns (c : Thread nD τ) scM1 fullShare d) ∗ rest1 c ∗ (∃ r, prngReg c r)) := by
  unfold Pipeline.ΦA rest1; rw [scopedRest1_eq]; simp only [scM1, owns_whole]
  iintro ⟨⟨H0, H1, H2, H3, H4, H5, H6, H7, H8, HS⟩, Hg⟩
  isplitl [HS]; · iexact HS
  isplitl [H0 H1 H2 H3 H4 H5 H6 H7 H8]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  iexact Hg

theorem PhiA1_join (c : Dev nD) :
    iprop((∃ d, owns (c : Thread nD τ) scM1 fullShare d) ∗ rest1 c ∗ (∃ r, prngReg c r)) ⊢ (Pipeline.ΦA spec1 c : sProp 𝕄) := by
  unfold Pipeline.ΦA rest1; rw [scopedRest1_eq]; simp only [scM1, owns_whole]
  iintro ⟨HS, ⟨H0, H1, H2, H3, H4, H5, H6, H7, H8⟩, Hg⟩
  isplitl [HS H0 H1 H2 H3 H4 H5 H6 H7 H8]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact HS
  iexact Hg

/-- At any position the invariant holds the accumulator's buffer at SOME contents. -/
theorem Phi1_weak (c : Dev nD) (n : ℕ) (h : n ≤ cfg1.N) :
    Phi1 V c n h ⊢ iprop((∃ d, owns (c : Thread nD τ) scM1 fullShare d) ∗ rest1 c ∗ (∃ r, prngReg c r)) := by
  cases n with
  | zero => exact PhiA1_split c
  | succ n =>
    rw [Phi1_succ]
    iintro ⟨HS, Hr, Hg⟩
    isplitl [HS]; · iexists _; iexact HS
    isplitl [Hr]; · iexact Hr
    iexact Hg

/-! ## The obligation the launch asks of the body -/

/-- Each window's current staging buffer at point `t`, as the launch passes it to the body. -/
abbrev ms1_0 (t : Fin cfg1.N) : Memref sig .tc .vmem S1024x128 .bf16 := win1_0.stage (cfg1.slots t 0)
abbrev ms1_1 (t : Fin cfg1.N) : Memref sig .tc .vmem S2048x1024 .f32 := win1_1.stage (cfg1.slots t 1)
abbrev ms1_2 (t : Fin cfg1.N) : Memref sig .tc .vmem S128x128 .f32 := win1_2.stage (cfg1.slots t 2)
abbrev ms1_3 (t : Fin cfg1.N) : Memref sig .tc .vmem S128 .f32 := win1_3.stage (cfg1.slots t 3)
abbrev ms1_4 (t : Fin cfg1.N) : Memref sig .tc .vmem S2048x128 .f32 := win1_4.stage (cfg1.slots t 4)

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
/-- The body at any point. The inputs' buffers hold their blocks; the point's position in its row tile says which of
    the three cases it is in; the invariant hands the body the accumulator at what the point before left (at anything
    where a row tile starts) and takes it back one step further; where a row tile ends the output tile is stored,
    elsewhere its buffer goes back untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = Phi1 V c (t.val + 1) t.isLt from rfl, Phi1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [Phi1_castSucc V c t]
  have hN : t.val < 128 := lt_of_lt_of_eq t.isLt (show cfg1.N = 128 from N_1)
  by_cases h1 : t.val % 16 = 15
  · -- the point ends a row tile
    have h0 : ¬t.val % 16 = 0 := by omega
    have hz : t.val ≠ 0 := by omega
    rw [show (dat1 V c).leavesExact 4 t = owns (c : Thread nD τ) (ms1_4 t) fullShare ((dat1 V c).after 4 t) from by
      unfold Dat.leavesExact; rw [liveAt1_4 t ((hcond1_1 t).mpr h1)], after1_4]
    unfold outT1
    rw [acc1_later V c t h0, Phi1_pos V c _ _ hz]
    iintro ⟨⟨HS, Hr, Hg⟩, Ho, ⟨%d0, H0⟩, ⟨%d1, H1⟩, ⟨%d2, H2⟩, ⟨%d3, H3⟩, ⟨%d4, H4⟩⟩
    iapply (sound_kernel1_C c Set.univ (grid1.coords t) _ _ _ _ _ _ _ _ _ _ _ _ (fun h => h0 ((hcond1_0 t).mp h)) ((hcond1_1 t).mpr h1)
      (iblk1 V c 0 t) (iblk1 V c 1 t) (iblk1 V c 2 t) (iblk1 V c 3 t) _ _ _)
    isplitl [H0]; · iexact H0
    isplitl [H1]; · iexact H1
    isplitl [H2]; · iexact H2
    isplitl [H3]; · iexact H3
    isplitl [H4]; · iexact H4
    isplitl [HS]; · iexact HS
    iintro ⟨H0, H1, H2, H3, H4, HS⟩
    isplitl [HS Hr Hg]
    · isplitl [HS]; · iexact HS
      isplitl [Hr]; · iexact Hr
      iexact Hg
    isplitl [Ho]; · iexact Ho
    isplitl [H0]; · iexact H0
    isplitl [H1]; · iexact H1
    isplitl [H2]; · iexact H2
    isplitl [H3]; · iexact H3
    iexact H4
  · have hc1 : ¬cond1_1 (grid1.coords t) := fun h => h1 ((hcond1_1 t).mp h)
    rw [Dat.leavesExact_idle (dat1 V c) 4 t (idleAt1_4 t hc1) (noFlush1_4 t hc1)]
    by_cases h0 : t.val % 16 = 0
    · -- the point starts a row tile
      rw [acc1_first V c t h0]
      have hweak := Phi1_weak V c t.val (Nat.le_of_lt t.isLt)
      iintro ⟨HP, Ho, ⟨%d0, H0⟩, ⟨%d1, H1⟩, ⟨%d2, H2⟩, ⟨%d3, H3⟩, ⟨%d4, H4⟩⟩
      ihave HW := hweak $$ HP
      icases HW with ⟨⟨%s, HS⟩, Hr, Hg⟩
      iapply (sound_kernel1_A c Set.univ (grid1.coords t) _ _ _ _ _ _ _ _ _ _ _ _ ((hcond1_0 t).mpr h0) hc1
        (iblk1 V c 0 t) (iblk1 V c 1 t) (iblk1 V c 2 t) (iblk1 V c 3 t) _ s _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS Hr Hg]
      · isplitl [HS]; · iexact HS
        isplitl [Hr]; · iexact Hr
        iexact Hg
      isplitl [Ho]; · iexact Ho
      isplitl [H0]; · iexact H0
      isplitl [H1]; · iexact H1
      isplitl [H2]; · iexact H2
      isplitl [H3]; · iexact H3
      iexists _; iexact H4
    · -- a middle point
      have hz : t.val ≠ 0 := fun h => h0 (by rw [h])
      rw [acc1_later V c t h0, Phi1_pos V c _ _ hz]
      iintro ⟨⟨HS, Hr, Hg⟩, Ho, ⟨%d0, H0⟩, ⟨%d1, H1⟩, ⟨%d2, H2⟩, ⟨%d3, H3⟩, ⟨%d4, H4⟩⟩
      iapply (sound_kernel1_B c Set.univ (grid1.coords t) _ _ _ _ _ _ _ _ _ _ _ _ (fun h => h0 ((hcond1_0 t).mp h)) hc1
        (iblk1 V c 0 t) (iblk1 V c 1 t) (iblk1 V c 2 t) (iblk1 V c 3 t) _ _ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS Hr Hg]
      · isplitl [HS]; · iexact HS
        isplitl [Hr]; · iexact Hr
        iexact Hg
      isplitl [Ho]; · iexact Ho
      isplitl [H0]; · iexact H0
      isplitl [H1]; · iexact H1
      isplitl [H2]; · iexact H2
      isplitl [H3]; · iexact H3
      iexists _; iexact H4

/-- The launch's obligation at every grid point. -/
theorem body_obligation1 (c : Dev nD) : BodyObligation (dat1 (F := F) V c) (defs₀ (F := F)) Variants.none () Set.univ := fun t => by
  rw [bigSep_W1, bigSep_W1]
  exact sound_body1 V c t

/-- What the launch hands the body before the first point is the invariant there. -/
theorem hin1 (c : Dev nD) : (Pipeline.ΦA spec1 c : sProp 𝕄) ⊢ (dat1 V c).Φ 0 := by
  rw [show (dat1 V c).Φ 0 = Phi1 V c 0 (Nat.zero_le _) from rfl, Phi1_zero V c 0 _ rfl]
  try exact Idealize.SL.BI.Entails.refl _

/-- After the last point the invariant gives the launch back what it lent: the accumulator's contents are forgotten. -/
theorem hout1 (c : Dev nD) : (dat1 V c).Φ (Fin.last cfg1.N) ⊢ (Pipeline.ΦA spec1 c : sProp 𝕄) := by
  rw [show (dat1 V c).Φ (Fin.last cfg1.N) = Phi1 V c (Fin.last cfg1.N).val (Nat.le_of_lt_succ (Fin.last cfg1.N).isLt) from rfl]
  exact (Phi1_weak V c _ _).trans (PhiA1_join c)

end Cert.Kernel.Hand

end
-- ==== Proof.KRun.lean ====
/-
  The run of the whole program: from the launch to the return, what every buffer of the TensorCore holds at the end.

  The program is seven pieces in a row: the first layer's launch, four short stretches of host operations, the second
  layer's launch, and one last host stretch. Between two pieces the core holds every buffer that is not scoped to a
  launch, whole, at the contents the boundary names (W0 at the launch, then W1 to W7), beside its generator register at
  some state and the fact that it owes nothing. A host stretch moves the contents on as its operations say. A launch
  splits its windows' arrays out of the buffers, runs its grid under its own invariant — entered from and left to the
  scoped buffers no window stages and the generator register —, and puts the arrays back at what the write-backs left,
  every other buffer as it was. Every weakly fair execution therefore terminates, and every final memory holds each
  such buffer at W7.
-/
import proofs.«111412_j558345748855_2_alg».proof.Proof.KVals
import proofs.«111412_j558345748855_2_alg».proof.Proof.KR0Body
import proofs.«111412_j558345748855_2_alg».proof.Proof.KR1Body
import proofs.«111412_j558345748855_2_alg».proof.Proof.Gen.Kernel.Regions
import Idealize.ShloMosaic.Lib.Pipeline.RegionsLoop
import Idealize.ShloMosaic.Lib.Pipeline.FrameSuffix

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The launches' descriptions and the state between two pieces -/

/-- No launch has a prefetched table. -/
abbrev admH : (p : Fin 2) → (pcfgs (F := F) p).Adm := fun p => (cfgs p).toPCfg_adm
/-- Each launch's description, at the contents its launch starts from: the first at the launch contents, the second
    at the contents after the four host stretches. -/
def pdats : (p : Fin 2) → (c : Dev nD) → Dat τ (Elt F) Unit ℕ (UR sig nD τ) ℕ (Pipeline.pin (pcfgs (F := F)) admH p) c
  | ⟨0, _⟩ => fun c => dat0 (Va m ρ) c
  | ⟨1, _⟩ => fun c => dat1 (Vb m ρ) c
abbrev 𝒱₀ : Variants := Variants.none
/-- No core owes another anything. -/
abbrev L : GSem nD τ sig → Finset Unit := fun _ => ∅
abbrev lv : GSem nD τ sig → Unit → ℕ := fun _ _ => 0
/-- What rides beside the buffers through every piece: the core's generator register at some state, and that it owes
    nothing. -/
abbrev R (c : Dev nD) : sProp 𝕄 := iprop((∃ r, prngReg c r) ∗ ∃ W, owes (c : Thread nD τ) (0 : CellTallies nD τ sig Unit) W)
/-- A host stretch as a piece: over the buffers not scoped to a launch, from the contents W to those after its operations. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- A TensorCore buffer not scoped to a launch is among those the state between two pieces holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last state without the owing: every such buffer at the last contents, the generator register at some state. -/
abbrev Tₙ (c : Dev nD) : sProp 𝕄 := iprop(StableHlo.held (c : Thread nD τ) (Pipeline.ucRefs τ sig) (W7 m ρ c) ∗ ∃ r, prngReg c r)

/-! ## The two launches as pieces -/

set_option backward.isDefEq.respectTransparency.types false in
/-- The first layer's launch: entered from every buffer at W0, left at W1. -/
def reg0 : Pipeline.RegionSeg (pcfgs (F := F)) admH (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Va m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (Va m ρ c)
  hentry c := by
    rw [Pipeline.ownSems0_none]
    have hsplit := Pipeline.arrays_of_unscopedBufs (p := 0) (pcfgs (F := F)) admH (pdats m ρ) launch0.win launch0.arr_whole c
      ((pdats m ρ 0 c).share_full fun _ => rfl) (Va m ρ c) fun w => A_eq0 (Va m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine Idealize.SL.BI.BIBase.Entails.trans ?_ (hin0 (Va m ρ) c)
    unfold Pipeline.ΦA
    iintro ⟨Hp, -, Hr⟩
    isplitl [Hr]; · iexact Hr
    iexact Hp
  hout c := by
    refine Idealize.SL.BI.BIBase.Entails.trans (hout0 (Va m ρ) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdats m ρ) ((pdats m ρ 0 c).share_full fun _ => rfl)
      (Va m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second layer's launch: entered from every buffer at W5, left at W6. -/
def reg1 : Pipeline.RegionSeg (pcfgs (F := F)) admH (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vb m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec1 c (Vb m ρ c)
  hentry c := by
    rw [Pipeline.ownSems0_none]
    have hsplit := Pipeline.arrays_of_unscopedBufs (p := 1) (pcfgs (F := F)) admH (pdats m ρ) launch1.win launch1.arr_whole c
      ((pdats m ρ 1 c).share_full fun _ => rfl) (Vb m ρ c) fun w => A_eq1 (Vb m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine Idealize.SL.BI.BIBase.Entails.trans ?_ (hin1 (Vb m ρ) c)
    unfold Pipeline.ΦA
    iintro ⟨Hp, -, Hr⟩
    isplitl [Hr]; · iexact Hr
    iexact Hp
  hout c := by
    refine Idealize.SL.BI.BIBase.Entails.trans (hout1 (Vb m ρ) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admH (Ix := Unit) (Name := ℕ) (U := UR sig nD τ) (Lvl := ℕ)
      launch1.win launch1.arr_whole c (pdats m ρ) ((pdats m ρ 1 c).share_full fun _ => rfl)
      (Vb m ρ c) (V6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as its seven pieces, and the run -/

/-- The seven pieces in order: a launch, four host stretches, a launch, a host stretch, each from its boundary's contents. -/
abbrev segs : List (Pipeline.Seg (pcfgs (F := F)) admH (pdats m ρ) () defs₀ 𝒱₀ L lv) :=
  [ .region (reg0 m ρ),
    .host (hseg hostOps1 hostOps1_sub hostOps1_fresh (W1 m ρ)),
    .host (hseg hostOps1_1 hostOps1_1_sub hostOps1_1_fresh (W2 m ρ)),
    .host (hseg hostOps1_2 hostOps1_2_sub hostOps1_2_fresh (W3 m ρ)),
    .host (hseg hostOps1_3 hostOps1_3_sub hostOps1_3_fresh (W4 m ρ)),
    .region (reg1 m ρ),
    .host (hseg hostOps2 hostOps2_sub hostOps2_fresh (W6 m ρ)) ]

set_option backward.isDefEq.respectTransparency.types false in
/-- From any memory with zero counters, every weakly fair execution of the program terminates, and on every core the
    final memory holds every buffer not scoped to a launch at W7. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) admH (pdats m ρ) () cellOf_inj emb₁ defs₀ 𝒱₀ L lv m ρ main (segs m ρ)
    (fun c Q => by
      rewrite [main_chain c, Pipeline.Seg.run_eq_chain,
        show (segs m ρ).map Pipeline.Seg.prog = [
          Prog.lift (.customCall (Pipeline.entry 0) ()),
          StableHlo.seq hostOps1,
          StableHlo.seq hostOps1_1,
          StableHlo.seq hostOps1_2,
          StableHlo.seq hostOps1_3,
          Prog.lift (.customCall (Pipeline.entry 1) ()),
          StableHlo.seq hostOps2 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun c => by
        show iprop(StableHlo.held (c : Thread nD τ) (Pipeline.ucRefs τ sig) (W7 m ρ c) ∗ R c)
          ⊢ iprop(Tₙ m ρ c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h => h)

end Cert.Kernel.Hand

end
-- ==== Proof.KArgs.lean ====
/-
  The six argument arrays end as launched.

  No host operation writes an argument's buffer, and a launch changes only its output window's array: an argument
  that is the array of an input window is left by the launch at what it found there, and an argument that is no
  window's array is not touched at all. So the contents of an argument's buffer at the return, read back boundary by
  boundary through the two launches and the five host stretches, are its contents at launch.
-/
import proofs.«111412_j558345748855_2_alg».proof.Proof.KVals
import proofs.«111412_j558345748855_2_alg».proof.Proof.Gen.Kernel.Regions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

variable (m : (ℓ : Loc nD τ sig) → Buf (Elt F) ℓ) (ρ : Dev nD → PrngReg)

/-- `main_arg0` holds at the return what it held at launch. -/
theorem W7_main_arg0 (c : Dev nD) : W7 m ρ c (Proc.devRef .tc main_arg0) = m ((c : Thread nD τ).loc main_arg0) :=
  calc W7 m ρ c (Proc.devRef .tc main_arg0)
    _ = W6 m ρ c (Proc.devRef .tc main_arg0) := StableHlo.after_of_writes_sub hostOps2 _ hostOps2_writes (by decide)
    _ = W5 m ρ c (Proc.devRef .tc main_arg0) := W6_of_ne m ρ c main_arg0 (by decide)
    _ = W4 m ρ c (Proc.devRef .tc main_arg0) := StableHlo.after_of_writes_sub hostOps1_3 _ hostOps1_3_writes (by decide)
    _ = W3 m ρ c (Proc.devRef .tc main_arg0) := StableHlo.after_of_writes_sub hostOps1_2 _ hostOps1_2_writes (by decide)
    _ = W2 m ρ c (Proc.devRef .tc main_arg0) := StableHlo.after_of_writes_sub hostOps1_1 _ hostOps1_1_writes (by decide)
    _ = W1 m ρ c (Proc.devRef .tc main_arg0) := StableHlo.after_of_writes_sub hostOps1 _ hostOps1_writes (by decide)
    _ = W0 m ρ c (Proc.devRef .tc main_arg0) := (W1_arr m ρ c 0).trans (((dat0 (Va m ρ) c).arrAt_in 0 rfl _).trans (A_eq0 (Va m ρ) c 0))
    _ = m ((c : Thread nD τ).loc main_arg0) := rfl

/-- `main_arg1` holds at the return what it held at launch. -/
theorem W7_main_arg1 (c : Dev nD) : W7 m ρ c (Proc.devRef .tc main_arg1) = m ((c : Thread nD τ).loc main_arg1) :=
  calc W7 m ρ c (Proc.devRef .tc main_arg1)
    _ = W6 m ρ c (Proc.devRef .tc main_arg1) := StableHlo.after_of_writes_sub hostOps2 _ hostOps2_writes (by decide)
    _ = W5 m ρ c (Proc.devRef .tc main_arg1) := (W6_arr m ρ c 1).trans (((dat1 (Vb m ρ) c).arrAt_in 1 rfl _).trans (A_eq1 (Vb m ρ) c 1))
    _ = W4 m ρ c (Proc.devRef .tc main_arg1) := StableHlo.after_of_writes_sub hostOps1_3 _ hostOps1_3_writes (by decide)
    _ = W3 m ρ c (Proc.devRef .tc main_arg1) := StableHlo.after_of_writes_sub hostOps1_2 _ hostOps1_2_writes (by decide)
    _ = W2 m ρ c (Proc.devRef .tc main_arg1) := StableHlo.after_of_writes_sub hostOps1_1 _ hostOps1_1_writes (by decide)
    _ = W1 m ρ c (Proc.devRef .tc main_arg1) := StableHlo.after_of_writes_sub hostOps1 _ hostOps1_writes (by decide)
    _ = W0 m ρ c (Proc.devRef .tc main_arg1) := (W1_arr m ρ c 1).trans (((dat0 (Va m ρ) c).arrAt_in 1 rfl _).trans (A_eq0 (Va m ρ) c 1))
    _ = m ((c : Thread nD τ).loc main_arg1) := rfl

/-- `main_arg2` holds at the return what it held at launch. -/
theorem W7_main_arg2 (c : Dev nD) : W7 m ρ c (Proc.devRef .tc main_arg2) = m ((c : Thread nD τ).loc main_arg2) :=
  calc W7 m ρ c (Proc.devRef .tc main_arg2)
    _ = W6 m ρ c (Proc.devRef .tc main_arg2) := StableHlo.after_of_writes_sub hostOps2 _ hostOps2_writes (by decide)
    _ = W5 m ρ c (Proc.devRef .tc main_arg2) := W6_of_ne m ρ c main_arg2 (by decide)
    _ = W4 m ρ c (Proc.devRef .tc main_arg2) := StableHlo.after_of_writes_sub hostOps1_3 _ hostOps1_3_writes (by decide)
    _ = W3 m ρ c (Proc.devRef .tc main_arg2) := StableHlo.after_of_writes_sub hostOps1_2 _ hostOps1_2_writes (by decide)
    _ = W2 m ρ c (Proc.devRef .tc main_arg2) := StableHlo.after_of_writes_sub hostOps1_1 _ hostOps1_1_writes (by decide)
    _ = W1 m ρ c (Proc.devRef .tc main_arg2) := StableHlo.after_of_writes_sub hostOps1 _ hostOps1_writes (by decide)
    _ = W0 m ρ c (Proc.devRef .tc main_arg2) := (W1_arr m ρ c 2).trans (((dat0 (Va m ρ) c).arrAt_in 2 rfl _).trans (A_eq0 (Va m ρ) c 2))
    _ = m ((c : Thread nD τ).loc main_arg2) := rfl

/-- `main_arg3` holds at the return what it held at launch. -/
theorem W7_main_arg3 (c : Dev nD) : W7 m ρ c (Proc.devRef .tc main_arg3) = m ((c : Thread nD τ).loc main_arg3) :=
  calc W7 m ρ c (Proc.devRef .tc main_arg3)
    _ = W6 m ρ c (Proc.devRef .tc main_arg3) := StableHlo.after_of_writes_sub hostOps2 _ hostOps2_writes (by decide)
    _ = W5 m ρ c (Proc.devRef .tc main_arg3) := W6_of_ne m ρ c main_arg3 (by decide)
    _ = W4 m ρ c (Proc.devRef .tc main_arg3) := StableHlo.after_of_writes_sub hostOps1_3 _ hostOps1_3_writes (by decide)
    _ = W3 m ρ c (Proc.devRef .tc main_arg3) := StableHlo.after_of_writes_sub hostOps1_2 _ hostOps1_2_writes (by decide)
    _ = W2 m ρ c (Proc.devRef .tc main_arg3) := StableHlo.after_of_writes_sub hostOps1_1 _ hostOps1_1_writes (by decide)
    _ = W1 m ρ c (Proc.devRef .tc main_arg3) := StableHlo.after_of_writes_sub hostOps1 _ hostOps1_writes (by decide)
    _ = W0 m ρ c (Proc.devRef .tc main_arg3) := (W1_arr m ρ c 3).trans (((dat0 (Va m ρ) c).arrAt_in 3 rfl _).trans (A_eq0 (Va m ρ) c 3))
    _ = m ((c : Thread nD τ).loc main_arg3) := rfl

/-- `main_arg4` holds at the return what it held at launch. -/
theorem W7_main_arg4 (c : Dev nD) : W7 m ρ c (Proc.devRef .tc main_arg4) = m ((c : Thread nD τ).loc main_arg4) :=
  calc W7 m ρ c (Proc.devRef .tc main_arg4)
    _ = W6 m ρ c (Proc.devRef .tc main_arg4) := StableHlo.after_of_writes_sub hostOps2 _ hostOps2_writes (by decide)
    _ = W5 m ρ c (Proc.devRef .tc main_arg4) := W6_of_ne m ρ c main_arg4 (by decide)
    _ = W4 m ρ c (Proc.devRef .tc main_arg4) := StableHlo.after_of_writes_sub hostOps1_3 _ hostOps1_3_writes (by decide)
    _ = W3 m ρ c (Proc.devRef .tc main_arg4) := StableHlo.after_of_writes_sub hostOps1_2 _ hostOps1_2_writes (by decide)
    _ = W2 m ρ c (Proc.devRef .tc main_arg4) := StableHlo.after_of_writes_sub hostOps1_1 _ hostOps1_1_writes (by decide)
    _ = W1 m ρ c (Proc.devRef .tc main_arg4) := StableHlo.after_of_writes_sub hostOps1 _ hostOps1_writes (by decide)
    _ = W0 m ρ c (Proc.devRef .tc main_arg4) := W1_of_ne m ρ c main_arg4 (by decide)
    _ = m ((c : Thread nD τ).loc main_arg4) := rfl

/-- `main_arg5` holds at the return what it held at launch. -/
theorem W7_main_arg5 (c : Dev nD) : W7 m ρ c (Proc.devRef .tc main_arg5) = m ((c : Thread nD τ).loc main_arg5) :=
  calc W7 m ρ c (Proc.devRef .tc main_arg5)
    _ = W6 m ρ c (Proc.devRef .tc main_arg5) := StableHlo.after_of_writes_sub hostOps2 _ hostOps2_writes (by decide)
    _ = W5 m ρ c (Proc.devRef .tc main_arg5) := W6_of_ne m ρ c main_arg5 (by decide)
    _ = W4 m ρ c (Proc.devRef .tc main_arg5) := StableHlo.after_of_writes_sub hostOps1_3 _ hostOps1_3_writes (by decide)
    _ = W3 m ρ c (Proc.devRef .tc main_arg5) := StableHlo.after_of_writes_sub hostOps1_2 _ hostOps1_2_writes (by decide)
    _ = W2 m ρ c (Proc.devRef .tc main_arg5) := StableHlo.after_of_writes_sub hostOps1_1 _ hostOps1_1_writes (by decide)
    _ = W1 m ρ c (Proc.devRef .tc main_arg5) := StableHlo.after_of_writes_sub hostOps1 _ hostOps1_writes (by decide)
    _ = W0 m ρ c (Proc.devRef .tc main_arg5) := W1_of_ne m ρ c main_arg5 (by decide)
    _ = m ((c : Thread nD τ).loc main_arg5) := rfl

end Cert.Kernel.Hand

end
-- ==== Proof.R0Defs.lean ====
/-
  The first layer's launch: what its windows' blocks are, what the accumulator it carries from one grid point to the
  next holds, and the description of the launch built from them.

  The grid is 8 row tiles by 16 contraction tiles, the contraction index moving fastest: point t works on row tile
  t / 16 and contraction tile t % 16. At every point the body adds (A tile) * ((X tile) * W) to a 2048 by 128
  accumulator kept in a scratch buffer — starting from zero where t % 16 = 0 — and where t % 16 = 15 it stores the
  accumulator plus the bias, clamped below at zero, into the output tile, which is then written back. So the accumulator
  after point t is a recursion on t within a row tile, and the output tile is a function of the accumulator at the
  row tile's last point.
-/
import proofs.«111412_j558345748855_2_alg».proof.Proof.Gen.KernelIdeal.Launch
import proofs.«111412_j558345748855_2_alg».proof.Proof.Gen.KernelIdeal.Skeleton
import proofs.«111412_j558345748855_2_alg».proof.Proof.Gen.KernelIdeal.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the contents of the TensorCore's buffers when the launch starts: a parameter
variable (V : (c : Dev nD) → (b : Ref sig .tc) → Buf (Elt F) ((c : Thread nD τ).loc b))

/-- Window `w`'s block at grid point `t`, read off its array as the launch finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The scratch buffer that holds the accumulator, as a whole memref. -/
abbrev scM0 : Memref sig .tc .vmem S2048x128 .f32 := Memref.whole cc0_scratch0

/-- One step of the accumulation: the accumulator `s` plus (A tile) * ((X tile) * W). -/
abbrev step0 (c : Dev nD) (t : Fin cfg0.N) (s : Vec F S2048x128 .f32) : Vec F S2048x128 .f32 :=
  k0_pay2 (iblk0 V c 0 t) (iblk0 V c 2 t) (iblk0 V c 1 t) s

/-- THE ACCUMULATOR after the body at point `n`: one step from zero where `n` starts a row tile (`n % 16 = 0`), else one
    step from what the point before left. -/
def acc0 (c : Dev nD) : (n : ℕ) → n < cfg0.N → Vec F S2048x128 .f32
  | 0, hn => step0 V c ⟨0, hn⟩ k0_pay1
  | n + 1, hn => step0 V c ⟨n + 1, hn⟩ (if (n + 1) % 16 = 0 then k0_pay1 else acc0 c n (Nat.lt_of_succ_lt hn))

theorem acc0_first (c : Dev nD) (t : Fin cfg0.N) (h : t.val % 16 = 0) :
    acc0 V c t.val t.isLt = step0 V c t k0_pay1 := by
  obtain ⟨n, hn⟩ := t
  cases n with
  | zero => rfl
  | succ n => exact congrArg (step0 V c ⟨n + 1, hn⟩) (if_pos h)

theorem acc0_later (c : Dev nD) (t : Fin cfg0.N) (h : ¬t.val % 16 = 0) :
    acc0 V c t.val t.isLt = step0 V c t (acc0 V c (t.val - 1) (Nat.lt_of_le_of_lt (Nat.sub_le _ _) t.isLt)) := by
  obtain ⟨n, hn⟩ := t
  cases n with
  | zero => exact absurd (Nat.zero_mod _) h
  | succ n => exact congrArg (step0 V c ⟨n + 1, hn⟩) (if_neg h)

/-- What the body stores into the output tile at a point that ends a row tile: the accumulator there plus the bias, clamped below at zero. -/
abbrev outT0 (c : Dev nD) (t : Fin cfg0.N) : Vec F S2048x128 .bf16 :=
  k0_pay3 (acc0 V c t.val t.isLt) (iblk0 V c 3 t)

/-- The scoped buffers that belong to the other launch, each whole at some contents: this launch never touches them. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_scratch0), ((c : Thread nD τ).loc cc1_scratch0) ↦{fullShare} f))

/-- The invariant before position `n`: before the first point every scoped buffer no window stages at some contents and
    the generator register at some state; afterwards the same with the accumulator's buffer at what the point before
    left in it. -/
def Phi0 (c : Dev nD) : (n : ℕ) → n ≤ cfg0.N → sProp 𝕄
  | 0, _ => Pipeline.ΦA spec0 c
  | n + 1, hn => iprop(owns (c : Thread nD τ) scM0 fullShare (acc0 V c n hn) ∗ rest0 c ∗ (∃ r, prngReg c r))

theorem Phi0_zero (c : Dev nD) (n : ℕ) (h : n ≤ cfg0.N) (hz : n = 0) : Phi0 V c n h = Pipeline.ΦA spec0 c := by
  subst hz; rfl

theorem Phi0_succ (c : Dev nD) (n : ℕ) (hn : n < cfg0.N) :
    Phi0 V c (n + 1) hn = iprop(owns (c : Thread nD τ) scM0 fullShare (acc0 V c n hn) ∗ rest0 c ∗ (∃ r, prngReg c r)) := rfl

theorem Phi0_pos (c : Dev nD) (n : ℕ) (h : n ≤ cfg0.N) (hz : n ≠ 0) :
    Phi0 V c n h = iprop(owns (c : Thread nD τ) scM0 fullShare (acc0 V c (n - 1) (by omega)) ∗ rest0 c ∗ (∃ r, prngReg c r)) := by
  cases n with
  | zero => exact absurd rfl hz
  | succ n => rfl

/-- The launch's description on core `c`: the arrays as the launch finds them; after the body at point `t` each input's
    buffer at its block and the output's at `outT0`; the invariant `Phi0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => outT0 V c t
  Φ t := Phi0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem Phi0_castSucc (c : Dev nD) (t : Fin cfg0.N) :
    (dat0 V c).Φ t.castSucc = Phi0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = outT0 V c t := by dsimp only [dat0]

/-- Each input's current staging buffer holds its block at every point, whether or not the point fetched it (where it
    was not fetched the block index has not moved). -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl) (fun t => by rw [after0_3]; unfold Dat.blockOf iblk0; rw [A_eq0]; try rfl) t d).trans
    (by unfold Dat.fetched Dat.blockOf iblk0; rw [A_eq0]; try rfl)

end Cert.KernelIdeal.Hand

end
-- ==== Proof.R1Defs.lean ====
/-
  The second layer's launch: what its windows' blocks are, what the accumulator it carries from one grid point to the
  next holds, and the description of the launch built from them.

  The grid is 8 row tiles by 16 contraction tiles, the contraction index moving fastest: point t works on row tile
  t / 16 and contraction tile t % 16. At every point the body adds (A tile) * ((X tile) * W) to a 2048 by 128
  accumulator kept in a scratch buffer — starting from zero where t % 16 = 0 — and where t % 16 = 15 it stores the
  accumulator plus the bias into the output tile, which is then written back. So the accumulator
  after point t is a recursion on t within a row tile, and the output tile is a function of the accumulator at the
  row tile's last point.
-/
import proofs.«111412_j558345748855_2_alg».proof.Proof.Gen.KernelIdeal.Launch
import proofs.«111412_j558345748855_2_alg».proof.Proof.Gen.KernelIdeal.Skeleton
import proofs.«111412_j558345748855_2_alg».proof.Proof.Gen.KernelIdeal.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the contents of the TensorCore's buffers when the launch starts: a parameter
variable (V : (c : Dev nD) → (b : Ref sig .tc) → Buf (Elt F) ((c : Thread nD τ).loc b))

/-- Window `w`'s block at grid point `t`, read off its array as the launch finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The scratch buffer that holds the accumulator, as a whole memref. -/
abbrev scM1 : Memref sig .tc .vmem S2048x128 .f32 := Memref.whole cc1_scratch0

/-- One step of the accumulation: the accumulator `s` plus (A tile) * ((X tile) * W). -/
abbrev step1 (c : Dev nD) (t : Fin cfg1.N) (s : Vec F S2048x128 .f32) : Vec F S2048x128 .f32 :=
  k1_pay2 (iblk1 V c 0 t) (iblk1 V c 2 t) (iblk1 V c 1 t) s

/-- THE ACCUMULATOR after the body at point `n`: one step from zero where `n` starts a row tile (`n % 16 = 0`), else one
    step from what the point before left. -/
def acc1 (c : Dev nD) : (n : ℕ) → n < cfg1.N → Vec F S2048x128 .f32
  | 0, hn => step1 V c ⟨0, hn⟩ k1_pay1
  | n + 1, hn => step1 V c ⟨n + 1, hn⟩ (if (n + 1) % 16 = 0 then k1_pay1 else acc1 c n (Nat.lt_of_succ_lt hn))

theorem acc1_first (c : Dev nD) (t : Fin cfg1.N) (h : t.val % 16 = 0) :
    acc1 V c t.val t.isLt = step1 V c t k1_pay1 := by
  obtain ⟨n, hn⟩ := t
  cases n with
  | zero => rfl
  | succ n => exact congrArg (step1 V c ⟨n + 1, hn⟩) (if_pos h)

theorem acc1_later (c : Dev nD) (t : Fin cfg1.N) (h : ¬t.val % 16 = 0) :
    acc1 V c t.val t.isLt = step1 V c t (acc1 V c (t.val - 1) (Nat.lt_of_le_of_lt (Nat.sub_le _ _) t.isLt)) := by
  obtain ⟨n, hn⟩ := t
  cases n with
  | zero => exact absurd (Nat.zero_mod _) h
  | succ n => exact congrArg (step1 V c ⟨n + 1, hn⟩) (if_neg h)

/-- What the body stores into the output tile at a point that ends a row tile: the accumulator there plus the bias. -/
abbrev outT1 (c : Dev nD) (t : Fin cfg1.N) : Vec F S2048x128 .f32 :=
  k1_pay3 (acc1 V c t.val t.isLt) (iblk1 V c 3 t)

/-- The scoped buffers that belong to the other launch, each whole at some contents: this launch never touches them. -/
def rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_scratch0), ((c : Thread nD τ).loc cc0_scratch0) ↦{fullShare} f))

/-- The invariant before position `n`: before the first point every scoped buffer no window stages at some contents and
    the generator register at some state; afterwards the same with the accumulator's buffer at what the point before
    left in it. -/
def Phi1 (c : Dev nD) : (n : ℕ) → n ≤ cfg1.N → sProp 𝕄
  | 0, _ => Pipeline.ΦA spec1 c
  | n + 1, hn => iprop(owns (c : Thread nD τ) scM1 fullShare (acc1 V c n hn) ∗ rest1 c ∗ (∃ r, prngReg c r))

theorem Phi1_zero (c : Dev nD) (n : ℕ) (h : n ≤ cfg1.N) (hz : n = 0) : Phi1 V c n h = Pipeline.ΦA spec1 c := by
  subst hz; rfl

theorem Phi1_succ (c : Dev nD) (n : ℕ) (hn : n < cfg1.N) :
    Phi1 V c (n + 1) hn = iprop(owns (c : Thread nD τ) scM1 fullShare (acc1 V c n hn) ∗ rest1 c ∗ (∃ r, prngReg c r)) := rfl

theorem Phi1_pos (c : Dev nD) (n : ℕ) (h : n ≤ cfg1.N) (hz : n ≠ 0) :
    Phi1 V c n h = iprop(owns (c : Thread nD τ) scM1 fullShare (acc1 V c (n - 1) (by omega)) ∗ rest1 c ∗ (∃ r, prngReg c r)) := by
  cases n with
  | zero => exact absurd rfl hz
  | succ n => rfl

/-- The launch's description on core `c`: the arrays as the launch finds them; after the body at point `t` each input's
    buffer at its block and the output's at `outT1`; the invariant `Phi1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => outT1 V c t
  Φ t := Phi1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem Phi1_castSucc (c : Dev nD) (t : Fin cfg1.N) :
    (dat1 V c).Φ t.castSucc = Phi1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = outT1 V c t := by dsimp only [dat1]

/-- Each input's current staging buffer holds its block at every point, whether or not the point fetched it (where it
    was not fetched the block index has not moved). -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)

end Cert.KernelIdeal.Hand

end
-- ==== Proof.Vals.lean ====
/-
  The contents of the TensorCore's buffers at each boundary of the program, from the launch to the return.

  The program is: the first layer's launch; four short stretches of host operations (two zero constants, each
  converted and used to pad W2 and b2 to 128 columns); the second layer's launch; one host slice back to 64 columns.
  A host stretch changes the buffers it writes as its operations say. A launch changes only its output window's array,
  which ends holding what the write-backs of its grid points leave; every other buffer keeps what it held.
-/
import proofs.«111412_j558345748855_2_alg».proof.Proof.R0Defs
import proofs.«111412_j558345748855_2_alg».proof.Proof.R1Defs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- The same read at the TensorCore's references: what the first launch's description takes. -/
abbrev Va : (c : Dev nD) → (b : Ref sig .tc) → Buf (Elt F) ((c : Thread nD τ).loc b) := fun c b => W0 m ρ c b

/-- After the first launch: its arrays at what its write-backs leave, every other buffer as before. -/
def W1 (c : Dev nD) : Valuation τ sig (Elt F) :=
  Pipeline.withArrays spec0 c (W0 m ρ c) fun w => (dat0 (Va m ρ) c).arrAt w cfg0.N
theorem W1_arr (c : Dev nD) (w : Fin cfg0.W) :
    W1 m ρ c (Proc.devRef .tc (Pipeline.arrRef spec0 w)) = (dat0 (Va m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (Va m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = Va m ρ c b :=
  fun b hb => W1_of_ne m ρ c b fun w e => hb (Finset.mem_image.mpr ⟨w, Finset.mem_univ _, e⟩)

/-- After each of the four host stretches between the launches. -/
abbrev W2 : Dev nD → Valuation τ sig (Elt F) := fun c => StableHlo.after hostOps1 (W1 m ρ c)
abbrev W3 : Dev nD → Valuation τ sig (Elt F) := fun c => StableHlo.after hostOps1_1 (W2 m ρ c)
abbrev W4 : Dev nD → Valuation τ sig (Elt F) := fun c => StableHlo.after hostOps1_2 (W3 m ρ c)
abbrev W5 : Dev nD → Valuation τ sig (Elt F) := fun c => StableHlo.after hostOps1_3 (W4 m ρ c)
/-- The same read at the TensorCore's references: what the second launch's description takes. -/
abbrev Vb : (c : Dev nD) → (b : Ref sig .tc) → Buf (Elt F) ((c : Thread nD τ).loc b) := fun c b => W5 m ρ c b

/-- After the second launch. -/
def W6 (c : Dev nD) : Valuation τ sig (Elt F) :=
  Pipeline.withArrays spec1 c (W5 m ρ c) fun w => (dat1 (Vb m ρ) c).arrAt w cfg1.N
theorem W6_arr (c : Dev nD) (w : Fin cfg1.W) :
    W6 m ρ c (Proc.devRef .tc (Pipeline.arrRef spec1 w)) = (dat1 (Vb m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
abbrev V6 : (c : Dev nD) → (b : Ref sig .tc) → Buf (Elt F) ((c : Thread nD τ).loc b) := fun c b => W6 m ρ c b
theorem hF1 (c : Dev nD) (w : Fin cfg1.W) : (dat1 (Vb m ρ) c).arrAt w cfg1.N = V6 m ρ c (Pipeline.arrRef spec1 w) :=
  (W6_arr m ρ c w).symm
theorem hrest1 (c : Dev nD) : ∀ b, b ∉ Finset.univ.image (Pipeline.arrRef spec1) → V6 m ρ c b = Vb m ρ c b :=
  fun b hb => W6_of_ne m ρ c b fun w e => hb (Finset.mem_image.mpr ⟨w, Finset.mem_univ _, e⟩)

/-- After the final slice: what the program returns with. -/
abbrev W7 : Dev nD → Valuation τ sig (Elt F) := fun c => StableHlo.after hostOps2 (W6 m ρ c)

end Cert.KernelIdeal.Hand

end
-- ==== Proof.R0Body.lean ====
/-
  The first layer's kernel body, run at a grid point, and the obligation the launch asks of it.

  The body branches twice on the contraction index k of the point: at k = 0 it first zeroes the accumulator; at
  k = 15 it finally stores the accumulator plus the bias into the output tile. On a 16-step contraction the two never
  coincide, so a point is in one of three cases — first, middle, last — and in each the body is straight-line: it
  leaves every input buffer as it found it, the accumulator one step further, and the output tile either untouched
  (first, middle) or stored whole (last).
-/
import proofs.«111412_j558345748855_2_alg».proof.Proof.R0Defs
import proofs.«111412_j558345748855_2_alg».proof.Proof.WholeStore

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.WholeStore

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The two conditions, in closed form over the grid -/

/-- "This point starts a row tile": the contraction index is 0. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 16 = 0 :=
  (by decide +kernel : ∀ t : Fin grid0.N, cond0_0 (grid0.coords t) ↔ t.val % 16 = 0)
/-- "This point ends a row tile": the contraction index is 15. -/
abbrev cond0_1 (i : grid0.Coords) : Prop := k0_cond2 i = 1#1
theorem hcond0_1 : ∀ t : Fin cfg0.N, cond0_1 (grid0.coords t) ↔ t.val % 16 = 15 :=
  (by decide +kernel : ∀ t : Fin grid0.N, cond0_1 (grid0.coords t) ↔ t.val % 16 = 15)

/-! ## Where each window is live -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- The output tile is stored only where a row tile ends: elsewhere the window is idle and not written back. -/
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
theorem liveAt0_4 : ∀ t : Fin cfg0.N, cond0_1 (grid0.coords t) → cfg0.idle 4 (grid0.coords t) = false := by decide +kernel

/-! ## The body in each of its three cases -/

set_option maxHeartbeats 1000000 in
/-- At a point that starts a row tile: the accumulator is zeroed, then stepped; the output tile is untouched. -/
theorem sound_kernel0_A (c : Dev nD) (E : Set ℕ) (i : grid0.Coords)
    (arg2 : Memref sig .tc .vmem S1024x128 .f32) (harg2 : arg2.IsWhole) (arg3 : Memref sig .tc .vmem S2048x1024 .f32) (harg3 : arg3.IsWhole)
    (arg4 : Memref sig .tc .vmem S128x128 .f32) (harg4 : arg4.IsWhole) (arg5 : Memref sig .tc .vmem S128 .f32) (harg5 : arg5.IsWhole)
    (arg6 : Memref sig .tc .vmem S2048x128 .bf16) (harg6 : arg6.IsWhole) (arg7 : Memref sig .tc .vmem S2048x128 .f32) (harg7 : arg7.IsWhole)
    (hc0 : cond0_0 i) (hc1 : ¬cond0_1 i)
    (x0 : Vec F S1024x128 .f32) (x1 : Vec F S2048x1024 .f32) (x2 : Vec F S128x128 .f32) (x3 : Vec F S128 .f32) (d : Vec F S2048x128 .bf16) (s : Vec F S2048x128 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare d ∗ owns (c : Thread nD τ) arg7 fullShare s
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare d
            ∗ owns (c : Thread nD τ) arg7 fullShare (k0_pay2 x0 x2 x1 k0_pay1)) -∗ K ⟨⟩))
      ⊢ wp frame (wpE (defs₀ (F := F)) Variants.none c none) E (cc0__gcn_layer_kernel i arg2 harg2 arg3 harg3 arg4 harg4 arg5 harg5 arg6 harg6 arg7 harg7) K := by
  simp only [cc0__gcn_layer_kernel_eq_skeleton]; unfold cc0__gcn_layer_kernel_skel
  unfold owns
  iintro ⟨⟨%f0, %hf0, H0⟩, ⟨%f1, %hf1, H1⟩, ⟨%f2, %hf2, H2⟩, ⟨%f3, %hf3, H3⟩, ⟨%f6, %hf6, H6⟩, ⟨%f7, %hf7, H7⟩, Hk⟩
  subst hf0; subst hf1; subst hf2; subst hf3; subst hf6; subst hf7
  sl_exec (disch := first | exact hc0 | exact hc1)
  sl_step
  iapply Hk
  isplitl [H0]; · iexists _; isplitr; · ipureintro; rfl
                  iexact H0
  isplitl [H1]; · iexists _; isplitr; · ipureintro; rfl
                  iexact H1
  isplitl [H2]; · iexists _; isplitr; · ipureintro; rfl
                  iexact H2
  isplitl [H3]; · iexists _; isplitr; · ipureintro; rfl
                  iexact H3
  isplitl [H6]; · iexists _; isplitr; · ipureintro; rfl
                  iexact H6
  iexists _; isplitr
  swap; · iexact H7
  ipureintro
  sl_unfold_run_names
  simp only [read_store_whole (S := S2048x128) _ _ hz2, View.readAt_eq_ld, View.ld_unit_zero (S := S1024x128) hz2, View.ld_unit_zero (S := S128x128) hz2, View.ld_unit_zero (S := S2048x1024) hz2, View.ld_unit_zero (S := S2048x128) hz2, View.ld_unit_zero (S := S128) hz1, View.readCov_unit_zero (S := S2048x128) _ hz2]

set_option maxHeartbeats 1000000 in
/-- At a middle point: the accumulator is stepped; the output tile is untouched. -/
theorem sound_kernel0_B (c : Dev nD) (E : Set ℕ) (i : grid0.Coords)
    (arg2 : Memref sig .tc .vmem S1024x128 .f32) (harg2 : arg2.IsWhole) (arg3 : Memref sig .tc .vmem S2048x1024 .f32) (harg3 : arg3.IsWhole)
    (arg4 : Memref sig .tc .vmem S128x128 .f32) (harg4 : arg4.IsWhole) (arg5 : Memref sig .tc .vmem S128 .f32) (harg5 : arg5.IsWhole)
    (arg6 : Memref sig .tc .vmem S2048x128 .bf16) (harg6 : arg6.IsWhole) (arg7 : Memref sig .tc .vmem S2048x128 .f32) (harg7 : arg7.IsWhole)
    (hc0 : ¬cond0_0 i) (hc1 : ¬cond0_1 i)
    (x0 : Vec F S1024x128 .f32) (x1 : Vec F S2048x1024 .f32) (x2 : Vec F S128x128 .f32) (x3 : Vec F S128 .f32) (d : Vec F S2048x128 .bf16) (s : Vec F S2048x128 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare d ∗ owns (c : Thread nD τ) arg7 fullShare s
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare d
            ∗ owns (c : Thread nD τ) arg7 fullShare (k0_pay2 x0 x2 x1 s)) -∗ K ⟨⟩))
      ⊢ wp frame (wpE (defs₀ (F := F)) Variants.none c none) E (cc0__gcn_layer_kernel i arg2 harg2 arg3 harg3 arg4 harg4 arg5 harg5 arg6 harg6 arg7 harg7) K := by
  simp only [cc0__gcn_layer_kernel_eq_skeleton]; unfold cc0__gcn_layer_kernel_skel
  unfold owns
  iintro ⟨⟨%f0, %hf0, H0⟩, ⟨%f1, %hf1, H1⟩, ⟨%f2, %hf2, H2⟩, ⟨%f3, %hf3, H3⟩, ⟨%f6, %hf6, H6⟩, ⟨%f7, %hf7, H7⟩, Hk⟩
  subst hf0; subst hf1; subst hf2; subst hf3; subst hf6; subst hf7
  sl_exec (disch := first | exact hc0 | exact hc1)
  sl_step
  iapply Hk
  isplitl [H0]; · iexists _; isplitr; · ipureintro; rfl
                  iexact H0
  isplitl [H1]; · iexists _; isplitr; · ipureintro; rfl
                  iexact H1
  isplitl [H2]; · iexists _; isplitr; · ipureintro; rfl
                  iexact H2
  isplitl [H3]; · iexists _; isplitr; · ipureintro; rfl
                  iexact H3
  isplitl [H6]; · iexists _; isplitr; · ipureintro; rfl
                  iexact H6
  iexists _; isplitr
  swap; · iexact H7
  ipureintro
  sl_unfold_run_names
  simp only [read_store_whole (S := S2048x128) _ _ hz2, View.readAt_eq_ld, View.ld_unit_zero (S := S1024x128) hz2, View.ld_unit_zero (S := S128x128) hz2, View.ld_unit_zero (S := S2048x1024) hz2, View.ld_unit_zero (S := S2048x128) hz2, View.ld_unit_zero (S := S128) hz1, View.readCov_unit_zero (S := S2048x128) _ hz2]

set_option maxHeartbeats 1000000 in
/-- At a point that ends a row tile: the accumulator is stepped, and the output tile is stored whole from it and the bias. -/
theorem sound_kernel0_C (c : Dev nD) (E : Set ℕ) (i : grid0.Coords)
    (arg2 : Memref sig .tc .vmem S1024x128 .f32) (harg2 : arg2.IsWhole) (arg3 : Memref sig .tc .vmem S2048x1024 .f32) (harg3 : arg3.IsWhole)
    (arg4 : Memref sig .tc .vmem S128x128 .f32) (harg4 : arg4.IsWhole) (arg5 : Memref sig .tc .vmem S128 .f32) (harg5 : arg5.IsWhole)
    (arg6 : Memref sig .tc .vmem S2048x128 .bf16) (harg6 : arg6.IsWhole) (arg7 : Memref sig .tc .vmem S2048x128 .f32) (harg7 : arg7.IsWhole)
    (hc0 : ¬cond0_0 i) (hc1 : cond0_1 i)
    (x0 : Vec F S1024x128 .f32) (x1 : Vec F S2048x1024 .f32) (x2 : Vec F S128x128 .f32) (x3 : Vec F S128 .f32) (d : Vec F S2048x128 .bf16) (s : Vec F S2048x128 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare d ∗ owns (c : Thread nD τ) arg7 fullShare s
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (k0_pay3 (k0_pay2 x0 x2 x1 s) x3)
            ∗ owns (c : Thread nD τ) arg7 fullShare (k0_pay2 x0 x2 x1 s)) -∗ K ⟨⟩))
      ⊢ wp frame (wpE (defs₀ (F := F)) Variants.none c none) E (cc0__gcn_layer_kernel i arg2 harg2 arg3 harg3 arg4 harg4 arg5 harg5 arg6 harg6 arg7 harg7) K := by
  simp only [cc0__gcn_layer_kernel_eq_skeleton]; unfold cc0__gcn_layer_kernel_skel
  unfold owns
  iintro ⟨⟨%f0, %hf0, H0⟩, ⟨%f1, %hf1, H1⟩, ⟨%f2, %hf2, H2⟩, ⟨%f3, %hf3, H3⟩, ⟨%f6, %hf6, H6⟩, ⟨%f7, %hf7, H7⟩, Hk⟩
  subst hf0; subst hf1; subst hf2; subst hf3; subst hf6; subst hf7
  sl_exec (disch := first | exact hc0 | exact hc1)
  sl_step
  iapply Hk
  isplitl [H0]; · iexists _; isplitr; · ipureintro; rfl
                  iexact H0
  isplitl [H1]; · iexists _; isplitr; · ipureintro; rfl
                  iexact H1
  isplitl [H2]; · iexists _; isplitr; · ipureintro; rfl
                  iexact H2
  isplitl [H3]; · iexists _; isplitr; · ipureintro; rfl
                  iexact H3
  isplitl [H6]
  · iexists _; isplitr
    swap; · iexact H6
    ipureintro
    sl_unfold_run_names
    simp only [read_store_whole (S := S2048x128) _ _ hz2, View.readAt_eq_ld, View.ld_unit_zero (S := S1024x128) hz2, View.ld_unit_zero (S := S128x128) hz2, View.ld_unit_zero (S := S2048x1024) hz2, View.ld_unit_zero (S := S2048x128) hz2, View.ld_unit_zero (S := S128) hz1, View.readCov_unit_zero (S := S2048x128) _ hz2]
  iexists _; isplitr
  swap; · iexact H7
  ipureintro
  sl_unfold_run_names
  simp only [read_store_whole (S := S2048x128) _ _ hz2, View.readAt_eq_ld, View.ld_unit_zero (S := S1024x128) hz2, View.ld_unit_zero (S := S128x128) hz2, View.ld_unit_zero (S := S2048x1024) hz2, View.ld_unit_zero (S := S2048x128) hz2, View.ld_unit_zero (S := S128) hz1, View.readCov_unit_zero (S := S2048x128) _ hz2]

/-! ## The invariant, opened and closed -/

/-- Before any point the invariant is the launch's own: the accumulator's buffer at some contents, the other launch's
    buffers, the generator register. -/
theorem PhiA0_split (c : Dev nD) :
    (Pipeline.ΦA spec0 c : sProp 𝕄) ⊢ iprop((∃ d, owns (c : Thread nD τ) scM0 fullShare d) ∗ rest0 c ∗ (∃ r, prngReg c r)) := by
  unfold Pipeline.ΦA rest0; rw [scopedRest0_eq]; simp only [scM0, owns_whole]
  iintro ⟨⟨HS, Hr⟩, Hg⟩
  isplitl [HS]; · iexact HS
  isplitl [Hr]; · iexact Hr
  iexact Hg

theorem PhiA0_join (c : Dev nD) :
    iprop((∃ d, owns (c : Thread nD τ) scM0 fullShare d) ∗ rest0 c ∗ (∃ r, prngReg c r)) ⊢ (Pipeline.ΦA spec0 c : sProp 𝕄) := by
  unfold Pipeline.ΦA rest0; rw [scopedRest0_eq]; simp only [scM0, owns_whole]
  iintro ⟨HS, Hr, Hg⟩
  isplitl [HS Hr]
  · isplitl [HS]; · iexact HS
    iexact Hr
  iexact Hg

/-- At any position the invariant holds the accumulator's buffer at SOME contents. -/
theorem Phi0_weak (c : Dev nD) (n : ℕ) (h : n ≤ cfg0.N) :
    Phi0 V c n h ⊢ iprop((∃ d, owns (c : Thread nD τ) scM0 fullShare d) ∗ rest0 c ∗ (∃ r, prngReg c r)) := by
  cases n with
  | zero => exact PhiA0_split c
  | succ n =>
    rw [Phi0_succ]
    iintro ⟨HS, Hr, Hg⟩
    isplitl [HS]; · iexists _; iexact HS
    isplitl [Hr]; · iexact Hr
    iexact Hg

/-! ## The obligation the launch asks of the body -/

/-- Each window's current staging buffer at point `t`, as the launch passes it to the body. -/
abbrev ms0_0 (t : Fin cfg0.N) : Memref sig .tc .vmem S1024x128 .f32 := win0_0.stage (cfg0.slots t 0)
abbrev ms0_1 (t : Fin cfg0.N) : Memref sig .tc .vmem S2048x1024 .f32 := win0_1.stage (cfg0.slots t 1)
abbrev ms0_2 (t : Fin cfg0.N) : Memref sig .tc .vmem S128x128 .f32 := win0_2.stage (cfg0.slots t 2)
abbrev ms0_3 (t : Fin cfg0.N) : Memref sig .tc .vmem S128 .f32 := win0_3.stage (cfg0.slots t 3)
abbrev ms0_4 (t : Fin cfg0.N) : Memref sig .tc .vmem S2048x128 .bf16 := win0_4.stage (cfg0.slots t 4)

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 4800000 in
/-- The body at any point. The inputs' buffers hold their blocks; the point's position in its row tile says which of
    the three cases it is in; the invariant hands the body the accumulator at what the point before left (at anything
    where a row tile starts) and takes it back one step further; where a row tile ends the output tile is stored,
    elsewhere its buffer goes back untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = Phi0 V c (t.val + 1) t.isLt from rfl, Phi0_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  rw [Phi0_castSucc V c t]
  have hN : t.val < 128 := lt_of_lt_of_eq t.isLt (show cfg0.N = 128 from N_0)
  by_cases h1 : t.val % 16 = 15
  · -- the point ends a row tile
    have h0 : ¬t.val % 16 = 0 := by omega
    have hz : t.val ≠ 0 := by omega
    rw [show (dat0 V c).leavesExact 4 t = owns (c : Thread nD τ) (ms0_4 t) fullShare ((dat0 V c).after 4 t) from by
      unfold Dat.leavesExact; rw [liveAt0_4 t ((hcond0_1 t).mpr h1)], after0_4]
    unfold outT0
    rw [acc0_later V c t h0, Phi0_pos V c _ _ hz]
    iintro ⟨⟨HS, Hr, Hg⟩, Ho, ⟨%d0, H0⟩, ⟨%d1, H1⟩, ⟨%d2, H2⟩, ⟨%d3, H3⟩, ⟨%d4, H4⟩⟩
    iapply (sound_kernel0_C c Set.univ (grid0.coords t) _ _ _ _ _ _ _ _ _ _ _ _ (fun h => h0 ((hcond0_0 t).mp h)) ((hcond0_1 t).mpr h1)
      (iblk0 V c 0 t) (iblk0 V c 1 t) (iblk0 V c 2 t) (iblk0 V c 3 t) _ _ _)
    isplitl [H0]; · iexact H0
    isplitl [H1]; · iexact H1
    isplitl [H2]; · iexact H2
    isplitl [H3]; · iexact H3
    isplitl [H4]; · iexact H4
    isplitl [HS]; · iexact HS
    iintro ⟨H0, H1, H2, H3, H4, HS⟩
    isplitl [HS Hr Hg]
    · isplitl [HS]; · iexact HS
      isplitl [Hr]; · iexact Hr
      iexact Hg
    isplitl [Ho]; · iexact Ho
    isplitl [H0]; · iexact H0
    isplitl [H1]; · iexact H1
    isplitl [H2]; · iexact H2
    isplitl [H3]; · iexact H3
    iexact H4
  · have hc1 : ¬cond0_1 (grid0.coords t) := fun h => h1 ((hcond0_1 t).mp h)
    rw [Dat.leavesExact_idle (dat0 V c) 4 t (idleAt0_4 t hc1) (noFlush0_4 t hc1)]
    by_cases h0 : t.val % 16 = 0
    · -- the point starts a row tile
      rw [acc0_first V c t h0]
      have hweak := Phi0_weak V c t.val (Nat.le_of_lt t.isLt)
      iintro ⟨HP, Ho, ⟨%d0, H0⟩, ⟨%d1, H1⟩, ⟨%d2, H2⟩, ⟨%d3, H3⟩, ⟨%d4, H4⟩⟩
      ihave HW := hweak $$ HP
      icases HW with ⟨⟨%s, HS⟩, Hr, Hg⟩
      iapply (sound_kernel0_A c Set.univ (grid0.coords t) _ _ _ _ _ _ _ _ _ _ _ _ ((hcond0_0 t).mpr h0) hc1
        (iblk0 V c 0 t) (iblk0 V c 1 t) (iblk0 V c 2 t) (iblk0 V c 3 t) _ s _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS Hr Hg]
      · isplitl [HS]; · iexact HS
        isplitl [Hr]; · iexact Hr
        iexact Hg
      isplitl [Ho]; · iexact Ho
      isplitl [H0]; · iexact H0
      isplitl [H1]; · iexact H1
      isplitl [H2]; · iexact H2
      isplitl [H3]; · iexact H3
      iexists _; iexact H4
    · -- a middle point
      have hz : t.val ≠ 0 := fun h => h0 (by rw [h])
      rw [acc0_later V c t h0, Phi0_pos V c _ _ hz]
      iintro ⟨⟨HS, Hr, Hg⟩, Ho, ⟨%d0, H0⟩, ⟨%d1, H1⟩, ⟨%d2, H2⟩, ⟨%d3, H3⟩, ⟨%d4, H4⟩⟩
      iapply (sound_kernel0_B c Set.univ (grid0.coords t) _ _ _ _ _ _ _ _ _ _ _ _ (fun h => h0 ((hcond0_0 t).mp h)) hc1
        (iblk0 V c 0 t) (iblk0 V c 1 t) (iblk0 V c 2 t) (iblk0 V c 3 t) _ _ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS Hr Hg]
      · isplitl [HS]; · iexact HS
        isplitl [Hr]; · iexact Hr
        iexact Hg
      isplitl [Ho]; · iexact Ho
      isplitl [H0]; · iexact H0
      isplitl [H1]; · iexact H1
      isplitl [H2]; · iexact H2
      isplitl [H3]; · iexact H3
      iexists _; iexact H4

/-- The launch's obligation at every grid point. -/
theorem body_obligation0 (c : Dev nD) : BodyObligation (dat0 (F := F) V c) (defs₀ (F := F)) Variants.none () Set.univ := fun t => by
  rw [bigSep_W0, bigSep_W0]
  exact sound_body0 V c t

/-- What the launch hands the body before the first point is the invariant there. -/
theorem hin0 (c : Dev nD) : (Pipeline.ΦA spec0 c : sProp 𝕄) ⊢ (dat0 V c).Φ 0 := by
  rw [show (dat0 V c).Φ 0 = Phi0 V c 0 (Nat.zero_le _) from rfl, Phi0_zero V c 0 _ rfl]
  try exact Idealize.SL.BI.Entails.refl _

/-- After the last point the invariant gives the launch back what it lent: the accumulator's contents are forgotten. -/
theorem hout0 (c : Dev nD) : (dat0 V c).Φ (Fin.last cfg0.N) ⊢ (Pipeline.ΦA spec0 c : sProp 𝕄) := by
  rw [show (dat0 V c).Φ (Fin.last cfg0.N) = Phi0 V c (Fin.last cfg0.N).val (Nat.le_of_lt_succ (Fin.last cfg0.N).isLt) from rfl]
  exact (Phi0_weak V c _ _).trans (PhiA0_join c)

end Cert.KernelIdeal.Hand

end
-- ==== Proof.R1Body.lean ====
/-
  The second layer's kernel body, run at a grid point, and the obligation the launch asks of it.

  The body branches twice on the contraction index k of the point: at k = 0 it first zeroes the accumulator; at
  k = 15 it finally stores the accumulator plus the bias into the output tile. On a 16-step contraction the two never
  coincide, so a point is in one of three cases — first, middle, last — and in each the body is straight-line: it
  leaves every input buffer as it found it, the accumulator one step further, and the output tile either untouched
  (first, middle) or stored whole (last).
-/
import proofs.«111412_j558345748855_2_alg».proof.Proof.R1Defs
import proofs.«111412_j558345748855_2_alg».proof.Proof.WholeStore

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.WholeStore

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The two conditions, in closed form over the grid -/

/-- "This point starts a row tile": the contraction index is 0. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 16 = 0 :=
  (by decide +kernel : ∀ t : Fin grid1.N, cond1_0 (grid1.coords t) ↔ t.val % 16 = 0)
/-- "This point ends a row tile": the contraction index is 15. -/
abbrev cond1_1 (i : grid1.Coords) : Prop := k1_cond2 i = 1#1
theorem hcond1_1 : ∀ t : Fin cfg1.N, cond1_1 (grid1.coords t) ↔ t.val % 16 = 15 :=
  (by decide +kernel : ∀ t : Fin grid1.N, cond1_1 (grid1.coords t) ↔ t.val % 16 = 15)

/-! ## Where each window is live -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
/-- The output tile is stored only where a row tile ends: elsewhere the window is idle and not written back. -/
theorem idleAt1_4 : ∀ t : Fin cfg1.N, ¬cond1_1 (grid1.coords t) → cfg1.idle 4 (grid1.coords t) = true := by decide +kernel
theorem noFlush1_4 : ∀ t : Fin cfg1.N, ¬cond1_1 (grid1.coords t) → (cfg1.win 4).flush t = false := by decide +kernel
theorem liveAt1_4 : ∀ t : Fin cfg1.N, cond1_1 (grid1.coords t) → cfg1.idle 4 (grid1.coords t) = false := by decide +kernel

/-! ## The body in each of its three cases -/

set_option maxHeartbeats 1000000 in
/-- At a point that starts a row tile: the accumulator is zeroed, then stepped; the output tile is untouched. -/
theorem sound_kernel1_A (c : Dev nD) (E : Set ℕ) (i : grid1.Coords)
    (arg2 : Memref sig .tc .vmem S1024x128 .bf16) (harg2 : arg2.IsWhole) (arg3 : Memref sig .tc .vmem S2048x1024 .f32) (harg3 : arg3.IsWhole)
    (arg4 : Memref sig .tc .vmem S128x128 .f32) (harg4 : arg4.IsWhole) (arg5 : Memref sig .tc .vmem S128 .f32) (harg5 : arg5.IsWhole)
    (arg6 : Memref sig .tc .vmem S2048x128 .f32) (harg6 : arg6.IsWhole) (arg7 : Memref sig .tc .vmem S2048x128 .f32) (harg7 : arg7.IsWhole)
    (hc0 : cond1_0 i) (hc1 : ¬cond1_1 i)
    (x0 : Vec F S1024x128 .bf16) (x1 : Vec F S2048x1024 .f32) (x2 : Vec F S128x128 .f32) (x3 : Vec F S128 .f32) (d : Vec F S2048x128 .f32) (s : Vec F S2048x128 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare d ∗ owns (c : Thread nD τ) arg7 fullShare s
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare d
            ∗ owns (c : Thread nD τ) arg7 fullShare (k1_pay2 x0 x2 x1 k1_pay1)) -∗ K ⟨⟩))
      ⊢ wp frame (wpE (defs₀ (F := F)) Variants.none c none) E (cc1__gcn_layer_kernel i arg2 harg2 arg3 harg3 arg4 harg4 arg5 harg5 arg6 harg6 arg7 harg7) K := by
  simp only [cc1__gcn_layer_kernel_eq_skeleton]; unfold cc1__gcn_layer_kernel_skel
  unfold owns
  iintro ⟨⟨%f0, %hf0, H0⟩, ⟨%f1, %hf1, H1⟩, ⟨%f2, %hf2, H2⟩, ⟨%f3, %hf3, H3⟩, ⟨%f6, %hf6, H6⟩, ⟨%f7, %hf7, H7⟩, Hk⟩
  subst hf0; subst hf1; subst hf2; subst hf3; subst hf6; subst hf7
  sl_exec (disch := first | exact hc0 | exact hc1)
  sl_step
  iapply Hk
  isplitl [H0]; · iexists _; isplitr; · ipureintro; rfl
                  iexact H0
  isplitl [H1]; · iexists _; isplitr; · ipureintro; rfl
                  iexact H1
  isplitl [H2]; · iexists _; isplitr; · ipureintro; rfl
                  iexact H2
  isplitl [H3]; · iexists _; isplitr; · ipureintro; rfl
                  iexact H3
  isplitl [H6]; · iexists _; isplitr; · ipureintro; rfl
                  iexact H6
  iexists _; isplitr
  swap; · iexact H7
  ipureintro
  sl_unfold_run_names
  simp only [read_store_whole (S := S2048x128) _ _ hz2, View.readAt_eq_ld, View.ld_unit_zero (S := S1024x128) hz2, View.ld_unit_zero (S := S128x128) hz2, View.ld_unit_zero (S := S2048x1024) hz2, View.ld_unit_zero (S := S2048x128) hz2, View.ld_unit_zero (S := S128) hz1, View.readCov_unit_zero (S := S2048x128) _ hz2]

set_option maxHeartbeats 1000000 in
/-- At a middle point: the accumulator is stepped; the output tile is untouched. -/
theorem sound_kernel1_B (c : Dev nD) (E : Set ℕ) (i : grid1.Coords)
    (arg2 : Memref sig .tc .vmem S1024x128 .bf16) (harg2 : arg2.IsWhole) (arg3 : Memref sig .tc .vmem S2048x1024 .f32) (harg3 : arg3.IsWhole)
    (arg4 : Memref sig .tc .vmem S128x128 .f32) (harg4 : arg4.IsWhole) (arg5 : Memref sig .tc .vmem S128 .f32) (harg5 : arg5.IsWhole)
    (arg6 : Memref sig .tc .vmem S2048x128 .f32) (harg6 : arg6.IsWhole) (arg7 : Memref sig .tc .vmem S2048x128 .f32) (harg7 : arg7.IsWhole)
    (hc0 : ¬cond1_0 i) (hc1 : ¬cond1_1 i)
    (x0 : Vec F S1024x128 .bf16) (x1 : Vec F S2048x1024 .f32) (x2 : Vec F S128x128 .f32) (x3 : Vec F S128 .f32) (d : Vec F S2048x128 .f32) (s : Vec F S2048x128 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare d ∗ owns (c : Thread nD τ) arg7 fullShare s
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare d
            ∗ owns (c : Thread nD τ) arg7 fullShare (k1_pay2 x0 x2 x1 s)) -∗ K ⟨⟩))
      ⊢ wp frame (wpE (defs₀ (F := F)) Variants.none c none) E (cc1__gcn_layer_kernel i arg2 harg2 arg3 harg3 arg4 harg4 arg5 harg5 arg6 harg6 arg7 harg7) K := by
  simp only [cc1__gcn_layer_kernel_eq_skeleton]; unfold cc1__gcn_layer_kernel_skel
  unfold owns
  iintro ⟨⟨%f0, %hf0, H0⟩, ⟨%f1, %hf1, H1⟩, ⟨%f2, %hf2, H2⟩, ⟨%f3, %hf3, H3⟩, ⟨%f6, %hf6, H6⟩, ⟨%f7, %hf7, H7⟩, Hk⟩
  subst hf0; subst hf1; subst hf2; subst hf3; subst hf6; subst hf7
  sl_exec (disch := first | exact hc0 | exact hc1)
  sl_step
  iapply Hk
  isplitl [H0]; · iexists _; isplitr; · ipureintro; rfl
                  iexact H0
  isplitl [H1]; · iexists _; isplitr; · ipureintro; rfl
                  iexact H1
  isplitl [H2]; · iexists _; isplitr; · ipureintro; rfl
                  iexact H2
  isplitl [H3]; · iexists _; isplitr; · ipureintro; rfl
                  iexact H3
  isplitl [H6]; · iexists _; isplitr; · ipureintro; rfl
                  iexact H6
  iexists _; isplitr
  swap; · iexact H7
  ipureintro
  sl_unfold_run_names
  simp only [read_store_whole (S := S2048x128) _ _ hz2, View.readAt_eq_ld, View.ld_unit_zero (S := S1024x128) hz2, View.ld_unit_zero (S := S128x128) hz2, View.ld_unit_zero (S := S2048x1024) hz2, View.ld_unit_zero (S := S2048x128) hz2, View.ld_unit_zero (S := S128) hz1, View.readCov_unit_zero (S := S2048x128) _ hz2]

set_option maxHeartbeats 1000000 in
/-- At a point that ends a row tile: the accumulator is stepped, and the output tile is stored whole from it and the bias. -/
theorem sound_kernel1_C (c : Dev nD) (E : Set ℕ) (i : grid1.Coords)
    (arg2 : Memref sig .tc .vmem S1024x128 .bf16) (harg2 : arg2.IsWhole) (arg3 : Memref sig .tc .vmem S2048x1024 .f32) (harg3 : arg3.IsWhole)
    (arg4 : Memref sig .tc .vmem S128x128 .f32) (harg4 : arg4.IsWhole) (arg5 : Memref sig .tc .vmem S128 .f32) (harg5 : arg5.IsWhole)
    (arg6 : Memref sig .tc .vmem S2048x128 .f32) (harg6 : arg6.IsWhole) (arg7 : Memref sig .tc .vmem S2048x128 .f32) (harg7 : arg7.IsWhole)
    (hc0 : ¬cond1_0 i) (hc1 : cond1_1 i)
    (x0 : Vec F S1024x128 .bf16) (x1 : Vec F S2048x1024 .f32) (x2 : Vec F S128x128 .f32) (x3 : Vec F S128 .f32) (d : Vec F S2048x128 .f32) (s : Vec F S2048x128 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare d ∗ owns (c : Thread nD τ) arg7 fullShare s
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (k1_pay3 (k1_pay2 x0 x2 x1 s) x3)
            ∗ owns (c : Thread nD τ) arg7 fullShare (k1_pay2 x0 x2 x1 s)) -∗ K ⟨⟩))
      ⊢ wp frame (wpE (defs₀ (F := F)) Variants.none c none) E (cc1__gcn_layer_kernel i arg2 harg2 arg3 harg3 arg4 harg4 arg5 harg5 arg6 harg6 arg7 harg7) K := by
  simp only [cc1__gcn_layer_kernel_eq_skeleton]; unfold cc1__gcn_layer_kernel_skel
  unfold owns
  iintro ⟨⟨%f0, %hf0, H0⟩, ⟨%f1, %hf1, H1⟩, ⟨%f2, %hf2, H2⟩, ⟨%f3, %hf3, H3⟩, ⟨%f6, %hf6, H6⟩, ⟨%f7, %hf7, H7⟩, Hk⟩
  subst hf0; subst hf1; subst hf2; subst hf3; subst hf6; subst hf7
  sl_exec (disch := first | exact hc0 | exact hc1)
  sl_step
  iapply Hk
  isplitl [H0]; · iexists _; isplitr; · ipureintro; rfl
                  iexact H0
  isplitl [H1]; · iexists _; isplitr; · ipureintro; rfl
                  iexact H1
  isplitl [H2]; · iexists _; isplitr; · ipureintro; rfl
                  iexact H2
  isplitl [H3]; · iexists _; isplitr; · ipureintro; rfl
                  iexact H3
  isplitl [H6]
  · iexists _; isplitr
    swap; · iexact H6
    ipureintro
    sl_unfold_run_names
    simp only [read_store_whole (S := S2048x128) _ _ hz2, View.readAt_eq_ld, View.ld_unit_zero (S := S1024x128) hz2, View.ld_unit_zero (S := S128x128) hz2, View.ld_unit_zero (S := S2048x1024) hz2, View.ld_unit_zero (S := S2048x128) hz2, View.ld_unit_zero (S := S128) hz1, View.readCov_unit_zero (S := S2048x128) _ hz2]
  iexists _; isplitr
  swap; · iexact H7
  ipureintro
  sl_unfold_run_names
  simp only [read_store_whole (S := S2048x128) _ _ hz2, View.readAt_eq_ld, View.ld_unit_zero (S := S1024x128) hz2, View.ld_unit_zero (S := S128x128) hz2, View.ld_unit_zero (S := S2048x1024) hz2, View.ld_unit_zero (S := S2048x128) hz2, View.ld_unit_zero (S := S128) hz1, View.readCov_unit_zero (S := S2048x128) _ hz2]

/-! ## The invariant, opened and closed -/

/-- Before any point the invariant is the launch's own: the accumulator's buffer at some contents, the other launch's
    buffers, the generator register. -/
theorem PhiA1_split (c : Dev nD) :
    (Pipeline.ΦA spec1 c : sProp 𝕄) ⊢ iprop((∃ d, owns (c : Thread nD τ) scM1 fullShare d) ∗ rest1 c ∗ (∃ r, prngReg c r)) := by
  unfold Pipeline.ΦA rest1; rw [scopedRest1_eq]; simp only [scM1, owns_whole]
  iintro ⟨⟨H0, H1, H2, H3, H4, H5, H6, H7, H8, HS⟩, Hg⟩
  isplitl [HS]; · iexact HS
  isplitl [H0 H1 H2 H3 H4 H5 H6 H7 H8]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  iexact Hg

theorem PhiA1_join (c : Dev nD) :
    iprop((∃ d, owns (c : Thread nD τ) scM1 fullShare d) ∗ rest1 c ∗ (∃ r, prngReg c r)) ⊢ (Pipeline.ΦA spec1 c : sProp 𝕄) := by
  unfold Pipeline.ΦA rest1; rw [scopedRest1_eq]; simp only [scM1, owns_whole]
  iintro ⟨HS, ⟨H0, H1, H2, H3, H4, H5, H6, H7, H8⟩, Hg⟩
  isplitl [HS H0 H1 H2 H3 H4 H5 H6 H7 H8]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact HS
  iexact Hg

/-- At any position the invariant holds the accumulator's buffer at SOME contents. -/
theorem Phi1_weak (c : Dev nD) (n : ℕ) (h : n ≤ cfg1.N) :
    Phi1 V c n h ⊢ iprop((∃ d, owns (c : Thread nD τ) scM1 fullShare d) ∗ rest1 c ∗ (∃ r, prngReg c r)) := by
  cases n with
  | zero => exact PhiA1_split c
  | succ n =>
    rw [Phi1_succ]
    iintro ⟨HS, Hr, Hg⟩
    isplitl [HS]; · iexists _; iexact HS
    isplitl [Hr]; · iexact Hr
    iexact Hg

/-! ## The obligation the launch asks of the body -/

/-- Each window's current staging buffer at point `t`, as the launch passes it to the body. -/
abbrev ms1_0 (t : Fin cfg1.N) : Memref sig .tc .vmem S1024x128 .bf16 := win1_0.stage (cfg1.slots t 0)
abbrev ms1_1 (t : Fin cfg1.N) : Memref sig .tc .vmem S2048x1024 .f32 := win1_1.stage (cfg1.slots t 1)
abbrev ms1_2 (t : Fin cfg1.N) : Memref sig .tc .vmem S128x128 .f32 := win1_2.stage (cfg1.slots t 2)
abbrev ms1_3 (t : Fin cfg1.N) : Memref sig .tc .vmem S128 .f32 := win1_3.stage (cfg1.slots t 3)
abbrev ms1_4 (t : Fin cfg1.N) : Memref sig .tc .vmem S2048x128 .f32 := win1_4.stage (cfg1.slots t 4)

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
/-- The body at any point. The inputs' buffers hold their blocks; the point's position in its row tile says which of
    the three cases it is in; the invariant hands the body the accumulator at what the point before left (at anything
    where a row tile starts) and takes it back one step further; where a row tile ends the output tile is stored,
    elsewhere its buffer goes back untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = Phi1 V c (t.val + 1) t.isLt from rfl, Phi1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [Phi1_castSucc V c t]
  have hN : t.val < 128 := lt_of_lt_of_eq t.isLt (show cfg1.N = 128 from N_1)
  by_cases h1 : t.val % 16 = 15
  · -- the point ends a row tile
    have h0 : ¬t.val % 16 = 0 := by omega
    have hz : t.val ≠ 0 := by omega
    rw [show (dat1 V c).leavesExact 4 t = owns (c : Thread nD τ) (ms1_4 t) fullShare ((dat1 V c).after 4 t) from by
      unfold Dat.leavesExact; rw [liveAt1_4 t ((hcond1_1 t).mpr h1)], after1_4]
    unfold outT1
    rw [acc1_later V c t h0, Phi1_pos V c _ _ hz]
    iintro ⟨⟨HS, Hr, Hg⟩, Ho, ⟨%d0, H0⟩, ⟨%d1, H1⟩, ⟨%d2, H2⟩, ⟨%d3, H3⟩, ⟨%d4, H4⟩⟩
    iapply (sound_kernel1_C c Set.univ (grid1.coords t) _ _ _ _ _ _ _ _ _ _ _ _ (fun h => h0 ((hcond1_0 t).mp h)) ((hcond1_1 t).mpr h1)
      (iblk1 V c 0 t) (iblk1 V c 1 t) (iblk1 V c 2 t) (iblk1 V c 3 t) _ _ _)
    isplitl [H0]; · iexact H0
    isplitl [H1]; · iexact H1
    isplitl [H2]; · iexact H2
    isplitl [H3]; · iexact H3
    isplitl [H4]; · iexact H4
    isplitl [HS]; · iexact HS
    iintro ⟨H0, H1, H2, H3, H4, HS⟩
    isplitl [HS Hr Hg]
    · isplitl [HS]; · iexact HS
      isplitl [Hr]; · iexact Hr
      iexact Hg
    isplitl [Ho]; · iexact Ho
    isplitl [H0]; · iexact H0
    isplitl [H1]; · iexact H1
    isplitl [H2]; · iexact H2
    isplitl [H3]; · iexact H3
    iexact H4
  · have hc1 : ¬cond1_1 (grid1.coords t) := fun h => h1 ((hcond1_1 t).mp h)
    rw [Dat.leavesExact_idle (dat1 V c) 4 t (idleAt1_4 t hc1) (noFlush1_4 t hc1)]
    by_cases h0 : t.val % 16 = 0
    · -- the point starts a row tile
      rw [acc1_first V c t h0]
      have hweak := Phi1_weak V c t.val (Nat.le_of_lt t.isLt)
      iintro ⟨HP, Ho, ⟨%d0, H0⟩, ⟨%d1, H1⟩, ⟨%d2, H2⟩, ⟨%d3, H3⟩, ⟨%d4, H4⟩⟩
      ihave HW := hweak $$ HP
      icases HW with ⟨⟨%s, HS⟩, Hr, Hg⟩
      iapply (sound_kernel1_A c Set.univ (grid1.coords t) _ _ _ _ _ _ _ _ _ _ _ _ ((hcond1_0 t).mpr h0) hc1
        (iblk1 V c 0 t) (iblk1 V c 1 t) (iblk1 V c 2 t) (iblk1 V c 3 t) _ s _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS Hr Hg]
      · isplitl [HS]; · iexact HS
        isplitl [Hr]; · iexact Hr
        iexact Hg
      isplitl [Ho]; · iexact Ho
      isplitl [H0]; · iexact H0
      isplitl [H1]; · iexact H1
      isplitl [H2]; · iexact H2
      isplitl [H3]; · iexact H3
      iexists _; iexact H4
    · -- a middle point
      have hz : t.val ≠ 0 := fun h => h0 (by rw [h])
      rw [acc1_later V c t h0, Phi1_pos V c _ _ hz]
      iintro ⟨⟨HS, Hr, Hg⟩, Ho, ⟨%d0, H0⟩, ⟨%d1, H1⟩, ⟨%d2, H2⟩, ⟨%d3, H3⟩, ⟨%d4, H4⟩⟩
      iapply (sound_kernel1_B c Set.univ (grid1.coords t) _ _ _ _ _ _ _ _ _ _ _ _ (fun h => h0 ((hcond1_0 t).mp h)) hc1
        (iblk1 V c 0 t) (iblk1 V c 1 t) (iblk1 V c 2 t) (iblk1 V c 3 t) _ _ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS Hr Hg]
      · isplitl [HS]; · iexact HS
        isplitl [Hr]; · iexact Hr
        iexact Hg
      isplitl [Ho]; · iexact Ho
      isplitl [H0]; · iexact H0
      isplitl [H1]; · iexact H1
      isplitl [H2]; · iexact H2
      isplitl [H3]; · iexact H3
      iexists _; iexact H4

/-- The launch's obligation at every grid point. -/
theorem body_obligation1 (c : Dev nD) : BodyObligation (dat1 (F := F) V c) (defs₀ (F := F)) Variants.none () Set.univ := fun t => by
  rw [bigSep_W1, bigSep_W1]
  exact sound_body1 V c t

/-- What the launch hands the body before the first point is the invariant there. -/
theorem hin1 (c : Dev nD) : (Pipeline.ΦA spec1 c : sProp 𝕄) ⊢ (dat1 V c).Φ 0 := by
  rw [show (dat1 V c).Φ 0 = Phi1 V c 0 (Nat.zero_le _) from rfl, Phi1_zero V c 0 _ rfl]
  try exact Idealize.SL.BI.Entails.refl _

/-- After the last point the invariant gives the launch back what it lent: the accumulator's contents are forgotten. -/
theorem hout1 (c : Dev nD) : (dat1 V c).Φ (Fin.last cfg1.N) ⊢ (Pipeline.ΦA spec1 c : sProp 𝕄) := by
  rw [show (dat1 V c).Φ (Fin.last cfg1.N) = Phi1 V c (Fin.last cfg1.N).val (Nat.le_of_lt_succ (Fin.last cfg1.N).isLt) from rfl]
  exact (Phi1_weak V c _ _).trans (PhiA1_join c)

end Cert.KernelIdeal.Hand

end
-- ==== Proof.Run.lean ====
/-
  The run of the whole program: from the launch to the return, what every buffer of the TensorCore holds at the end.

  The program is seven pieces in a row: the first layer's launch, four short stretches of host operations, the second
  layer's launch, and one last host stretch. Between two pieces the core holds every buffer that is not scoped to a
  launch, whole, at the contents the boundary names (W0 at the launch, then W1 to W7), beside its generator register at
  some state and the fact that it owes nothing. A host stretch moves the contents on as its operations say. A launch
  splits its windows' arrays out of the buffers, runs its grid under its own invariant — entered from and left to the
  scoped buffers no window stages and the generator register —, and puts the arrays back at what the write-backs left,
  every other buffer as it was. Every weakly fair execution therefore terminates, and every final memory holds each
  such buffer at W7.
-/
import proofs.«111412_j558345748855_2_alg».proof.Proof.Vals
import proofs.«111412_j558345748855_2_alg».proof.Proof.R0Body
import proofs.«111412_j558345748855_2_alg».proof.Proof.R1Body
import proofs.«111412_j558345748855_2_alg».proof.Proof.Gen.KernelIdeal.Regions
import Idealize.ShloMosaic.Lib.Pipeline.RegionsLoop
import Idealize.ShloMosaic.Lib.Pipeline.FrameSuffix

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The launches' descriptions and the state between two pieces -/

/-- No launch has a prefetched table. -/
abbrev admH : (p : Fin 2) → (pcfgs (F := F) p).Adm := fun p => (cfgs p).toPCfg_adm
/-- Each launch's description, at the contents its launch starts from: the first at the launch contents, the second
    at the contents after the four host stretches. -/
def pdats : (p : Fin 2) → (c : Dev nD) → Dat τ (Elt F) Unit ℕ (UR sig nD τ) ℕ (Pipeline.pin (pcfgs (F := F)) admH p) c
  | ⟨0, _⟩ => fun c => dat0 (Va m ρ) c
  | ⟨1, _⟩ => fun c => dat1 (Vb m ρ) c
abbrev 𝒱₀ : Variants := Variants.none
/-- No core owes another anything. -/
abbrev L : GSem nD τ sig → Finset Unit := fun _ => ∅
abbrev lv : GSem nD τ sig → Unit → ℕ := fun _ _ => 0
/-- What rides beside the buffers through every piece: the core's generator register at some state, and that it owes
    nothing. -/
abbrev R (c : Dev nD) : sProp 𝕄 := iprop((∃ r, prngReg c r) ∗ ∃ W, owes (c : Thread nD τ) (0 : CellTallies nD τ sig Unit) W)
/-- A host stretch as a piece: over the buffers not scoped to a launch, from the contents W to those after its operations. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- A TensorCore buffer not scoped to a launch is among those the state between two pieces holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last state without the owing: every such buffer at the last contents, the generator register at some state. -/
abbrev Tₙ (c : Dev nD) : sProp 𝕄 := iprop(StableHlo.held (c : Thread nD τ) (Pipeline.ucRefs τ sig) (W7 m ρ c) ∗ ∃ r, prngReg c r)

/-! ## The two launches as pieces -/

set_option backward.isDefEq.respectTransparency.types false in
/-- The first layer's launch: entered from every buffer at W0, left at W1. -/
def reg0 : Pipeline.RegionSeg (pcfgs (F := F)) admH (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Va m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (Va m ρ c)
  hentry c := by
    rw [Pipeline.ownSems0_none]
    have hsplit := Pipeline.arrays_of_unscopedBufs (p := 0) (pcfgs (F := F)) admH (pdats m ρ) launch0.win launch0.arr_whole c
      ((pdats m ρ 0 c).share_full fun _ => rfl) (Va m ρ c) fun w => A_eq0 (Va m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine Idealize.SL.BI.BIBase.Entails.trans ?_ (hin0 (Va m ρ) c)
    unfold Pipeline.ΦA
    iintro ⟨Hp, -, Hr⟩
    isplitl [Hr]; · iexact Hr
    iexact Hp
  hout c := by
    refine Idealize.SL.BI.BIBase.Entails.trans (hout0 (Va m ρ) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdats m ρ) ((pdats m ρ 0 c).share_full fun _ => rfl)
      (Va m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second layer's launch: entered from every buffer at W5, left at W6. -/
def reg1 : Pipeline.RegionSeg (pcfgs (F := F)) admH (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vb m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec1 c (Vb m ρ c)
  hentry c := by
    rw [Pipeline.ownSems0_none]
    have hsplit := Pipeline.arrays_of_unscopedBufs (p := 1) (pcfgs (F := F)) admH (pdats m ρ) launch1.win launch1.arr_whole c
      ((pdats m ρ 1 c).share_full fun _ => rfl) (Vb m ρ c) fun w => A_eq1 (Vb m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine Idealize.SL.BI.BIBase.Entails.trans ?_ (hin1 (Vb m ρ) c)
    unfold Pipeline.ΦA
    iintro ⟨Hp, -, Hr⟩
    isplitl [Hr]; · iexact Hr
    iexact Hp
  hout c := by
    refine Idealize.SL.BI.BIBase.Entails.trans (hout1 (Vb m ρ) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admH (Ix := Unit) (Name := ℕ) (U := UR sig nD τ) (Lvl := ℕ)
      launch1.win launch1.arr_whole c (pdats m ρ) ((pdats m ρ 1 c).share_full fun _ => rfl)
      (Vb m ρ c) (V6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as its seven pieces, and the run -/

/-- The seven pieces in order: a launch, four host stretches, a launch, a host stretch, each from its boundary's contents. -/
abbrev segs : List (Pipeline.Seg (pcfgs (F := F)) admH (pdats m ρ) () defs₀ 𝒱₀ L lv) :=
  [ .region (reg0 m ρ),
    .host (hseg hostOps1 hostOps1_sub hostOps1_fresh (W1 m ρ)),
    .host (hseg hostOps1_1 hostOps1_1_sub hostOps1_1_fresh (W2 m ρ)),
    .host (hseg hostOps1_2 hostOps1_2_sub hostOps1_2_fresh (W3 m ρ)),
    .host (hseg hostOps1_3 hostOps1_3_sub hostOps1_3_fresh (W4 m ρ)),
    .region (reg1 m ρ),
    .host (hseg hostOps2 hostOps2_sub hostOps2_fresh (W6 m ρ)) ]

set_option backward.isDefEq.respectTransparency.types false in
/-- From any memory with zero counters, every weakly fair execution of the program terminates, and on every core the
    final memory holds every buffer not scoped to a launch at W7. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) admH (pdats m ρ) () cellOf_inj emb₁ defs₀ 𝒱₀ L lv m ρ main (segs m ρ)
    (fun c Q => by
      rewrite [main_chain c, Pipeline.Seg.run_eq_chain,
        show (segs m ρ).map Pipeline.Seg.prog = [
          Prog.lift (.customCall (Pipeline.entry 0) ()),
          StableHlo.seq hostOps1,
          StableHlo.seq hostOps1_1,
          StableHlo.seq hostOps1_2,
          StableHlo.seq hostOps1_3,
          Prog.lift (.customCall (Pipeline.entry 1) ()),
          StableHlo.seq hostOps2 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun c => by
        show iprop(StableHlo.held (c : Thread nD τ) (Pipeline.ucRefs τ sig) (W7 m ρ c) ∗ R c)
          ⊢ iprop(Tₙ m ρ c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h => h)

end Cert.KernelIdeal.Hand

end
-- ==== Proof.Args.lean ====
/-
  The six argument arrays end as launched.

  No host operation writes an argument's buffer, and a launch changes only its output window's array: an argument
  that is the array of an input window is left by the launch at what it found there, and an argument that is no
  window's array is not touched at all. So the contents of an argument's buffer at the return, read back boundary by
  boundary through the two launches and the five host stretches, are its contents at launch.
-/
import proofs.«111412_j558345748855_2_alg».proof.Proof.Vals
import proofs.«111412_j558345748855_2_alg».proof.Proof.Gen.KernelIdeal.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable (m : (ℓ : Loc nD τ sig) → Buf (Elt F) ℓ) (ρ : Dev nD → PrngReg)

/-- `main_arg0` holds at the return what it held at launch. -/
theorem W7_main_arg0 (c : Dev nD) : W7 m ρ c (Proc.devRef .tc main_arg0) = m ((c : Thread nD τ).loc main_arg0) :=
  calc W7 m ρ c (Proc.devRef .tc main_arg0)
    _ = W6 m ρ c (Proc.devRef .tc main_arg0) := StableHlo.after_of_writes_sub hostOps2 _ hostOps2_writes (by decide)
    _ = W5 m ρ c (Proc.devRef .tc main_arg0) := W6_of_ne m ρ c main_arg0 (by decide)
    _ = W4 m ρ c (Proc.devRef .tc main_arg0) := StableHlo.after_of_writes_sub hostOps1_3 _ hostOps1_3_writes (by decide)
    _ = W3 m ρ c (Proc.devRef .tc main_arg0) := StableHlo.after_of_writes_sub hostOps1_2 _ hostOps1_2_writes (by decide)
    _ = W2 m ρ c (Proc.devRef .tc main_arg0) := StableHlo.after_of_writes_sub hostOps1_1 _ hostOps1_1_writes (by decide)
    _ = W1 m ρ c (Proc.devRef .tc main_arg0) := StableHlo.after_of_writes_sub hostOps1 _ hostOps1_writes (by decide)
    _ = W0 m ρ c (Proc.devRef .tc main_arg0) := (W1_arr m ρ c 0).trans (((dat0 (Va m ρ) c).arrAt_in 0 rfl _).trans (A_eq0 (Va m ρ) c 0))
    _ = m ((c : Thread nD τ).loc main_arg0) := rfl

/-- `main_arg1` holds at the return what it held at launch. -/
theorem W7_main_arg1 (c : Dev nD) : W7 m ρ c (Proc.devRef .tc main_arg1) = m ((c : Thread nD τ).loc main_arg1) :=
  calc W7 m ρ c (Proc.devRef .tc main_arg1)
    _ = W6 m ρ c (Proc.devRef .tc main_arg1) := StableHlo.after_of_writes_sub hostOps2 _ hostOps2_writes (by decide)
    _ = W5 m ρ c (Proc.devRef .tc main_arg1) := (W6_arr m ρ c 1).trans (((dat1 (Vb m ρ) c).arrAt_in 1 rfl _).trans (A_eq1 (Vb m ρ) c 1))
    _ = W4 m ρ c (Proc.devRef .tc main_arg1) := StableHlo.after_of_writes_sub hostOps1_3 _ hostOps1_3_writes (by decide)
    _ = W3 m ρ c (Proc.devRef .tc main_arg1) := StableHlo.after_of_writes_sub hostOps1_2 _ hostOps1_2_writes (by decide)
    _ = W2 m ρ c (Proc.devRef .tc main_arg1) := StableHlo.after_of_writes_sub hostOps1_1 _ hostOps1_1_writes (by decide)
    _ = W1 m ρ c (Proc.devRef .tc main_arg1) := StableHlo.after_of_writes_sub hostOps1 _ hostOps1_writes (by decide)
    _ = W0 m ρ c (Proc.devRef .tc main_arg1) := (W1_arr m ρ c 1).trans (((dat0 (Va m ρ) c).arrAt_in 1 rfl _).trans (A_eq0 (Va m ρ) c 1))
    _ = m ((c : Thread nD τ).loc main_arg1) := rfl

/-- `main_arg2` holds at the return what it held at launch. -/
theorem W7_main_arg2 (c : Dev nD) : W7 m ρ c (Proc.devRef .tc main_arg2) = m ((c : Thread nD τ).loc main_arg2) :=
  calc W7 m ρ c (Proc.devRef .tc main_arg2)
    _ = W6 m ρ c (Proc.devRef .tc main_arg2) := StableHlo.after_of_writes_sub hostOps2 _ hostOps2_writes (by decide)
    _ = W5 m ρ c (Proc.devRef .tc main_arg2) := W6_of_ne m ρ c main_arg2 (by decide)
    _ = W4 m ρ c (Proc.devRef .tc main_arg2) := StableHlo.after_of_writes_sub hostOps1_3 _ hostOps1_3_writes (by decide)
    _ = W3 m ρ c (Proc.devRef .tc main_arg2) := StableHlo.after_of_writes_sub hostOps1_2 _ hostOps1_2_writes (by decide)
    _ = W2 m ρ c (Proc.devRef .tc main_arg2) := StableHlo.after_of_writes_sub hostOps1_1 _ hostOps1_1_writes (by decide)
    _ = W1 m ρ c (Proc.devRef .tc main_arg2) := StableHlo.after_of_writes_sub hostOps1 _ hostOps1_writes (by decide)
    _ = W0 m ρ c (Proc.devRef .tc main_arg2) := (W1_arr m ρ c 2).trans (((dat0 (Va m ρ) c).arrAt_in 2 rfl _).trans (A_eq0 (Va m ρ) c 2))
    _ = m ((c : Thread nD τ).loc main_arg2) := rfl

/-- `main_arg3` holds at the return what it held at launch. -/
theorem W7_main_arg3 (c : Dev nD) : W7 m ρ c (Proc.devRef .tc main_arg3) = m ((c : Thread nD τ).loc main_arg3) :=
  calc W7 m ρ c (Proc.devRef .tc main_arg3)
    _ = W6 m ρ c (Proc.devRef .tc main_arg3) := StableHlo.after_of_writes_sub hostOps2 _ hostOps2_writes (by decide)
    _ = W5 m ρ c (Proc.devRef .tc main_arg3) := W6_of_ne m ρ c main_arg3 (by decide)
    _ = W4 m ρ c (Proc.devRef .tc main_arg3) := StableHlo.after_of_writes_sub hostOps1_3 _ hostOps1_3_writes (by decide)
    _ = W3 m ρ c (Proc.devRef .tc main_arg3) := StableHlo.after_of_writes_sub hostOps1_2 _ hostOps1_2_writes (by decide)
    _ = W2 m ρ c (Proc.devRef .tc main_arg3) := StableHlo.after_of_writes_sub hostOps1_1 _ hostOps1_1_writes (by decide)
    _ = W1 m ρ c (Proc.devRef .tc main_arg3) := StableHlo.after_of_writes_sub hostOps1 _ hostOps1_writes (by decide)
    _ = W0 m ρ c (Proc.devRef .tc main_arg3) := (W1_arr m ρ c 3).trans (((dat0 (Va m ρ) c).arrAt_in 3 rfl _).trans (A_eq0 (Va m ρ) c 3))
    _ = m ((c : Thread nD τ).loc main_arg3) := rfl

/-- `main_arg4` holds at the return what it held at launch. -/
theorem W7_main_arg4 (c : Dev nD) : W7 m ρ c (Proc.devRef .tc main_arg4) = m ((c : Thread nD τ).loc main_arg4) :=
  calc W7 m ρ c (Proc.devRef .tc main_arg4)
    _ = W6 m ρ c (Proc.devRef .tc main_arg4) := StableHlo.after_of_writes_sub hostOps2 _ hostOps2_writes (by decide)
    _ = W5 m ρ c (Proc.devRef .tc main_arg4) := W6_of_ne m ρ c main_arg4 (by decide)
    _ = W4 m ρ c (Proc.devRef .tc main_arg4) := StableHlo.after_of_writes_sub hostOps1_3 _ hostOps1_3_writes (by decide)
    _ = W3 m ρ c (Proc.devRef .tc main_arg4) := StableHlo.after_of_writes_sub hostOps1_2 _ hostOps1_2_writes (by decide)
    _ = W2 m ρ c (Proc.devRef .tc main_arg4) := StableHlo.after_of_writes_sub hostOps1_1 _ hostOps1_1_writes (by decide)
    _ = W1 m ρ c (Proc.devRef .tc main_arg4) := StableHlo.after_of_writes_sub hostOps1 _ hostOps1_writes (by decide)
    _ = W0 m ρ c (Proc.devRef .tc main_arg4) := W1_of_ne m ρ c main_arg4 (by decide)
    _ = m ((c : Thread nD τ).loc main_arg4) := rfl

/-- `main_arg5` holds at the return what it held at launch. -/
theorem W7_main_arg5 (c : Dev nD) : W7 m ρ c (Proc.devRef .tc main_arg5) = m ((c : Thread nD τ).loc main_arg5) :=
  calc W7 m ρ c (Proc.devRef .tc main_arg5)
    _ = W6 m ρ c (Proc.devRef .tc main_arg5) := StableHlo.after_of_writes_sub hostOps2 _ hostOps2_writes (by decide)
    _ = W5 m ρ c (Proc.devRef .tc main_arg5) := W6_of_ne m ρ c main_arg5 (by decide)
    _ = W4 m ρ c (Proc.devRef .tc main_arg5) := StableHlo.after_of_writes_sub hostOps1_3 _ hostOps1_3_writes (by decide)
    _ = W3 m ρ c (Proc.devRef .tc main_arg5) := StableHlo.after_of_writes_sub hostOps1_2 _ hostOps1_2_writes (by decide)
    _ = W2 m ρ c (Proc.devRef .tc main_arg5) := StableHlo.after_of_writes_sub hostOps1_1 _ hostOps1_1_writes (by decide)
    _ = W1 m ρ c (Proc.devRef .tc main_arg5) := StableHlo.after_of_writes_sub hostOps1 _ hostOps1_writes (by decide)
    _ = W0 m ρ c (Proc.devRef .tc main_arg5) := W1_of_ne m ρ c main_arg5 (by decide)
    _ = m ((c : Thread nD τ).loc main_arg5) := rfl

end Cert.KernelIdeal.Hand

end
-- ==== Proof.Spec.lean ====
/-
  The function both programs compute, entry by entry, over the extended reals.

  A two-layer graph convolution on 16384 nodes. With node features X (16384 by 128), a dense adjacency matrix A
  (16384 by 16384), weights W1 (128 by 128) and W2 (128 by 64) and biases b1, b2:

    layer 1:  P1(j, c) = sum over f of X(j, f) * W1(f, c)
              H(i, c)  = max( (sum over j of A(i, j) * P1(j, c)) + b1(c), 0 )
    layer 2:  P2(j, c) = sum over f of H(j, f) * W2(f, c)
              Out(i, c) = (sum over j of A(i, j) * P2(j, c)) + b2(c)

  Every sum is a finite sum of extended reals, so it may be regrouped and reordered freely (addition there is
  commutative and associative with no side condition); nothing below needs the entries to be finite.
-/
import Idealize.ShloMosaic.PureOps.Ideal.Laws
import Idealize.ShloMosaic.Lib.ValueIdx

noncomputable section

namespace Cert.Gcn

open Idealize.ShloMosaic Idealize.ShloMosaic.ValueIdx
open scoped BigOperators

/-- The layer-1 projection of node `j`'s features, column `c`. -/
def proj1 (X : FVec Ideal ⟨2, ![16384, 128]⟩ .f32) (W1 : FVec Ideal ⟨2, ![128, 128]⟩ .f32) (j : Fin 16384) (c : Fin 128) : EReal :=
  ∑ f : Fin 128, X (ix2 j f) * W1 (ix2 f c)

/-- The hidden layer: aggregate the projections over the neighbours, add the bias, clamp below at zero. -/
def hidden (X : FVec Ideal ⟨2, ![16384, 128]⟩ .f32) (A : FVec Ideal ⟨2, ![16384, 16384]⟩ .f32)
    (W1 : FVec Ideal ⟨2, ![128, 128]⟩ .f32) (b1 : FVec Ideal ⟨1, ![128]⟩ .f32) (i : Fin 16384) (c : Fin 128) : EReal :=
  max ((∑ j : Fin 16384, A (ix2 i j) * proj1 X W1 j c) + b1 (ix1 c)) 0

/-- The layer-2 projection of node `j`'s hidden row, column `c`. -/
def proj2 (X : FVec Ideal ⟨2, ![16384, 128]⟩ .f32) (A : FVec Ideal ⟨2, ![16384, 16384]⟩ .f32)
    (W1 : FVec Ideal ⟨2, ![128, 128]⟩ .f32) (b1 : FVec Ideal ⟨1, ![128]⟩ .f32) (W2 : FVec Ideal ⟨2, ![128, 64]⟩ .f32)
    (j : Fin 16384) (c : Fin 64) : EReal :=
  ∑ f : Fin 128, hidden X A W1 b1 j f * W2 (ix2 f c)

/-- The result at node `i`, column `c`. -/
def out (X : FVec Ideal ⟨2, ![16384, 128]⟩ .f32) (A : FVec Ideal ⟨2, ![16384, 16384]⟩ .f32)
    (W1 : FVec Ideal ⟨2, ![128, 128]⟩ .f32) (b1 : FVec Ideal ⟨1, ![128]⟩ .f32) (W2 : FVec Ideal ⟨2, ![128, 64]⟩ .f32)
    (b2 : FVec Ideal ⟨1, ![64]⟩ .f32) (i : Fin 16384) (c : Fin 64) : EReal :=
  (∑ j : Fin 16384, A (ix2 i j) * proj2 X A W1 b1 W2 j c) + b2 (ix1 c)

/-- The whole result array as one function of the six argument arrays. -/
def G (X : FVec Ideal ⟨2, ![16384, 128]⟩ .f32) (A : FVec Ideal ⟨2, ![16384, 16384]⟩ .f32)
    (W1 : FVec Ideal ⟨2, ![128, 128]⟩ .f32) (b1 : FVec Ideal ⟨1, ![128]⟩ .f32) (W2 : FVec Ideal ⟨2, ![128, 64]⟩ .f32)
    (b2 : FVec Ideal ⟨1, ![64]⟩ .f32) : FVec Ideal ⟨2, ![16384, 64]⟩ .f32 :=
  fun i => out X A W1 b1 W2 b2 (i 0) (i 1)

theorem G_apply (X : FVec Ideal ⟨2, ![16384, 128]⟩ .f32) (A : FVec Ideal ⟨2, ![16384, 16384]⟩ .f32)
    (W1 : FVec Ideal ⟨2, ![128, 128]⟩ .f32) (b1 : FVec Ideal ⟨1, ![128]⟩ .f32) (W2 : FVec Ideal ⟨2, ![128, 64]⟩ .f32)
    (b2 : FVec Ideal ⟨1, ![64]⟩ .f32) (p : Fin 16384) (c : Fin 64) :
    G X A W1 b1 W2 b2 (ix2 p c) = out X A W1 b1 W2 b2 p c := rfl

end Cert.Gcn

end
-- ==== Proof.LibPlainMatmul.lean ====
/-
  A plain matrix product read at an entry.

  For the dimension numbers "contract the left operand's second axis with the right operand's first" an `[M, K]` by
  `[K, N]` product, accumulated into a zero array, has at row `p` and column `c` the entry
  `∑ k, W p k · X k c` over the extended reals: the contraction position is its one coordinate `k`, the left operand is
  read at `(p, k)` and the right one at `(k, c)`. The same reading holds of a host `dot_general` with those dimension
  numbers, which has no accumulator.
-/
import Idealize.ShloMosaic.PureOps.Ideal.Laws
import Idealize.ShloMosaic.Lib.ValueIdx

noncomputable section

namespace Cert.LibPlainMatmul

open Idealize.ShloMosaic Idealize.ShloMosaic.ValueIdx
open scoped BigOperators

variable (M K N : ℕ)

/-- The left operand's row coordinate is the result's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The left operand's column coordinate is the contraction position. -/
theorem lhs_col (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q

/-- The right operand's row coordinate is the contraction position. -/
theorem rhs_row (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q

/-- The right operand's column coordinate is the result's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The sum over the contraction positions, re-indexed by the one coordinate. -/
theorem sum_contr {φ₁ φ₂ : FTy} (W : FVec Ideal ⟨2, ![M, K]⟩ φ₁) (X : FVec Ideal ⟨2, ![K, N]⟩ φ₂) (p : Fin M) (c : Fin N) :
    (∑ q : (DotDims.plain M K N).contr.Idx,
        W ((DotDims.plain M K N).lhsIdx (ix2 p c) q) * X ((DotDims.plain M K N).rhsIdx (ix2 p c) q))
      = ∑ k : Fin K, W (ix2 p k) * X (ix2 k c) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p c) ((contrEquiv1 (DotDims.plain M K N) K rfl rfl).symm k) = ix2 p k :=
    funext fun a => Fin.ext (by
      match a with
      | ⟨0, _⟩ => exact lhs_row M K N _ _
      | ⟨1, _⟩ => exact (lhs_col M K N _ _).trans hk)
  have er : (DotDims.plain M K N).rhsIdx (ix2 p c) ((contrEquiv1 (DotDims.plain M K N) K rfl rfl).symm k) = ix2 k c :=
    funext fun a => Fin.ext (by
      match a with
      | ⟨0, _⟩ => exact (rhs_row M K N _ _).trans hk
      | ⟨1, _⟩ => exact rhs_col M K N _ _)
  rw [el, er]

/-- A kernel's matrix product into a zero accumulator, at an entry. -/
theorem matmul_zero_apply {φ₁ φ₂ : FTy} (prec : Option ContractPrecision) (W : FVec Ideal ⟨2, ![M, K]⟩ φ₁)
    (X : FVec Ideal ⟨2, ![K, N]⟩ φ₂) (p : Fin M) (c : Fin N) :
    matmul (DotDims.plain M K N) prec W X (constant (F := Ideal) ⟨2, ![M, N]⟩ .f32 0x00000000#32) (ix2 p c)
      = ∑ k : Fin K, W (ix2 p k) * X (ix2 k c) := by
  simp only [matmul]
  rw [Ideal.matmul_constant_zero_apply]
  exact sum_contr M K N W X p c

/-- The same with each product's factors swapped: the form in which a product computed in a transposed layout
    (`W · Xᵀ` laid out as features by batch) meets the row-major product `X · Wᵀ`. -/
theorem matmul_zero_apply_comm {φ₁ φ₂ : FTy} (prec : Option ContractPrecision) (W : FVec Ideal ⟨2, ![M, K]⟩ φ₁)
    (X : FVec Ideal ⟨2, ![K, N]⟩ φ₂) (p : Fin M) (c : Fin N) :
    matmul (DotDims.plain M K N) prec W X (constant (F := Ideal) ⟨2, ![M, N]⟩ .f32 0x00000000#32) (ix2 p c)
      = ∑ k : Fin K, X (ix2 k c) * W (ix2 p k) := by
  rw [matmul_zero_apply]
  exact Finset.sum_congr rfl fun k _ => mul_comm _ _

/-- A host product, at an entry. -/
theorem dotGeneral_apply {φ₁ φ₂ : FTy} (prec : Option ContractPrecision) (W : FVec Ideal ⟨2, ![M, K]⟩ φ₁)
    (X : FVec Ideal ⟨2, ![K, N]⟩ φ₂) (p : Fin M) (c : Fin N) :
    Host.dotGeneral (DotDims.plain M K N) prec W X (ix2 p c) = ∑ k : Fin K, W (ix2 p k) * X (ix2 k c) := by
  simp only [Host.dotGeneral]
  rw [Ideal.dotGeneral_apply]
  exact sum_contr M K N W X p c

end Cert.LibPlainMatmul

end
-- ==== Proof.PayIdeal.lean ====
/-
  The kernels' arithmetic over the extended reals, entry by entry.

  Each value a kernel body stores is one pure term of the values it loaded. Read at row `p` and column `c` of a tile:
  the value written when a row tile's accumulation starts is zero; one accumulation step adds to the accumulator the
  sum, over the 1024 positions `k` of the contraction tile, of the adjacency entry `(p, k)` times the projected
  feature `(k, c)`, itself the sum over the 128 features `f` of `x (k, f) * w (f, c)`; the last step adds the
  column's bias and, in the first layer, clamps below at zero. A change of float format is the identity here, and a
  shape cast to the same shape is the identity.
-/
import proofs.«111412_j558345748855_2_alg».proof.Proof.Gen.KernelIdeal.Skeleton
import proofs.«111412_j558345748855_2_alg».proof.Proof.Spec
import proofs.«111412_j558345748855_2_alg».proof.Proof.LibPlainMatmul
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.PayIdeal

open Idealize.ShloMosaic Idealize.ShloMosaic.ValueIdx Cert.KernelIdeal Cert.KernelIdeal.Gen
open scoped BigOperators

/-- The first product's dimension numbers are the plain ones: rows by contraction times contraction by columns. -/
theorem dot1_eq : dot_S1024x128_S128x128_S1024x128_1_0_0_1_n_n = DotDims.plain 1024 128 128 := rfl
/-- So are the second product's. -/
theorem dot2_eq : dot_S2048x1024_S1024x128_S2048x128_1_0_0_1_n_n = DotDims.plain 2048 1024 128 := rfl

/-- The value written at the first contraction tile is zero everywhere. -/
theorem pay1_0 (p : Fin 2048) (c : Fin 128) : k0_pay1 (F := Ideal) (ix2 p c) = 0 := by
  unfold k0_pay1
  rw [shapeCast_self, broadcast_apply]
  exact Ideal.ofBits_zero_f32

theorem pay1_1 (p : Fin 2048) (c : Fin 128) : k1_pay1 (F := Ideal) (ix2 p c) = 0 := by
  unfold k1_pay1
  rw [shapeCast_self, broadcast_apply]
  exact Ideal.ofBits_zero_f32

/-- One accumulation step, at an entry: the accumulator plus the adjacency tile's row against the projected feature
    tile's column, the projection itself a sum over the 128 features. -/
theorem pay2_0 (x : Vec Ideal S1024x128 .f32) (w : Vec Ideal S128x128 .f32) (a : Vec Ideal S2048x1024 .f32)
    (s : Vec Ideal S2048x128 .f32) (p : Fin 2048) (c : Fin 128) :
    k0_pay2 (F := Ideal) x w a s (ix2 p c)
      = s (ix2 p c) + ∑ k : Fin 1024, a (ix2 p k) * ∑ f : Fin 128, x (ix2 k f) * w (ix2 f c) := by
  unfold k0_pay2
  simp only [dot1_eq, dot2_eq]
  rw [shapeCast_self, addf_apply, Cert.LibPlainMatmul.matmul_zero_apply]
  refine congrArg (s (ix2 p c) + ·) (Finset.sum_congr rfl fun k _ => ?_)
  rw [truncf_apply, truncf_apply, Cert.LibPlainMatmul.matmul_zero_apply]
  rfl

/-- The same step in the second layer, whose feature tile arrives already narrowed. -/
theorem pay2_1 (x : Vec Ideal S1024x128 .bf16) (w : Vec Ideal S128x128 .f32) (a : Vec Ideal S2048x1024 .f32)
    (s : Vec Ideal S2048x128 .f32) (p : Fin 2048) (c : Fin 128) :
    k1_pay2 (F := Ideal) x w a s (ix2 p c)
      = s (ix2 p c) + ∑ k : Fin 1024, a (ix2 p k) * ∑ f : Fin 128, x (ix2 k f) * w (ix2 f c) := by
  unfold k1_pay2
  simp only [dot1_eq, dot2_eq]
  rw [shapeCast_self, addf_apply, Cert.LibPlainMatmul.matmul_zero_apply]
  refine congrArg (s (ix2 p c) + ·) (Finset.sum_congr rfl fun k _ => ?_)
  rw [truncf_apply, truncf_apply, Cert.LibPlainMatmul.matmul_zero_apply, shapeCast_self, shapeCast_self]
  rfl

/-- The first layer's last step, at an entry: add the bias of the column, clamp below at zero. -/
theorem pay3_0 (s : Vec Ideal S2048x128 .f32) (b : Vec Ideal S128 .f32) (p : Fin 2048) (c : Fin 128) :
    k0_pay3 (F := Ideal) s b (ix2 p c) = max (s (ix2 p c) + b (ix1 c)) 0 := by
  unfold k0_pay3
  rw [truncf_apply, maximumf_apply, addf_apply, broadcast_apply, broadcastTo_1b_ab_apply, shapeCast_a_1a_apply]
  exact congrArg (max (s (ix2 p c) + b (ix1 c))) Ideal.ofBits_zero_f32

/-- The second layer's last step, at an entry: add the bias of the column. -/
theorem pay3_1 (s : Vec Ideal S2048x128 .f32) (b : Vec Ideal S128 .f32) (p : Fin 2048) (c : Fin 128) :
    k1_pay3 (F := Ideal) s b (ix2 p c) = s (ix2 p c) + b (ix1 c) := by
  unfold k1_pay3
  rw [addf_apply, broadcastTo_1b_ab_apply, shapeCast_a_1a_apply, shapeCast_self]

end Cert.KernelIdeal.PayIdeal

end
-- ==== Proof.HostIdeal.lean ====
/-
  The host operations around the two kernels, read at an index, and the two laws of finite sums that join a sum taken
  tile by tile to the whole sum.

  The second layer's weights and bias are padded on the right with 64 columns of a padding value; read at column `c`
  the padded array is the original at `c` when `c < 64` and the padding value otherwise. The result is cut back to its
  first 64 columns; read at `(p, c)` the cut is the operand at `(p, c)`. A sum over 16 tiles of 1024 consecutive
  positions is the sum over all 16384 positions (every position is `1024 * kt + k` for exactly one pair), and a value
  built by adding one term per step is the sum of the terms so far; sums of extended reals regroup freely.
-/
import proofs.«111412_j558345748855_2_alg».proof.Proof.Gen.KernelIdeal.Skeleton
import Idealize.ShloMosaic.Lib.ValueIdx
import Idealize.ShloMosaic.Lib.ValueLayout
import Idealize.ShloMosaic.Lib.Pipeline.Value
import Idealize.ShloMosaic.Lib.KernelVsHost
import Idealize.ShloMosaic.PureOps.Ideal.Laws

noncomputable section

namespace Cert.KernelIdeal.PayIdeal

open Idealize.ShloMosaic Idealize.ShloMosaic.ValueIdx Cert.KernelIdeal Cert.KernelIdeal.Gen
open scoped BigOperators

/-- The second layer's weights padded with 64 more columns: the weights on the first 64 columns, the padding value on
    the rest. -/
theorem pad_w2 (w2 : FVec Ideal S128x64 .f32) (v : FVec Ideal S_ .f32) (f c : Fin 128) :
    pad S128x128 ![0, 0] ![0, 64] ![0, 0] w2 v pads_S128x64_S128x128_000_0640 h_S_ (ix2 f c)
      = if h : c.val < 64 then w2 (ix2 f ⟨c.val, h⟩) else v ix0 := by
  by_cases h : c.val < 64
  · rw [dif_pos h]
    refine pad_apply_of_inside _ _ _ w2 v _ _ (ix2 f c) (ix2 f (⟨c.val, h⟩ : Fin 64)) fun a => ?_
    match a with
    | ⟨0, _⟩ => show f.val = 0 + f.val * (0 + 1); omega
    | ⟨1, _⟩ => show c.val = 0 + c.val * (0 + 1); omega
  · rw [dif_neg h]
    refine (pad_apply_of_not_inside _ _ _ w2 v _ _ (ix2 f c) (1 : Fin 2) fun hin => h ?_).trans
      (congrArg v (eq_ix0 _))
    have h3 : (c.val - 0) / (0 + 1) < 64 := hin.2.2
    omega

/-- The second layer's bias padded with 64 more entries. -/
theorem pad_b2 (b2 : FVec Ideal S64 .f32) (v : FVec Ideal S_ .f32) (c : Fin 128) :
    pad S128 ![0] ![64] ![0] b2 v pads_S64_S128_0640 h_S_ (ix1 c)
      = if h : c.val < 64 then b2 (ix1 ⟨c.val, h⟩) else v ix0 := by
  by_cases h : c.val < 64
  · rw [dif_pos h]
    refine pad_apply_of_inside _ _ _ b2 v _ _ (ix1 c) (ix1 (⟨c.val, h⟩ : Fin 64)) fun a => ?_
    match a with
    | ⟨0, _⟩ => show c.val = 0 + c.val * (0 + 1); omega
  · rw [dif_neg h]
    refine (pad_apply_of_not_inside _ _ _ b2 v _ _ (ix1 c) (0 : Fin 1) fun hin => h ?_).trans
      (congrArg v (eq_ix0 _))
    have h3 : (c.val - 0) / (0 + 1) < 64 := hin.2.2
    omega

/-- The result cut back to its first 64 columns. -/
theorem slice_cols (y : FVec Ideal S16384x128 .f32) (p : Fin 16384) (c : Fin 64) :
    extractStridedSlice S16384x64 ![0, 0] y slices_S16384x128_S16384x64_0_0 (ix2 p c)
      = y (ix2 p ⟨c.val, by omega⟩) :=
  slice2_axis1_apply 0 y _ p c _ (Nat.zero_add _).symm

/-- A sum over 16 tiles of 1024 consecutive positions each is the sum over all 16384 positions. -/
theorem sum_range_tiles (g : ℕ → EReal) :
    ∑ kt ∈ Finset.range 16, ∑ k : Fin 1024, g (1024 * kt + k.val) = ∑ j : Fin 16384, g j.val := by
  rw [← Fin.sum_univ_eq_sum_range (fun kt => ∑ k : Fin 1024, g (1024 * kt + k.val)) 16]
  have e : ∑ j : Fin (16 * 1024), g j.val = ∑ x : Fin 16 × Fin 1024, g (finProdFinEquiv x).val :=
    (Equiv.sum_comp finProdFinEquiv (fun j : Fin (16 * 1024) => g j.val)).symm
  refine Eq.trans ?_ e.symm
  rw [Fintype.sum_prod_type]
  refine Finset.sum_congr rfl fun kt _ => Finset.sum_congr rfl fun k _ => ?_
  rw [finProdFinEquiv_apply_val, add_comm]

/-- A value built by adding one term per step, starting from zero plus the first, is the sum of the terms so far. -/
theorem acc_fold (T : ℕ → EReal) (acc : ℕ → EReal) (h0 : acc 0 = 0 + T 0) (hs : ∀ n, acc (n + 1) = acc n + T (n + 1))
    (n : ℕ) : acc n = ∑ kt ∈ Finset.range (n + 1), T kt := by
  induction n with
  | zero => rw [h0, zero_add, Finset.sum_range_one]
  | succ m ih => rw [hs m, ih, Finset.sum_range_succ _ (m + 1)]

end Cert.KernelIdeal.PayIdeal

end
-- ==== Proof.Bridge0.lean ====
/-
  The first layer's launch, from grid points to the whole hidden array, over the extended reals.

  Point t of the 8 by 16 grid works on row tile t / 16 and contraction tile t % 16. Its feature tile is rows
  1024 * (t % 16) + k of the features, its adjacency tile rows 2048 * (t / 16) + p and columns 1024 * (t % 16) + k of the
  adjacency matrix; the weights and the bias are read whole. One step adds to the accumulator, at (p, q), the sum over
  the tile's 1024 positions of A(row, position) * P1(position, q), where P1 is the projection of the features by the
  weights. The accumulator starts from zero at the first contraction tile of a row tile, so after contraction tile kt it
  holds the sum over the first kt + 1 tiles, and after the sixteenth the sum over all 16384 positions. That point adds
  the bias, clamps below at zero and writes the 2048 by 128 tile back; the eight such points cover every row, so the
  array ends holding the hidden layer at every entry.
-/
import proofs.«111412_j558345748855_2_alg».proof.Proof.R0Defs
import proofs.«111412_j558345748855_2_alg».proof.Proof.PayIdeal
import proofs.«111412_j558345748855_2_alg».proof.Proof.HostIdeal
import proofs.«111412_j558345748855_2_alg».proof.Proof.Spec
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx Cert.KernelIdeal.PayIdeal
open scoped BigOperators

variable (V : (c : Dev nD) → (b : Ref sig .tc) → Buf (Elt Ideal) ((c : Thread nD τ).loc b))

/-- The block indices of the five windows at a grid point, decided once over the grid: the feature window moves with the
    contraction tile, the adjacency window with both, the weights and bias stay, the output moves with the row tile. -/
theorem idx0 : ∀ t : Fin cfg0.N, win0_0.index t (0 : Fin 2) = t.val % 16 ∧ win0_0.index t (1 : Fin 2) = 0
    ∧ win0_1.index t (0 : Fin 2) = t.val / 16 ∧ win0_1.index t (1 : Fin 2) = t.val % 16
    ∧ win0_2.index t (0 : Fin 2) = 0 ∧ win0_2.index t (1 : Fin 2) = 0
    ∧ win0_3.index t (0 : Fin 1) = 0
    ∧ win0_4.index t (0 : Fin 2) = t.val / 16 ∧ win0_4.index t (1 : Fin 2) = 0 :=
  (by decide +kernel : ∀ t : Fin grid0.N, _)

/-- A grid point is below 128. -/
theorem t_lt0 (t : Fin cfg0.N) : t.val < 128 := by have := t.isLt; have hN : cfg0.N = 128 := N_0; omega

/-- Row `p` of row tile `t / 16` is a row of the array. -/
theorem row_lt0 (t : Fin cfg0.N) (p : Fin 2048) : 2048 * (t.val / 16) + p.val < 16384 := by
  have := t_lt0 t; have := p.isLt; omega

/-- Position `k` of contraction tile `t % 16` is a position of the array. -/
theorem col_lt0 (t : Fin cfg0.N) (k : Fin 1024) : 1024 * (t.val % 16) + k.val < 16384 := by
  have := k.isLt; omega

/-- The feature tile at point `t`: rows `1024 * (t % 16) + k` of the features. -/
theorem iblk0_X (c : Dev nD) (t : Fin cfg0.N) (k : Fin 1024) (f : Fin 128) :
    iblk0 V c 0 t (ix2 k f) = V c main_arg0 (ix2 (⟨1024 * (t.val % 16) + k.val, col_lt0 t k⟩ : Fin 16384) f) := by
  obtain ⟨e0, e1, e2, e3, e4, e5, e6, e7, e8⟩ := idx0 t
  show V c main_arg0 (((cfg0.win 0).blk t).view.emb (ix2 k f)) = V c main_arg0 _
  refine congrArg (V c main_arg0) ?_
  funext a; apply Fin.ext
  match a with
  | ⟨0, _⟩ => show win0_0.index t (0 : Fin 2) * 1024 + 1 * k.val = 1024 * (t.val % 16) + k.val; omega
  | ⟨1, _⟩ => show win0_0.index t (1 : Fin 2) * 128 + 1 * f.val = f.val; omega

/-- The adjacency tile at point `t`: rows `2048 * (t / 16) + p`, columns `1024 * (t % 16) + k`. -/
theorem iblk0_A (c : Dev nD) (t : Fin cfg0.N) (p : Fin 2048) (k : Fin 1024) :
    iblk0 V c 1 t (ix2 p k)
      = V c main_arg1 (ix2 (⟨2048 * (t.val / 16) + p.val, row_lt0 t p⟩ : Fin 16384)
          (⟨1024 * (t.val % 16) + k.val, col_lt0 t k⟩ : Fin 16384)) := by
  obtain ⟨e0, e1, e2, e3, e4, e5, e6, e7, e8⟩ := idx0 t
  show V c main_arg1 (((cfg0.win 1).blk t).view.emb (ix2 p k)) = V c main_arg1 _
  refine congrArg (V c main_arg1) ?_
  funext a; apply Fin.ext
  match a with
  | ⟨0, _⟩ => show win0_1.index t (0 : Fin 2) * 2048 + 1 * p.val = 2048 * (t.val / 16) + p.val; omega
  | ⟨1, _⟩ => show win0_1.index t (1 : Fin 2) * 1024 + 1 * k.val = 1024 * (t.val % 16) + k.val; omega

/-- The weights' block is the whole array at every point. -/
theorem iblk0_W (c : Dev nD) (t : Fin cfg0.N) (f q : Fin 128) :
    iblk0 V c 2 t (ix2 f q) = V c main_arg2 (ix2 f q) := by
  obtain ⟨e0, e1, e2, e3, e4, e5, e6, e7, e8⟩ := idx0 t
  show V c main_arg2 (((cfg0.win 2).blk t).view.emb (ix2 f q)) = V c main_arg2 _
  refine congrArg (V c main_arg2) ?_
  funext a; apply Fin.ext
  match a with
  | ⟨0, _⟩ => show win0_2.index t (0 : Fin 2) * 128 + 1 * f.val = f.val; omega
  | ⟨1, _⟩ => show win0_2.index t (1 : Fin 2) * 128 + 1 * q.val = q.val; omega

/-- The bias's block is the whole array at every point. -/
theorem iblk0_b (c : Dev nD) (t : Fin cfg0.N) (q : Fin 128) :
    iblk0 V c 3 t (ix1 q) = V c main_arg3 (ix1 q) := by
  obtain ⟨e0, e1, e2, e3, e4, e5, e6, e7, e8⟩ := idx0 t
  show V c main_arg3 (((cfg0.win 3).blk t).view.emb (ix1 q)) = V c main_arg3 _
  refine congrArg (V c main_arg3) ?_
  funext a; apply Fin.ext
  match a with
  | ⟨0, _⟩ => show win0_3.index t (0 : Fin 1) * 128 + 1 * q.val = q.val; omega

/-- One term of row `i`'s aggregate at column `q`: the adjacency entry `(i, j)` times node `j`'s projection `P j q`; zero when
    `i` or `j` is past the array, so that it is a function of plain naturals. -/
def term0 (A : FVec Ideal ⟨2, ![16384, 16384]⟩ .f32) (P : Fin 16384 → Fin 128 → EReal) (i : ℕ) (q : Fin 128) (j : ℕ) : EReal :=
  if h : i < 16384 ∧ j < 16384 then A (ix2 ⟨i, h.1⟩ ⟨j, h.2⟩) * P ⟨j, h.2⟩ q else 0

theorem term0_of_lt (A : FVec Ideal ⟨2, ![16384, 16384]⟩ .f32) (P : Fin 16384 → Fin 128 → EReal) (i : ℕ) (q : Fin 128)
    (j : ℕ) (hi : i < 16384) (hj : j < 16384) : term0 A P i q j = A (ix2 ⟨i, hi⟩ ⟨j, hj⟩) * P ⟨j, hj⟩ q :=
  dif_pos ⟨hi, hj⟩

/-- The aggregate of row `i` at column `q`: the sum over all nodes `j` of `A (i, j) * P j q`. -/
def agg0 (A : FVec Ideal ⟨2, ![16384, 16384]⟩ .f32) (P : Fin 16384 → Fin 128 → EReal) (i : Fin 16384) (q : Fin 128) : EReal :=
  ∑ j : Fin 16384, A (ix2 i j) * P j q

/-- One step at an entry: the accumulator plus the sum, over the 1024 positions of the point's contraction tile, of the
    terms of the entry's row. -/
theorem step0_apply (c : Dev nD) (t : Fin cfg0.N) (s : Vec Ideal S2048x128 .f32) (p : Fin 2048) (q : Fin 128) :
    step0 V c t s (ix2 p q)
      = s (ix2 p q) + ∑ k : Fin 1024, term0 (V c main_arg1) (Cert.Gcn.proj1 (V c main_arg0) (V c main_arg2))
          (2048 * (t.val / 16) + p.val) q (1024 * (t.val % 16) + k.val) := by
  refine (pay2_0 (iblk0 V c 0 t) (iblk0 V c 2 t) (iblk0 V c 1 t) s p q).trans ?_
  refine congrArg (s (ix2 p q) + ·) (Finset.sum_congr rfl fun k _ => ?_)
  rw [term0_of_lt _ _ _ q _ (row_lt0 t p) (col_lt0 t k)]
  refine congrArg₂ (fun x y : EReal => x * y) (iblk0_A V c t p k) ?_
  unfold Cert.Gcn.proj1
  refine Finset.sum_congr rfl fun f _ => ?_
  exact congrArg₂ (fun x y : EReal => x * y) (iblk0_X V c t k f) (iblk0_W V c t f q)

/-- At the first contraction tile of a row tile the accumulator holds that tile's terms alone. -/
theorem acc0_closed_first (c : Dev nD) (p : Fin 2048) (q : Fin 128) (t : Fin cfg0.N) (h : t.val % 16 = 0) :
    acc0 V c t.val t.isLt (ix2 p q)
      = ∑ kk ∈ Finset.range (t.val % 16 + 1), ∑ k : Fin 1024,
          term0 (V c main_arg1) (Cert.Gcn.proj1 (V c main_arg0) (V c main_arg2)) (2048 * (t.val / 16) + p.val) q (1024 * kk + k.val) := by
  refine (congrFun (acc0_first V c t h) (ix2 p q)).trans ?_
  refine (step0_apply V c t (k0_pay1 (F := Ideal)) p q).trans ?_
  rw [pay1_0, zero_add, h]
  exact (Finset.sum_range_one (fun kk => ∑ k : Fin 1024,
    term0 (V c main_arg1) (Cert.Gcn.proj1 (V c main_arg0) (V c main_arg2)) (2048 * (t.val / 16) + p.val) q (1024 * kk + k.val))).symm

/-- THE ACCUMULATOR IN CLOSED FORM: after point `n` (row tile `n / 16`, contraction tile `n % 16`) its entry `(p, q)` is
    the sum over the contraction tiles `0 … n % 16` of the terms of row `2048 * (n / 16) + p`. -/
theorem acc0_closed (c : Dev nD) (p : Fin 2048) (q : Fin 128) : ∀ (n : ℕ) (hn : n < cfg0.N),
    acc0 V c n hn (ix2 p q)
      = ∑ kk ∈ Finset.range (n % 16 + 1), ∑ k : Fin 1024,
          term0 (V c main_arg1) (Cert.Gcn.proj1 (V c main_arg0) (V c main_arg2)) (2048 * (n / 16) + p.val) q (1024 * kk + k.val)
  | 0, hn => acc0_closed_first V c p q ⟨0, hn⟩ rfl
  | n + 1, hn => by
    by_cases h : (n + 1) % 16 = 0
    · exact acc0_closed_first V c p q ⟨n + 1, hn⟩ h
    · refine (congrFun (acc0_later V c ⟨n + 1, hn⟩ h) (ix2 p q)).trans ?_
      refine (step0_apply V c ⟨n + 1, hn⟩ _ p q).trans ?_
      show acc0 V c n _ (ix2 p q) + ∑ k : Fin 1024, term0 _ _ (2048 * ((n + 1) / 16) + p.val) q (1024 * ((n + 1) % 16) + k.val) = _
      rw [acc0_closed c p q n (Nat.lt_of_succ_lt hn)]
      have h1 : (n + 1) / 16 = n / 16 := by omega
      have h2 : (n + 1) % 16 = n % 16 + 1 := by omega
      rw [h1, h2, Finset.sum_range_succ _ (n % 16 + 1)]

/-- After the sixteenth contraction tile the accumulator's entry is the whole aggregate of its row. -/
theorem acc0_last (c : Dev nD) (t : Fin cfg0.N) (h : t.val % 16 = 15) (p : Fin 2048) (q : Fin 128) :
    acc0 V c t.val t.isLt (ix2 p q)
      = agg0 (V c main_arg1) (Cert.Gcn.proj1 (V c main_arg0) (V c main_arg2)) ⟨2048 * (t.val / 16) + p.val, row_lt0 t p⟩ q := by
  rw [acc0_closed V c p q t.val t.isLt, h]
  refine (sum_range_tiles (term0 (V c main_arg1) (Cert.Gcn.proj1 (V c main_arg0) (V c main_arg2)) (2048 * (t.val / 16) + p.val) q)).trans ?_
  exact Finset.sum_congr rfl fun j _ => term0_of_lt _ _ _ q _ (row_lt0 t p) j.isLt

/-- The hidden layer as one array of the launch's argument arrays. -/
def Harr (c : Dev nD) : Buf (Elt Ideal) ((c : Thread nD τ).loc main_v0) :=
  fun i : S16384x128.Idx => Cert.Gcn.hidden (V c main_arg0) (V c main_arg1) (V c main_arg2) (V c main_arg3) (i 0) (i 1)

/-- The tile a row tile's last point stores, at an entry: the hidden layer at the entry's row and column. -/
theorem outT0_apply (c : Dev nD) (t : Fin cfg0.N) (h : t.val % 16 = 15) (p : Fin 2048) (q : Fin 128) :
    outT0 V c t (ix2 p q)
      = Cert.Gcn.hidden (V c main_arg0) (V c main_arg1) (V c main_arg2) (V c main_arg3) ⟨2048 * (t.val / 16) + p.val, row_lt0 t p⟩ q := by
  refine (pay3_0 (acc0 V c t.val t.isLt) (iblk0 V c 3 t) p q).trans ?_
  rw [acc0_last V c t h p q, iblk0_b V c t q]
  rfl

/-- WHAT A ROW TILE'S LAST POINT WRITES BACK is its block of the hidden layer. -/
theorem flushed0_eq (c : Dev nD) (t : Fin cfg0.N) (hf : (cfg0.win 4).flush t = true) :
    (dat0 V c).flushed 4 t = ((cfg0.win 4).blk t).view.read (Elt Ideal) (Harr V c) := by
  have h15 : t.val % 16 = 15 := (flush0_4 t).mp hf
  obtain ⟨e0, e1, e2, e3, e4, e5, e6, e7, e8⟩ := idx0 t
  show (cfg0.win 4).cut (grid0.coords t) ((dat0 V c).after 4 t) = _
  rw [after0_4]
  funext y
  obtain ⟨p, q, rfl⟩ : ∃ (p : Fin 2048) (q : Fin 128), y = ix2 p q := ⟨y 0, y 1, eq_ix2 y⟩
  show outT0 V c t (ix2 p q) = Harr V c (((cfg0.win 4).blk t).view.emb (ix2 p q))
  rw [outT0_apply V c t h15 p q]
  show _ = Cert.Gcn.hidden (V c main_arg0) (V c main_arg1) (V c main_arg2) (V c main_arg3)
    ((((cfg0.win 4).blk t).view.emb (ix2 p q)) 0) ((((cfg0.win 4).blk t).view.emb (ix2 p q)) 1)
  refine congrArg₂ (Cert.Gcn.hidden (V c main_arg0) (V c main_arg1) (V c main_arg2) (V c main_arg3)) (Fin.ext ?_) (Fin.ext ?_)
  · show 2048 * (t.val / 16) + p.val = win0_4.index t (0 : Fin 2) * 2048 + 1 * p.val; omega
  · show q.val = win0_4.index t (1 : Fin 2) * 128 + 1 * q.val; omega

/-- An entry of the array is in point `t`'s output block iff each coordinate is in the block's range on its axis. -/
theorem mem_blk0 (t : Fin cfg0.N) (i : S16384x128.Idx) :
    i ∈ ((cfg0.win 4).blk t).view.set ↔ ∀ a : Fin 2, win0_4.index t a * S2048x128.size a ≤ (i a).val ∧ (i a).val < win0_4.index t a * S2048x128.size a + S2048x128.size a := by
  show i ∈ ((View.whole main_v0).slice (win0_4.rect t)).set ↔ _
  rw [View.set_slice_whole, Rect.mem_set_unit]
  exact Iff.rfl

/-- Every entry is in the output block of its row tile's last point, which writes the block back. -/
theorem cover0 (i : S16384x128.Idx) : ∃ t : Fin cfg0.N, (cfg0.win 4).flush t = true ∧ i ∈ ((cfg0.win 4).blk t).view.set := by
  have hN : cfg0.N = 128 := N_0
  have hi0 : (i 0).val < 16384 := (i 0).isLt
  have hi1 : (i 1).val < 128 := (i 1).isLt
  obtain ⟨t, ht⟩ : ∃ t : Fin cfg0.N, t.val = 16 * ((i 0).val / 2048) + 15 := ⟨⟨16 * ((i 0).val / 2048) + 15, by omega⟩, rfl⟩
  obtain ⟨e0, e1, e2, e3, e4, e5, e6, e7, e8⟩ := idx0 t
  refine ⟨t, (flush0_4 t).mpr (by omega), ?_⟩
  rw [mem_blk0]
  intro a
  match a with
  | ⟨0, _⟩ => show win0_4.index t (0 : Fin 2) * 2048 ≤ (i 0).val ∧ (i 0).val < win0_4.index t (0 : Fin 2) * 2048 + 2048; omega
  | ⟨1, _⟩ => show win0_4.index t (1 : Fin 2) * 128 ≤ (i 1).val ∧ (i 1).val < win0_4.index t (1 : Fin 2) * 128 + 128; omega

/-- THE ARRAY after the launch is the hidden layer. -/
theorem final0_arr (c : Dev nD) : (dat0 V c).arrAt 4 cfg0.N = Harr V c :=
  (dat0 V c).arrAt_eq_of_cover 4 (Harr V c) (fun t hf => flushed0_eq V c t hf) cover0

/-- Entry by entry. -/
theorem final0 (c : Dev nD) (p : Fin 16384) (q : Fin 128) :
    (dat0 V c).arrAt 4 cfg0.N (ix2 p q)
      = Cert.Gcn.hidden (V c main_arg0) (V c main_arg1) (V c main_arg2) (V c main_arg3) p q := by
  rw [final0_arr V c]
  rfl

end Cert.KernelIdeal.Hand
end
-- ==== Proof.Spec2.lean ====
/-
  One layer's aggregation, entry by entry, as a function of the four arrays a launch reads: for an adjacency matrix A,
  node rows H, weights W and bias b,

      (sum over j of A(p, j) * (sum over f of H(j, f) * W(f, q))) + b(q).

  The second layer's launch computes this with H the first layer's result, W and b the zero-padded weights and bias.
-/
import Idealize.ShloMosaic.PureOps.Ideal.Laws
import Idealize.ShloMosaic.Lib.ValueIdx

noncomputable section

namespace Cert.Gcn

open Idealize.ShloMosaic Idealize.ShloMosaic.ValueIdx
open scoped BigOperators

/-- The aggregation at row `p`, column `q`. -/
def second (A : FVec Ideal ⟨2, ![16384, 16384]⟩ .f32) (H : FVec Ideal ⟨2, ![16384, 128]⟩ .bf16)
    (W : FVec Ideal ⟨2, ![128, 128]⟩ .f32) (b : FVec Ideal ⟨1, ![128]⟩ .f32) (p : Fin 16384) (q : Fin 128) : EReal :=
  (∑ j : Fin 16384, A (ix2 p j) * ∑ f : Fin 128, H (ix2 j f) * W (ix2 f q)) + b (ix1 q)

end Cert.Gcn

end
-- ==== Proof.Bridge1.lean ====
/-
  The second layer's launch, from grid points to the whole result array, over the extended reals.

  The same grid as the first layer's: point t works on row tile t / 16 and contraction tile t % 16. Its node tile is rows
  1024 * (t % 16) + k of the hidden array, its adjacency tile rows 2048 * (t / 16) + p and columns 1024 * (t % 16) + k of
  the adjacency matrix; the padded weights and bias are read whole. One step adds to the accumulator, at (p, q), the sum
  over the tile's 1024 positions of A(row, position) * P(position, q), where P is the projection of the hidden rows by
  the weights. After the sixteenth contraction tile the accumulator holds the sum over all 16384 positions; that point
  adds the bias and writes the 2048 by 128 tile back, and the eight such points cover every row.
-/
import proofs.«111412_j558345748855_2_alg».proof.Proof.R1Defs
import proofs.«111412_j558345748855_2_alg».proof.Proof.PayIdeal
import proofs.«111412_j558345748855_2_alg».proof.Proof.HostIdeal
import proofs.«111412_j558345748855_2_alg».proof.Proof.Spec2
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx Cert.KernelIdeal.PayIdeal
open scoped BigOperators

variable (V : (c : Dev nD) → (b : Ref sig .tc) → Buf (Elt Ideal) ((c : Thread nD τ).loc b))

/-- The block indices of the five windows at a grid point, decided once over the grid: the node window moves with the
    contraction tile, the adjacency window with both, the weights and bias stay, the output moves with the row tile. -/
theorem idx1 : ∀ t : Fin cfg1.N, win1_0.index t (0 : Fin 2) = t.val % 16 ∧ win1_0.index t (1 : Fin 2) = 0
    ∧ win1_1.index t (0 : Fin 2) = t.val / 16 ∧ win1_1.index t (1 : Fin 2) = t.val % 16
    ∧ win1_2.index t (0 : Fin 2) = 0 ∧ win1_2.index t (1 : Fin 2) = 0
    ∧ win1_3.index t (0 : Fin 1) = 0
    ∧ win1_4.index t (0 : Fin 2) = t.val / 16 ∧ win1_4.index t (1 : Fin 2) = 0 :=
  (by decide +kernel : ∀ t : Fin grid1.N, _)

/-- A grid point is below 128. -/
theorem t_lt1 (t : Fin cfg1.N) : t.val < 128 := by have := t.isLt; have hN : cfg1.N = 128 := N_1; omega

/-- Row `p` of row tile `t / 16` is a row of the array. -/
theorem row_lt1 (t : Fin cfg1.N) (p : Fin 2048) : 2048 * (t.val / 16) + p.val < 16384 := by
  have := t_lt1 t; have := p.isLt; omega

/-- Position `k` of contraction tile `t % 16` is a position of the array. -/
theorem col_lt1 (t : Fin cfg1.N) (k : Fin 1024) : 1024 * (t.val % 16) + k.val < 16384 := by
  have := k.isLt; omega

/-- The node tile at point `t`: rows `1024 * (t % 16) + k` of the hidden array. -/
theorem iblk1_X (c : Dev nD) (t : Fin cfg1.N) (k : Fin 1024) (f : Fin 128) :
    iblk1 V c 0 t (ix2 k f) = V c main_v0 (ix2 (⟨1024 * (t.val % 16) + k.val, col_lt1 t k⟩ : Fin 16384) f) := by
  obtain ⟨e0, e1, e2, e3, e4, e5, e6, e7, e8⟩ := idx1 t
  show V c main_v0 (((cfg1.win 0).blk t).view.emb (ix2 k f)) = V c main_v0 _
  refine congrArg (V c main_v0) ?_
  funext a; apply Fin.ext
  match a with
  | ⟨0, _⟩ => show win1_0.index t (0 : Fin 2) * 1024 + 1 * k.val = 1024 * (t.val % 16) + k.val; omega
  | ⟨1, _⟩ => show win1_0.index t (1 : Fin 2) * 128 + 1 * f.val = f.val; omega

/-- The adjacency tile at point `t`: rows `2048 * (t / 16) + p`, columns `1024 * (t % 16) + k`. -/
theorem iblk1_A (c : Dev nD) (t : Fin cfg1.N) (p : Fin 2048) (k : Fin 1024) :
    iblk1 V c 1 t (ix2 p k)
      = V c main_arg1 (ix2 (⟨2048 * (t.val / 16) + p.val, row_lt1 t p⟩ : Fin 16384)
          (⟨1024 * (t.val % 16) + k.val, col_lt1 t k⟩ : Fin 16384)) := by
  obtain ⟨e0, e1, e2, e3, e4, e5, e6, e7, e8⟩ := idx1 t
  show V c main_arg1 (((cfg1.win 1).blk t).view.emb (ix2 p k)) = V c main_arg1 _
  refine congrArg (V c main_arg1) ?_
  funext a; apply Fin.ext
  match a with
  | ⟨0, _⟩ => show win1_1.index t (0 : Fin 2) * 2048 + 1 * p.val = 2048 * (t.val / 16) + p.val; omega
  | ⟨1, _⟩ => show win1_1.index t (1 : Fin 2) * 1024 + 1 * k.val = 1024 * (t.val % 16) + k.val; omega

/-- The weights' block is the whole array at every point. -/
theorem iblk1_W (c : Dev nD) (t : Fin cfg1.N) (f q : Fin 128) :
    iblk1 V c 2 t (ix2 f q) = V c main_v1 (ix2 f q) := by
  obtain ⟨e0, e1, e2, e3, e4, e5, e6, e7, e8⟩ := idx1 t
  show V c main_v1 (((cfg1.win 2).blk t).view.emb (ix2 f q)) = V c main_v1 _
  refine congrArg (V c main_v1) ?_
  funext a; apply Fin.ext
  match a with
  | ⟨0, _⟩ => show win1_2.index t (0 : Fin 2) * 128 + 1 * f.val = f.val; omega
  | ⟨1, _⟩ => show win1_2.index t (1 : Fin 2) * 128 + 1 * q.val = q.val; omega

/-- The bias's block is the whole array at every point. -/
theorem iblk1_b (c : Dev nD) (t : Fin cfg1.N) (q : Fin 128) :
    iblk1 V c 3 t (ix1 q) = V c main_v2 (ix1 q) := by
  obtain ⟨e0, e1, e2, e3, e4, e5, e6, e7, e8⟩ := idx1 t
  show V c main_v2 (((cfg1.win 3).blk t).view.emb (ix1 q)) = V c main_v2 _
  refine congrArg (V c main_v2) ?_
  funext a; apply Fin.ext
  match a with
  | ⟨0, _⟩ => show win1_3.index t (0 : Fin 1) * 128 + 1 * q.val = q.val; omega

/-- One term of row `i`'s aggregate at column `q`: the adjacency entry `(i, j)` times node `j`'s projection `P j q`; zero when
    `i` or `j` is past the array, so that it is a function of plain naturals. -/
def term1 (A : FVec Ideal ⟨2, ![16384, 16384]⟩ .f32) (P : Fin 16384 → Fin 128 → EReal) (i : ℕ) (q : Fin 128) (j : ℕ) : EReal :=
  if h : i < 16384 ∧ j < 16384 then A (ix2 ⟨i, h.1⟩ ⟨j, h.2⟩) * P ⟨j, h.2⟩ q else 0

theorem term1_of_lt (A : FVec Ideal ⟨2, ![16384, 16384]⟩ .f32) (P : Fin 16384 → Fin 128 → EReal) (i : ℕ) (q : Fin 128)
    (j : ℕ) (hi : i < 16384) (hj : j < 16384) : term1 A P i q j = A (ix2 ⟨i, hi⟩ ⟨j, hj⟩) * P ⟨j, hj⟩ q :=
  dif_pos ⟨hi, hj⟩

/-- The aggregate of row `i` at column `q`: the sum over all nodes `j` of `A (i, j) * P j q`. -/
def agg1 (A : FVec Ideal ⟨2, ![16384, 16384]⟩ .f32) (P : Fin 16384 → Fin 128 → EReal) (i : Fin 16384) (q : Fin 128) : EReal :=
  ∑ j : Fin 16384, A (ix2 i j) * P j q

/-- The projection of node `j`'s hidden row by the weights, column `q`. -/
def projH (H : FVec Ideal ⟨2, ![16384, 128]⟩ .bf16) (W : FVec Ideal ⟨2, ![128, 128]⟩ .f32) (j : Fin 16384) (q : Fin 128) : EReal :=
  ∑ f : Fin 128, H (ix2 j f) * W (ix2 f q)

/-- One step at an entry: the accumulator plus the sum, over the 1024 positions of the point's contraction tile, of the
    terms of the entry's row. -/
theorem step1_apply (c : Dev nD) (t : Fin cfg1.N) (s : Vec Ideal S2048x128 .f32) (p : Fin 2048) (q : Fin 128) :
    step1 V c t s (ix2 p q)
      = s (ix2 p q) + ∑ k : Fin 1024, term1 (V c main_arg1) (projH (V c main_v0) (V c main_v1))
          (2048 * (t.val / 16) + p.val) q (1024 * (t.val % 16) + k.val) := by
  refine (pay2_1 (iblk1 V c 0 t) (iblk1 V c 2 t) (iblk1 V c 1 t) s p q).trans ?_
  refine congrArg (s (ix2 p q) + ·) (Finset.sum_congr rfl fun k _ => ?_)
  rw [term1_of_lt _ _ _ q _ (row_lt1 t p) (col_lt1 t k)]
  refine congrArg₂ (fun x y : EReal => x * y) (iblk1_A V c t p k) ?_
  unfold projH
  refine Finset.sum_congr rfl fun f _ => ?_
  exact congrArg₂ (fun x y : EReal => x * y) (iblk1_X V c t k f) (iblk1_W V c t f q)

/-- At the first contraction tile of a row tile the accumulator holds that tile's terms alone. -/
theorem acc1_closed_first (c : Dev nD) (p : Fin 2048) (q : Fin 128) (t : Fin cfg1.N) (h : t.val % 16 = 0) :
    acc1 V c t.val t.isLt (ix2 p q)
      = ∑ kk ∈ Finset.range (t.val % 16 + 1), ∑ k : Fin 1024,
          term1 (V c main_arg1) (projH (V c main_v0) (V c main_v1)) (2048 * (t.val / 16) + p.val) q (1024 * kk + k.val) := by
  refine (congrFun (acc1_first V c t h) (ix2 p q)).trans ?_
  refine (step1_apply V c t (k1_pay1 (F := Ideal)) p q).trans ?_
  rw [pay1_1, zero_add, h]
  exact (Finset.sum_range_one (fun kk => ∑ k : Fin 1024,
    term1 (V c main_arg1) (projH (V c main_v0) (V c main_v1)) (2048 * (t.val / 16) + p.val) q (1024 * kk + k.val))).symm

/-- THE ACCUMULATOR IN CLOSED FORM: after point `n` (row tile `n / 16`, contraction tile `n % 16`) its entry `(p, q)` is
    the sum over the contraction tiles `0 … n % 16` of the terms of row `2048 * (n / 16) + p`. -/
theorem acc1_closed (c : Dev nD) (p : Fin 2048) (q : Fin 128) : ∀ (n : ℕ) (hn : n < cfg1.N),
    acc1 V c n hn (ix2 p q)
      = ∑ kk ∈ Finset.range (n % 16 + 1), ∑ k : Fin 1024,
          term1 (V c main_arg1) (projH (V c main_v0) (V c main_v1)) (2048 * (n / 16) + p.val) q (1024 * kk + k.val)
  | 0, hn => acc1_closed_first V c p q ⟨0, hn⟩ rfl
  | n + 1, hn => by
    by_cases h : (n + 1) % 16 = 0
    · exact acc1_closed_first V c p q ⟨n + 1, hn⟩ h
    · refine (congrFun (acc1_later V c ⟨n + 1, hn⟩ h) (ix2 p q)).trans ?_
      refine (step1_apply V c ⟨n + 1, hn⟩ _ p q).trans ?_
      show acc1 V c n _ (ix2 p q) + ∑ k : Fin 1024, term1 _ _ (2048 * ((n + 1) / 16) + p.val) q (1024 * ((n + 1) % 16) + k.val) = _
      rw [acc1_closed c p q n (Nat.lt_of_succ_lt hn)]
      have h1 : (n + 1) / 16 = n / 16 := by omega
      have h2 : (n + 1) % 16 = n % 16 + 1 := by omega
      rw [h1, h2, Finset.sum_range_succ _ (n % 16 + 1)]

/-- After the sixteenth contraction tile the accumulator's entry is the whole aggregate of its row. -/
theorem acc1_last (c : Dev nD) (t : Fin cfg1.N) (h : t.val % 16 = 15) (p : Fin 2048) (q : Fin 128) :
    acc1 V c t.val t.isLt (ix2 p q)
      = agg1 (V c main_arg1) (projH (V c main_v0) (V c main_v1)) ⟨2048 * (t.val / 16) + p.val, row_lt1 t p⟩ q := by
  rw [acc1_closed V c p q t.val t.isLt, h]
  refine (sum_range_tiles (term1 (V c main_arg1) (projH (V c main_v0) (V c main_v1)) (2048 * (t.val / 16) + p.val) q)).trans ?_
  exact Finset.sum_congr rfl fun j _ => term1_of_lt _ _ _ q _ (row_lt1 t p) j.isLt

/-- The layer's result as one array of the launch's argument arrays. -/
def Oarr (c : Dev nD) : Buf (Elt Ideal) ((c : Thread nD τ).loc main_v3) :=
  fun i : S16384x128.Idx => Cert.Gcn.second (V c main_arg1) (V c main_v0) (V c main_v1) (V c main_v2) (i 0) (i 1)

/-- The tile a row tile's last point stores, at an entry: the layer's result at the entry's row and column. -/
theorem outT1_apply (c : Dev nD) (t : Fin cfg1.N) (h : t.val % 16 = 15) (p : Fin 2048) (q : Fin 128) :
    outT1 V c t (ix2 p q)
      = Cert.Gcn.second (V c main_arg1) (V c main_v0) (V c main_v1) (V c main_v2) ⟨2048 * (t.val / 16) + p.val, row_lt1 t p⟩ q := by
  refine (pay3_1 (acc1 V c t.val t.isLt) (iblk1 V c 3 t) p q).trans ?_
  rw [acc1_last V c t h p q, iblk1_b V c t q]
  rfl

/-- WHAT A ROW TILE'S LAST POINT WRITES BACK is its block of the layer's result. -/
theorem flushed1_eq (c : Dev nD) (t : Fin cfg1.N) (hf : (cfg1.win 4).flush t = true) :
    (dat1 V c).flushed 4 t = ((cfg1.win 4).blk t).view.read (Elt Ideal) (Oarr V c) := by
  have h15 : t.val % 16 = 15 := (flush1_4 t).mp hf
  obtain ⟨e0, e1, e2, e3, e4, e5, e6, e7, e8⟩ := idx1 t
  show (cfg1.win 4).cut (grid1.coords t) ((dat1 V c).after 4 t) = _
  rw [after1_4]
  funext y
  obtain ⟨p, q, rfl⟩ : ∃ (p : Fin 2048) (q : Fin 128), y = ix2 p q := ⟨y 0, y 1, eq_ix2 y⟩
  show outT1 V c t (ix2 p q) = Oarr V c (((cfg1.win 4).blk t).view.emb (ix2 p q))
  rw [outT1_apply V c t h15 p q]
  show _ = Cert.Gcn.second (V c main_arg1) (V c main_v0) (V c main_v1) (V c main_v2)
    ((((cfg1.win 4).blk t).view.emb (ix2 p q)) 0) ((((cfg1.win 4).blk t).view.emb (ix2 p q)) 1)
  refine congrArg₂ (Cert.Gcn.second (V c main_arg1) (V c main_v0) (V c main_v1) (V c main_v2)) (Fin.ext ?_) (Fin.ext ?_)
  · show 2048 * (t.val / 16) + p.val = win1_4.index t (0 : Fin 2) * 2048 + 1 * p.val; omega
  · show q.val = win1_4.index t (1 : Fin 2) * 128 + 1 * q.val; omega
/-- An entry of the array is in point `t`'s output block iff each coordinate is in the block's range on its axis. -/
theorem mem_blk1 (t : Fin cfg1.N) (i : S16384x128.Idx) :
    i ∈ ((cfg1.win 4).blk t).view.set ↔ ∀ a : Fin 2, win1_4.index t a * S2048x128.size a ≤ (i a).val ∧ (i a).val < win1_4.index t a * S2048x128.size a + S2048x128.size a := by
  show i ∈ ((View.whole main_v3).slice (win1_4.rect t)).set ↔ _
  rw [View.set_slice_whole, Rect.mem_set_unit]
  exact Iff.rfl

/-- Every entry is in the output block of its row tile's last point, which writes the block back. -/
theorem cover1 (i : S16384x128.Idx) : ∃ t : Fin cfg1.N, (cfg1.win 4).flush t = true ∧ i ∈ ((cfg1.win 4).blk t).view.set := by
  have hN : cfg1.N = 128 := N_1
  have hi0 : (i 0).val < 16384 := (i 0).isLt
  have hi1 : (i 1).val < 128 := (i 1).isLt
  obtain ⟨t, ht⟩ : ∃ t : Fin cfg1.N, t.val = 16 * ((i 0).val / 2048) + 15 := ⟨⟨16 * ((i 0).val / 2048) + 15, by omega⟩, rfl⟩
  obtain ⟨e0, e1, e2, e3, e4, e5, e6, e7, e8⟩ := idx1 t
  refine ⟨t, (flush1_4 t).mpr (by omega), ?_⟩
  rw [mem_blk1]
  intro a
  match a with
  | ⟨0, _⟩ => show win1_4.index t (0 : Fin 2) * 2048 ≤ (i 0).val ∧ (i 0).val < win1_4.index t (0 : Fin 2) * 2048 + 2048; omega
  | ⟨1, _⟩ => show win1_4.index t (1 : Fin 2) * 128 ≤ (i 1).val ∧ (i 1).val < win1_4.index t (1 : Fin 2) * 128 + 128; omega

/-- THE ARRAY after the launch is the layer's result. -/
theorem final1_arr (c : Dev nD) : (dat1 V c).arrAt 4 cfg1.N = Oarr V c :=
  (dat1 V c).arrAt_eq_of_cover 4 (Oarr V c) (fun t hf => flushed1_eq V c t hf) cover1

/-- Entry by entry. -/
theorem final1 (c : Dev nD) (p : Fin 16384) (q : Fin 128) :
    (dat1 V c).arrAt 4 cfg1.N (ix2 p q)
      = Cert.Gcn.second (V c main_arg1) (V c main_v0) (V c main_v1) (V c main_v2) p q := by
  rw [final1_arr V c]
  rfl

end Cert.KernelIdeal.Hand
end
-- ==== Proof.Glue.lean ====
/-
  From the two launches' results to the program's result.

  The program returns the second launch's output cut back to its first 64 columns. The second launch is entered with
  the adjacency matrix as launched (no operation writes it), with the hidden layer as the first launch's write-backs
  left it (no host operation writes it), and with the second layer's weights and bias padded on the right to 128
  columns by the host. The first launch is entered with the arguments as launched. So, given what each launch leaves in
  its output array entry by entry, the returned entry `(p, q)`, `q < 64`, is the sum over the nodes `j` of
  `A (p, j)` times the sum over the features `f` of `hidden (j, f) * W2 (f, q)`, plus `b2 q`: the padded arrays are
  read below column 64 only, where they are the originals.
-/
import proofs.«111412_j558345748855_2_alg».proof.Proof.Vals
import proofs.«111412_j558345748855_2_alg».proof.Proof.HostIdeal
import proofs.«111412_j558345748855_2_alg».proof.Proof.Spec
import proofs.«111412_j558345748855_2_alg».proof.Proof.Spec2
import proofs.«111412_j558345748855_2_alg».proof.Proof.Gen.KernelIdeal.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx Cert.KernelIdeal.PayIdeal
open scoped BigOperators

variable (m : (ℓ : Loc nD τ sig) → Buf (Elt Ideal) ℓ) (ρ : Dev nD → PrngReg)

/-- The returned array is the second launch's output cut back to its first 64 columns. -/
theorem W7_v4 (c : Dev nD) :
    (W7 m ρ c (Proc.devRef .tc main_v4) : S16384x64.Idx → EReal)
      = extractStridedSlice S16384x64 ![0, 0] (W6 m ρ c (Proc.devRef .tc main_v3) : S16384x128.Idx → EReal)
          slices_S16384x128_S16384x64_0_0 := by
  dsimp only [W7, hostOps2]; after_results

/-- The second launch's output array is what its write-backs leave. -/
theorem W6_v3 (c : Dev nD) : W6 m ρ c (Proc.devRef .tc main_v3) = (dat1 (Vb m ρ) c).arrAt 4 cfg1.N :=
  W6_arr m ρ c 4

/-- The adjacency matrix enters the second launch as launched. -/
theorem W5_arg1 (c : Dev nD) : W5 m ρ c (Proc.devRef .tc main_arg1) = m ((c : Thread nD τ).loc main_arg1) :=
  calc W5 m ρ c (Proc.devRef .tc main_arg1)
    _ = W4 m ρ c (Proc.devRef .tc main_arg1) := StableHlo.after_of_writes_sub hostOps1_3 _ hostOps1_3_writes (by decide)
    _ = W3 m ρ c (Proc.devRef .tc main_arg1) := StableHlo.after_of_writes_sub hostOps1_2 _ hostOps1_2_writes (by decide)
    _ = W2 m ρ c (Proc.devRef .tc main_arg1) := StableHlo.after_of_writes_sub hostOps1_1 _ hostOps1_1_writes (by decide)
    _ = W1 m ρ c (Proc.devRef .tc main_arg1) := StableHlo.after_of_writes_sub hostOps1 _ hostOps1_writes (by decide)
    _ = W0 m ρ c (Proc.devRef .tc main_arg1) := (W1_arr m ρ c 1).trans (((dat0 (Va m ρ) c).arrAt_in 1 rfl _).trans (A_eq0 (Va m ρ) c 1))
    _ = m ((c : Thread nD τ).loc main_arg1) := rfl

/-- The hidden layer enters the second launch as the first launch's write-backs left it. -/
theorem W5_v0 (c : Dev nD) : W5 m ρ c (Proc.devRef .tc main_v0) = (dat0 (Va m ρ) c).arrAt 4 cfg0.N :=
  calc W5 m ρ c (Proc.devRef .tc main_v0)
    _ = W4 m ρ c (Proc.devRef .tc main_v0) := StableHlo.after_of_writes_sub hostOps1_3 _ hostOps1_3_writes (by decide)
    _ = W3 m ρ c (Proc.devRef .tc main_v0) := StableHlo.after_of_writes_sub hostOps1_2 _ hostOps1_2_writes (by decide)
    _ = W2 m ρ c (Proc.devRef .tc main_v0) := StableHlo.after_of_writes_sub hostOps1_1 _ hostOps1_1_writes (by decide)
    _ = W1 m ρ c (Proc.devRef .tc main_v0) := StableHlo.after_of_writes_sub hostOps1 _ hostOps1_writes (by decide)
    _ = (dat0 (Va m ρ) c).arrAt 4 cfg0.N := W1_arr m ρ c 4

/-- The padding value: the zero word converted. Its value is never read by the result. -/
abbrev padv : FVec Ideal S_ .f32 := sitofp (F := Ideal) .f32 (constantI S_ 32 0#32)

/-- The second layer's weights enter the second launch padded to 128 columns. -/
theorem W5_v1 (c : Dev nD) :
    (W5 m ρ c (Proc.devRef .tc main_v1) : S128x128.Idx → EReal)
      = pad S128x128 ![0, 0] ![0, 64] ![0, 0] (m ((c : Thread nD τ).loc main_arg4) : FVec Ideal S128x64 .f32) padv
          pads_S128x64_S128x128_000_0640 h_S_ := by
  refine (StableHlo.after_of_writes_sub hostOps1_3 _ hostOps1_3_writes (by decide)).trans ?_
  refine (StableHlo.after_of_writes_sub hostOps1_2 _ hostOps1_2_writes (by decide)).trans ?_
  have e : (W3 m ρ c (Proc.devRef .tc main_v1) : S128x128.Idx → EReal)
      = pad S128x128 ![0, 0] ![0, 64] ![0, 0] (W1 m ρ c (Proc.devRef .tc main_arg4) : FVec Ideal S128x64 .f32) padv
          pads_S128x64_S128x128_000_0640 h_S_ := by
    dsimp only [W3, hostOps1_1]; after_results; rfl
  exact e.trans (congrArg (fun x : FVec Ideal S128x64 .f32 =>
    pad S128x128 ![0, 0] ![0, 64] ![0, 0] x padv pads_S128x64_S128x128_000_0640 h_S_) (W1_of_ne m ρ c main_arg4 (by decide)))

/-- The second layer's bias enters the second launch padded to 128 entries. -/
theorem W5_v2 (c : Dev nD) :
    (W5 m ρ c (Proc.devRef .tc main_v2) : S128.Idx → EReal)
      = pad S128 ![0] ![64] ![0] (m ((c : Thread nD τ).loc main_arg5) : FVec Ideal S64 .f32) padv
          pads_S64_S128_0640 h_S_ := by
  have e : (W5 m ρ c (Proc.devRef .tc main_v2) : S128.Idx → EReal)
      = pad S128 ![0] ![64] ![0] (W1 m ρ c (Proc.devRef .tc main_arg5) : FVec Ideal S64 .f32) padv
          pads_S64_S128_0640 h_S_ := by
    dsimp only [W5, hostOps1_3]; after_results; rfl
  exact e.trans (congrArg (fun x : FVec Ideal S64 .f32 =>
    pad S128 ![0] ![64] ![0] x padv pads_S64_S128_0640 h_S_) (W1_of_ne m ρ c main_arg5 (by decide)))

/-- THE RESULT. Given what each launch's write-backs leave in its output array, entry by entry, for any contents it is
    entered with — the first the hidden layer, the second the aggregation of the projected rows plus the bias — the
    array the program returns is the two-layer function of the six arguments as launched: the second launch is entered
    with the adjacency matrix as launched, the hidden layer the first launch left, and the weights and bias padded to
    128 columns; the columns the final cut keeps are below 64, where the padded arrays are the originals. -/
theorem result_eq
    (h0 : ∀ (V : (c : Dev nD) → (b : Ref sig .tc) → Buf (Elt Ideal) ((c : Thread nD τ).loc b)) (c : Dev nD)
      (p : Fin 16384) (q : Fin 128),
      (dat0 V c).arrAt 4 cfg0.N (ix2 p q)
        = Cert.Gcn.hidden (V c main_arg0) (V c main_arg1) (V c main_arg2) (V c main_arg3) p q)
    (h1 : ∀ (V : (c : Dev nD) → (b : Ref sig .tc) → Buf (Elt Ideal) ((c : Thread nD τ).loc b)) (c : Dev nD)
      (p : Fin 16384) (q : Fin 128),
      (dat1 V c).arrAt 4 cfg1.N (ix2 p q)
        = Cert.Gcn.second (V c main_arg1) (V c main_v0) (V c main_v1) (V c main_v2) p q)
    (m : (ℓ : Loc nD τ sig) → Buf (Elt Ideal) ℓ) (ρ : Dev nD → PrngReg) (c : Dev nD) :
    W7 m ρ c (Proc.devRef .tc main_v4)
      = Cert.Gcn.G (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5)) := by
  funext i
  obtain ⟨p, q, rfl⟩ : ∃ (p : Fin 16384) (q : Fin 64), i = ix2 p q := ⟨i 0, i 1, eq_ix2 i⟩
  have hq : q.val < 128 := by omega
  refine (congrFun (W7_v4 m ρ c) (ix2 p q)).trans ?_
  refine (slice_cols _ p q).trans ?_
  refine (congrFun (W6_v3 m ρ c) (ix2 p ⟨q.val, hq⟩)).trans ?_
  refine (h1 (Vb m ρ) c p ⟨q.val, hq⟩).trans ?_
  have eA : ∀ j : Fin 16384, Vb m ρ c main_arg1 (ix2 p j) = m ((c : Thread nD τ).loc main_arg1) (ix2 p j) :=
    fun j => congrFun (W5_arg1 m ρ c) (ix2 p j)
  have eH : ∀ (j : Fin 16384) (f : Fin 128), Vb m ρ c main_v0 (ix2 j f)
      = Cert.Gcn.hidden (m ((c : Thread nD τ).loc main_arg0)) (m ((c : Thread nD τ).loc main_arg1))
          (m ((c : Thread nD τ).loc main_arg2)) (m ((c : Thread nD τ).loc main_arg3)) j f :=
    fun j f => (congrFun (W5_v0 m ρ c) (ix2 j f)).trans (h0 (Va m ρ) c j f)
  have eW : ∀ f : Fin 128, Vb m ρ c main_v1 (ix2 f (⟨q.val, hq⟩ : Fin 128))
      = m ((c : Thread nD τ).loc main_arg4) (ix2 f q) :=
    fun f => (congrFun (W5_v1 m ρ c) (ix2 f (⟨q.val, hq⟩ : Fin 128))).trans
      ((pad_w2 _ _ f ⟨q.val, hq⟩).trans (dif_pos q.isLt))
  have eB : Vb m ρ c main_v2 (ix1 (⟨q.val, hq⟩ : Fin 128)) = m ((c : Thread nD τ).loc main_arg5) (ix1 q) :=
    (congrFun (W5_v2 m ρ c) (ix1 (⟨q.val, hq⟩ : Fin 128))).trans ((pad_b2 _ _ ⟨q.val, hq⟩).trans (dif_pos q.isLt))
  rw [Cert.Gcn.G_apply]
  unfold Cert.Gcn.second Cert.Gcn.out Cert.Gcn.proj2
  exact congrArg₂ (· + ·)
    (Finset.sum_congr rfl fun j _ => congrArg₂ (· * ·) (eA j)
      (Finset.sum_congr rfl fun f _ => congrArg₂ (· * ·) (eH j f) (eW f))) eB

end Cert.KernelIdeal.Hand

end
-- ==== Proof.RefValue.lean ====
/-
  The reference program's result is the specification's function of the arguments.

  The reference computes, with whole-array host operations, first the product X·W1, then A·(X·W1), adds the bias b1
  broadcast along the rows, takes the maximum with a zero array, then the product H·W2, then A·(H·W2), and adds the
  bias b2 broadcast along the rows. Read at one entry (i, c), each product is the finite sum over its one contracted
  coordinate, each broadcast is the bias at the column c (or the constant zero), and the sum and the maximum are the
  extended reals' own. Stage by stage these are the specification's proj1, hidden, proj2 and out.
-/
import proofs.«111412_j558345748855_2_alg».proof.Defs
import proofs.«111412_j558345748855_2_alg».proof.Proof.Gen.ReferenceIdeal.Read
import proofs.«111412_j558345748855_2_alg».proof.Proof.Spec
import proofs.«111412_j558345748855_2_alg».proof.Proof.LibPlainMatmul

noncomputable section

namespace Cert.RefSide

open Idealize.ShloMosaic Idealize.ShloMosaic.TcCoe Idealize.SL.Sem Idealize.ShloMosaic.ValueIdx
open Cert.ReferenceIdeal Cert.ReferenceIdeal.Gen Cert.ReferenceIdeal.Read
open scoped BigOperators

/-! ## The four matrix products at an entry

Each of the four products contracts the left operand's second axis with the right operand's first, so its entry at
row p and column c is the sum over the contracted coordinate k of left (p, k) times right (k, c). -/

/-- X · W1 at (j, c). -/
theorem dot_xw1 (x : FVec Ideal S16384x128 .f32) (w1 : FVec Ideal S128x128 .f32) (j : Fin 16384) (c : Fin 128) :
    Host.dotGeneral dot_S16384x128_S128x128_S16384x128_1_0_0_1_n_n none x w1 (ix2 j c)
      = ∑ f : Fin 128, x (ix2 j f) * w1 (ix2 f c) :=
  Cert.LibPlainMatmul.dotGeneral_apply 16384 128 128 none x w1 j c

/-- A · Y for a 128-column Y at (i, c). -/
theorem dot_a128 (a : FVec Ideal S16384x16384 .f32) (y : FVec Ideal S16384x128 .f32) (i : Fin 16384) (c : Fin 128) :
    Host.dotGeneral dot_S16384x16384_S16384x128_S16384x128_1_0_0_1_n_n none a y (ix2 i c)
      = ∑ j : Fin 16384, a (ix2 i j) * y (ix2 j c) :=
  Cert.LibPlainMatmul.dotGeneral_apply 16384 16384 128 none a y i c

/-- H · W2 at (j, c). -/
theorem dot_hw2 (h : FVec Ideal S16384x128 .f32) (w2 : FVec Ideal S128x64 .f32) (j : Fin 16384) (c : Fin 64) :
    Host.dotGeneral dot_S16384x128_S128x64_S16384x64_1_0_0_1_n_n none h w2 (ix2 j c)
      = ∑ f : Fin 128, h (ix2 j f) * w2 (ix2 f c) :=
  Cert.LibPlainMatmul.dotGeneral_apply 16384 128 64 none h w2 j c

/-- A · Y for a 64-column Y at (i, c). -/
theorem dot_a64 (a : FVec Ideal S16384x16384 .f32) (y : FVec Ideal S16384x64 .f32) (i : Fin 16384) (c : Fin 64) :
    Host.dotGeneral dot_S16384x16384_S16384x64_S16384x64_1_0_0_1_n_n none a y (ix2 i c)
      = ∑ j : Fin 16384, a (ix2 i j) * y (ix2 j c) :=
  Cert.LibPlainMatmul.dotGeneral_apply 16384 16384 64 none a y i c

/-! ## The broadcasts at an entry -/

/-- The bias b1, made a one-row array and repeated along the rows, reads b1 at the column. -/
theorem bias1_at (b1 : FVec Ideal S128 .f32) (i : Fin 16384) (c : Fin 128) :
    broadcastInDim S16384x128 ![0, 1] bcast_S1x128_S16384x128_0_1 (broadcastInDim S1x128 ![1] bcast_S128_S1x128_1 b1) (ix2 i c)
      = b1 (ix1 c) := by
  refine (val_main_v3_apply (F := Ideal) b1 (ix2 i c)).trans ?_
  refine (val_main_v2_apply (F := Ideal) b1 _).trans ?_
  exact congrArg b1 (funext fun d => match d with | ⟨0, _⟩ => rfl)

/-- The bias b2, made a one-row array and repeated along the rows, reads b2 at the column. -/
theorem bias2_at (b2 : FVec Ideal S64 .f32) (i : Fin 16384) (c : Fin 64) :
    broadcastInDim S16384x64 ![0, 1] bcast_S1x64_S16384x64_0_1 (broadcastInDim S1x64 ![1] bcast_S64_S1x64_1 b2) (ix2 i c)
      = b2 (ix1 c) := by
  refine (val_main_v9_apply (F := Ideal) b2 (ix2 i c)).trans ?_
  refine (val_main_v8_apply (F := Ideal) b2 _).trans ?_
  exact congrArg b2 (funext fun d => match d with | ⟨0, _⟩ => rfl)

/-- The zero constant repeated over the whole array reads the extended real 0. -/
theorem zero_at (i : Fin 16384) (c : Fin 128) :
    broadcastInDim S16384x128 ![] bcast_S_S16384x128 (constant (F := Ideal) S_ .f32 0x00000000#32) (ix2 i c) = 0 := by
  refine (val_main_call0_v0_apply (F := Ideal) (ix2 i c)).trans ?_
  refine (val_main_call0_cst_apply (F := Ideal) _).trans ?_
  exact Ideal.ofBits_zero_f32

/-! ## The stages -/

/-- The first layer's output at (i, c) is the specification's hidden value. -/
theorem hidden_at (x : FVec Ideal S16384x128 .f32) (a : FVec Ideal S16384x16384 .f32) (w1 : FVec Ideal S128x128 .f32)
    (b1 : FVec Ideal S128 .f32) (i : Fin 16384) (c : Fin 128) :
    maximumf (addf (Host.dotGeneral dot_S16384x16384_S16384x128_S16384x128_1_0_0_1_n_n none a
        (Host.dotGeneral dot_S16384x128_S128x128_S16384x128_1_0_0_1_n_n none x w1))
        (broadcastInDim S16384x128 ![0, 1] bcast_S1x128_S16384x128_0_1 (broadcastInDim S1x128 ![1] bcast_S128_S1x128_1 b1)))
      (broadcastInDim S16384x128 ![] bcast_S_S16384x128 (constant S_ .f32 0x00000000#32)) (ix2 i c)
      = Cert.Gcn.hidden x a w1 b1 i c := by
  rw [maximumf_apply, addf_apply, dot_a128, bias1_at, zero_at]
  unfold Cert.Gcn.hidden
  refine congrArg (fun t => max (t + b1 (ix1 c)) 0) ?_
  exact Finset.sum_congr rfl fun j _ => congrArg (a (ix2 i j) * ·) (dot_xw1 x w1 j c)

/-- The whole result at (p, q) is the specification's out. -/
theorem out_at (x : FVec Ideal S16384x128 .f32) (a : FVec Ideal S16384x16384 .f32) (w1 : FVec Ideal S128x128 .f32)
    (b1 : FVec Ideal S128 .f32) (w2 : FVec Ideal S128x64 .f32) (b2 : FVec Ideal S64 .f32) (p : Fin 16384) (q : Fin 64) :
    addf (Host.dotGeneral dot_S16384x16384_S16384x64_S16384x64_1_0_0_1_n_n none a
        (Host.dotGeneral dot_S16384x128_S128x64_S16384x64_1_0_0_1_n_n none
          (maximumf (addf (Host.dotGeneral dot_S16384x16384_S16384x128_S16384x128_1_0_0_1_n_n none a
              (Host.dotGeneral dot_S16384x128_S128x128_S16384x128_1_0_0_1_n_n none x w1))
              (broadcastInDim S16384x128 ![0, 1] bcast_S1x128_S16384x128_0_1 (broadcastInDim S1x128 ![1] bcast_S128_S1x128_1 b1)))
            (broadcastInDim S16384x128 ![] bcast_S_S16384x128 (constant S_ .f32 0x00000000#32))) w2))
      (broadcastInDim S16384x64 ![0, 1] bcast_S1x64_S16384x64_0_1 (broadcastInDim S1x64 ![1] bcast_S64_S1x64_1 b2)) (ix2 p q)
      = Cert.Gcn.out x a w1 b1 w2 b2 p q := by
  rw [addf_apply, dot_a64, bias2_at]
  unfold Cert.Gcn.out
  refine congrArg (fun t => t + b2 (ix1 q)) ?_
  refine Finset.sum_congr rfl fun j _ => congrArg (a (ix2 p j) * ·) ?_
  rw [dot_hw2]
  unfold Cert.Gcn.proj2
  exact Finset.sum_congr rfl fun f _ => congrArg (· * w2 (ix2 f q)) (hidden_at x a w1 b1 j f)

/-! ## The reference's result term is the specification's function -/

/-- The term the reference's run ends its result buffer at is G of the arguments: entry by entry it is out. -/
theorem result_eq (x : FVec Ideal S16384x128 .f32) (a : FVec Ideal S16384x16384 .f32) (w1 : FVec Ideal S128x128 .f32)
    (b1 : FVec Ideal S128 .f32) (w2 : FVec Ideal S128x64 .f32) (b2 : FVec Ideal S64 .f32) :
    addf (Host.dotGeneral dot_S16384x16384_S16384x64_S16384x64_1_0_0_1_n_n none a (Host.dotGeneral dot_S16384x128_S128x64_S16384x64_1_0_0_1_n_n none (maximumf (addf (Host.dotGeneral dot_S16384x16384_S16384x128_S16384x128_1_0_0_1_n_n none a (Host.dotGeneral dot_S16384x128_S128x128_S16384x128_1_0_0_1_n_n none x w1)) (broadcastInDim S16384x128 ![0, 1] bcast_S1x128_S16384x128_0_1 (broadcastInDim S1x128 ![1] bcast_S128_S1x128_1 b1))) (broadcastInDim S16384x128 ![] bcast_S_S16384x128 (constant S_ .f32 0x00000000#32))) w2)) (broadcastInDim S16384x64 ![0, 1] bcast_S1x64_S16384x64_0_1 (broadcastInDim S1x64 ![1] bcast_S64_S1x64_1 b2))
      = Cert.Gcn.G x a w1 b1 w2 b2 := by
  funext i
  obtain ⟨p, q, rfl⟩ : ∃ (p : Fin 16384) (q : Fin 64), i = ix2 p q := ⟨i 0, i 1, eq_ix2 i⟩
  exact (out_at x a w1 b1 w2 b2 p q).trans (Cert.Gcn.G_apply x a w1 b1 w2 b2 p q).symm

/-! ## The run -/

/-- From any memory with zero counters every weakly fair execution of the reference terminates with its result buffer
    at G of the launch contents of its six arguments, and the arguments unchanged. -/
theorem ref_run (m' : (ℓ : Loc Cert.ReferenceIdeal.nD Cert.ReferenceIdeal.τ Cert.ReferenceIdeal.sig) → Buf (Elt Ideal) ℓ)
    (g' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10)
            = Cert.Gcn.G (m' ((c.tc : Thread Cert.ReferenceIdeal.nD Cert.ReferenceIdeal.τ).loc Cert.ReferenceIdeal.main_arg0))
                (m' ((c.tc : Thread Cert.ReferenceIdeal.nD Cert.ReferenceIdeal.τ).loc Cert.ReferenceIdeal.main_arg1))
                (m' ((c.tc : Thread Cert.ReferenceIdeal.nD Cert.ReferenceIdeal.τ).loc Cert.ReferenceIdeal.main_arg2))
                (m' ((c.tc : Thread Cert.ReferenceIdeal.nD Cert.ReferenceIdeal.τ).loc Cert.ReferenceIdeal.main_arg3))
                (m' ((c.tc : Thread Cert.ReferenceIdeal.nD Cert.ReferenceIdeal.τ).loc Cert.ReferenceIdeal.main_arg4))
                (m' ((c.tc : Thread Cert.ReferenceIdeal.nD Cert.ReferenceIdeal.τ).loc Cert.ReferenceIdeal.main_arg5))
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)) :=
  (θ_run _ _ _).mono (fun _ h c => ⟨(h c).1.trans (result_eq ..), (h c).2⟩)
    (Cert.ReferenceIdeal.Value.run (F := Ideal) m' g')

/-- The reference runs and leaves its arguments unchanged. -/
theorem frame_ri [Cert.Pre_finite_inputs.Facts] : Cert.frame_ReferenceIdeal := fun m ρ _ =>
  (θ_run Cert.ReferenceIdeal.defs _ _).mono (fun _ h c => (h c).2) (Cert.ReferenceIdeal.Value.run (F := Ideal) m ρ)

end Cert.RefSide

end
-- ==== Proof.lean ====
/-
  A two-layer graph convolution computed tile by tile against the same two layers computed by whole matrix products.

  The kernel program launches one pass per layer over a grid of 8 row tiles by 16 contraction tiles. At each grid point
  it adds (adjacency tile) * ((feature tile) * weights) to an accumulator that lives in a scratch buffer, zeroed where a
  row tile starts; where a row tile ends it adds the bias (and, in the first layer, clamps below at zero) and writes the
  output tile back. Between the passes the host pads the second layer's weights and bias with zero columns, and at the
  end slices the padded columns off. Over the extended reals a change of float format is the identity, a product
  accumulated over 16 contraction tiles is the whole product (a finite sum regrouped), and the padded columns never
  reach the result: so the program computes, entry by entry, the function `Cert.Gcn.G` of its six arguments — the same
  function the reference's host operations compute.

  The three frames: each launch is run from a description of what every window's buffer and the accumulator hold after
  each grid point; the reference is host operations only. The idealization rewrote nothing, so the second-to-last
  conjunct is trivial.
-/
import proofs.«111412_j558345748855_2_alg».proof.Defs
import proofs.«111412_j558345748855_2_alg».proof.Proof.Gen.Kernel
import proofs.«111412_j558345748855_2_alg».proof.Proof.Gen.KernelIdeal
import proofs.«111412_j558345748855_2_alg».proof.Proof.Gen.ReferenceIdeal
import proofs.«111412_j558345748855_2_alg».proof.Proof.Gen.Pre_finite_inputs
import proofs.«111412_j558345748855_2_alg».proof.Proof.KRun
import proofs.«111412_j558345748855_2_alg».proof.Proof.KArgs
import proofs.«111412_j558345748855_2_alg».proof.Proof.Run
import proofs.«111412_j558345748855_2_alg».proof.Proof.Args
import proofs.«111412_j558345748855_2_alg».proof.Proof.Bridge0
import proofs.«111412_j558345748855_2_alg».proof.Proof.Bridge1
import proofs.«111412_j558345748855_2_alg».proof.Proof.Glue
import proofs.«111412_j558345748855_2_alg».proof.Proof.RefValue
import Idealize.ShloMosaic.Adequacy
import Idealize.ShloMosaic.Init

noncomputable section

namespace Cert.Proof

open Idealize.ShloMosaic Idealize.SL.Sem

/-- The word-level program runs to the end and leaves its arguments as it found them. -/
theorem frame_k : Cert.frame_Kernel := fun m ρ _ =>
  (θ_run (Cert.Kernel.defs (F := Bits)) _ _).mono (fun _ h c =>
    ⟨(h c _ (Cert.Kernel.Hand.mem_uc Cert.Kernel.main_arg0 (by decide))).trans (Cert.Kernel.Hand.W7_main_arg0 m ρ c),
     (h c _ (Cert.Kernel.Hand.mem_uc Cert.Kernel.main_arg1 (by decide))).trans (Cert.Kernel.Hand.W7_main_arg1 m ρ c),
     (h c _ (Cert.Kernel.Hand.mem_uc Cert.Kernel.main_arg2 (by decide))).trans (Cert.Kernel.Hand.W7_main_arg2 m ρ c),
     (h c _ (Cert.Kernel.Hand.mem_uc Cert.Kernel.main_arg3 (by decide))).trans (Cert.Kernel.Hand.W7_main_arg3 m ρ c),
     (h c _ (Cert.Kernel.Hand.mem_uc Cert.Kernel.main_arg4 (by decide))).trans (Cert.Kernel.Hand.W7_main_arg4 m ρ c),
     (h c _ (Cert.Kernel.Hand.mem_uc Cert.Kernel.main_arg5 (by decide))).trans (Cert.Kernel.Hand.W7_main_arg5 m ρ c)⟩)
    (Cert.Kernel.Hand.run_all (F := Bits) m ρ)

/-- So does its idealization. -/
theorem frame_ki : Cert.frame_KernelIdeal := fun m ρ _ =>
  (θ_run (Cert.KernelIdeal.defs (F := Ideal)) _ _).mono (fun _ h c =>
    ⟨(h c _ (Cert.KernelIdeal.Hand.mem_uc Cert.KernelIdeal.main_arg0 (by decide))).trans (Cert.KernelIdeal.Hand.W7_main_arg0 m ρ c),
     (h c _ (Cert.KernelIdeal.Hand.mem_uc Cert.KernelIdeal.main_arg1 (by decide))).trans (Cert.KernelIdeal.Hand.W7_main_arg1 m ρ c),
     (h c _ (Cert.KernelIdeal.Hand.mem_uc Cert.KernelIdeal.main_arg2 (by decide))).trans (Cert.KernelIdeal.Hand.W7_main_arg2 m ρ c),
     (h c _ (Cert.KernelIdeal.Hand.mem_uc Cert.KernelIdeal.main_arg3 (by decide))).trans (Cert.KernelIdeal.Hand.W7_main_arg3 m ρ c),
     (h c _ (Cert.KernelIdeal.Hand.mem_uc Cert.KernelIdeal.main_arg4 (by decide))).trans (Cert.KernelIdeal.Hand.W7_main_arg4 m ρ c),
     (h c _ (Cert.KernelIdeal.Hand.mem_uc Cert.KernelIdeal.main_arg5 (by decide))).trans (Cert.KernelIdeal.Hand.W7_main_arg5 m ρ c)⟩)
    (Cert.KernelIdeal.Hand.run_all (F := Ideal) m ρ)

/-- Over the extended reals the kernel program ends with `Cert.Gcn.G` of its arguments in its result buffer, and so does
    the reference, run from a memory that agrees on the arguments. -/
theorem algebraic : Cert.algebraic_KernelIdeal_ReferenceIdeal := by
  intro m g m' g' _ hagree
  refine ⟨fun c => Cert.Gcn.G
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5)), ?_,
    Cert.RefSide.ref_run m' g'⟩
  refine (θ_run (Cert.KernelIdeal.defs (F := Ideal)) _ _).mono (fun _ h c => ⟨?_,
     (h c _ (Cert.KernelIdeal.Hand.mem_uc Cert.KernelIdeal.main_arg0 (by decide))).trans (Cert.KernelIdeal.Hand.W7_main_arg0 m g c),
     (h c _ (Cert.KernelIdeal.Hand.mem_uc Cert.KernelIdeal.main_arg1 (by decide))).trans (Cert.KernelIdeal.Hand.W7_main_arg1 m g c),
     (h c _ (Cert.KernelIdeal.Hand.mem_uc Cert.KernelIdeal.main_arg2 (by decide))).trans (Cert.KernelIdeal.Hand.W7_main_arg2 m g c),
     (h c _ (Cert.KernelIdeal.Hand.mem_uc Cert.KernelIdeal.main_arg3 (by decide))).trans (Cert.KernelIdeal.Hand.W7_main_arg3 m g c),
     (h c _ (Cert.KernelIdeal.Hand.mem_uc Cert.KernelIdeal.main_arg4 (by decide))).trans (Cert.KernelIdeal.Hand.W7_main_arg4 m g c),
     (h c _ (Cert.KernelIdeal.Hand.mem_uc Cert.KernelIdeal.main_arg5 (by decide))).trans (Cert.KernelIdeal.Hand.W7_main_arg5 m g c)⟩)
    (Cert.KernelIdeal.Hand.run_all (F := Ideal) m g)
  refine (h c _ (Cert.KernelIdeal.Hand.mem_uc Cert.KernelIdeal.main_v4 (by decide))).trans ?_
  beta_reduce
  rw [(hagree c).1, (hagree c).2.1, (hagree c).2.2.1, (hagree c).2.2.2.1, (hagree c).2.2.2.2.1, (hagree c).2.2.2.2.2]
  exact Cert.KernelIdeal.Hand.result_eq (fun V c p q => Cert.KernelIdeal.Hand.final0 V c p q)
    (fun V c p q => Cert.KernelIdeal.Hand.final1 V c p q) m g c

theorem claim : Cert.Claim :=
  ⟨Cert.Kernel.Gen.facts, Cert.KernelIdeal.Gen.facts, Cert.ReferenceIdeal.Gen.facts, Cert.Pre_finite_inputs.Gen.facts,
    frame_k, frame_ki, Cert.RefSide.frame_ri, trivial, algebraic⟩

end Cert.Proof

end
